-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x6400000 : Shape := ⟨2, ![2, 6400000]⟩
abbrev S6400000 : Shape := ⟨1, ![6400000]⟩
abbrev S256x16 : Shape := ⟨2, ![256, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_

variable [Facts]

def fn_part2 {F : FTy → Type} [FloatOps F] (main_arg8 : FVec F S32 .f32) (main_arg9 : FVec F S32x16 .f32) (main_arg10 : FVec F S16 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S16x32 .f32) (main_arg6 : FVec F S32 .f32) (main_arg7 : FVec F S32x32 .f32) (main_arg8 : FVec F S32 .f32) (main_arg9 : FVec F S32x16 .f32) (main_arg10 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : IVec S2x6400000 32) (main_arg2 : FVec F S6400000 .f32) (main_arg3 : FVec F S256x16 .f32) (main_arg4 : FVec F S16 .f32) (main_arg5 : FVec F S16x32 .f32) (main_arg6 : FVec F S32 .f32) (main_arg7 : FVec F S32x32 .f32) (main_arg8 : FVec F S32 .f32) (main_arg9 : FVec F S32x16 .f32) (main_arg10 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S256x16 .f32 := Host.absf main_arg3
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S2x6400000 : Shape := ⟨2, ![2, 6400000]⟩
abbrev S6400000 : Shape := ⟨1, ![6400000]⟩
abbrev S256x16 : Shape := ⟨2, ![256, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S1x6400000 : Shape := ⟨2, ![1, 6400000]⟩
abbrev S_ : Shape := ⟨0, ![]⟩
abbrev S100000 : Shape := ⟨1, ![100000]⟩
abbrev S6400000x1 : Shape := ⟨2, ![6400000, 1]⟩
abbrev S100000x16 : Shape := ⟨2, ![100000, 16]⟩
abbrev S2000x256 : Shape := ⟨2, ![2000, 256]⟩
abbrev S2000x16 : Shape := ⟨2, ![2000, 16]⟩
abbrev S6400000x16 : Shape := ⟨2, ![6400000, 16]⟩
abbrev S100000x1 : Shape := ⟨2, ![100000, 1]⟩
abbrev S1x16 : Shape := ⟨2, ![1, 16]⟩
abbrev S2000x1 : Shape := ⟨2, ![2000, 1]⟩
abbrev S100000x32 : Shape := ⟨2, ![100000, 32]⟩
abbrev S2000x32 : Shape := ⟨2, ![2000, 32]⟩
abbrev S6400000x32 : Shape := ⟨2, ![6400000, 32]⟩
abbrev S1x32 : Shape := ⟨2, ![1, 32]⟩

abbrev nBuf : Space → Nat
  | .hbm => 153
  | .vmem => 47
  | .smem => 0
  | _ => 0

abbrev hbmTy0_0 (i : Nat) : BufTy := match i % 128 with
  | 0 => ⟨S100000x256, .f32⟩
  | 1 => ⟨S2x6400000, .i32⟩
  | 2 => ⟨S6400000, .f32⟩
  | 3 => ⟨S256x16, .f32⟩
  | 4 => ⟨S16, .f32⟩
  | 5 => ⟨S16x32, .f32⟩
  | 6 => ⟨S32, .f32⟩
  | 7 => ⟨S32x32, .f32⟩
  | 8 => ⟨S32, .f32⟩
  | 9 => ⟨S32x16, .f32⟩
  | 10 => ⟨S16, .f32⟩
  | 11 => ⟨S1x6400000, .i32⟩
  | 12 => ⟨S6400000, .i32⟩
  | 13 => ⟨S1x6400000, .i32⟩
  | 14 => ⟨S6400000, .i32⟩
  | 15 => ⟨S_, .f32⟩
  | 16 => ⟨S100000, .f32⟩
  | 17 => ⟨S6400000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S6400000, .i32⟩
  | 32 => ⟨S6400000, .i1⟩
  | 33 => ⟨S_, .i32⟩
  | 34 => ⟨S6400000, .i32⟩
  | 35 => ⟨S6400000, .i32⟩
  | 36 => ⟨S6400000, .i32⟩
  | 37 => ⟨S6400000x1, .i32⟩
  | 38 => ⟨S6400000, .f32⟩
  | 39 => ⟨S6400000, .f32⟩
  | 40 => ⟨S_, .i32⟩
  | 41 => ⟨S6400000, .i32⟩
  | 42 => ⟨S6400000, .i1⟩
  | 43 => ⟨S_, .i32⟩
  | 44 => ⟨S6400000, .i32⟩
  | 45 => ⟨S6400000, .i32⟩
  | 46 => ⟨S6400000, .i32⟩
  | 47 => ⟨S6400000x1, .i32⟩
  | 48 => ⟨S6400000, .f32⟩
  | 49 => ⟨S6400000, .f32⟩
  | 50 => ⟨S_, .i32⟩
  | 51 => ⟨S_, .f32⟩
  | 52 => ⟨S100000x256, .f32⟩
  | 53 => ⟨S100000x16, .f32⟩
  | 54 => ⟨S_, .i32⟩
  | 55 => ⟨S6400000, .i32⟩
  | 56 => ⟨S6400000, .i1⟩
  | 57 => ⟨S_, .i32⟩
  | 58 => ⟨S6400000, .i32⟩
  | 59 => ⟨S6400000, .i32⟩
  | 60 => ⟨S6400000, .i32⟩
  | 61 => ⟨S6400000x1, .i32⟩
  | 62 => ⟨S6400000x16, .f32⟩
  | 63 => ⟨S6400000x1, .f32⟩
  | 64 => ⟨S6400000x16, .f32⟩
  | 65 => ⟨S6400000x16, .f32⟩
  | 66 => ⟨S_, .f32⟩
  | 67 => ⟨S100000x16, .f32⟩
  | 68 => ⟨S6400000x1, .i32⟩
  | 69 => ⟨S100000x16, .f32⟩
  | 70 => ⟨S_, .i32⟩
  | 71 => ⟨S_, .f32⟩
  | 72 => ⟨S100000x16, .f32⟩
  | 73 => ⟨S_, .i32⟩
  | 74 => ⟨S_, .f32⟩
  | 75 => ⟨S100000x16, .f32⟩
  | 76 => ⟨S_, .i32⟩
  | 77 => ⟨S_, .f32⟩
  | 78 => ⟨S100000, .f32⟩
  | 79 => ⟨S100000x1, .f32⟩
  | 80 => ⟨S1x16, .f32⟩
  | 81 => ⟨S100000x16, .f32⟩
  | 82 => ⟨S_, .i32⟩
  | 83 => ⟨S_, .f32⟩
  | 84 => ⟨S100000x16, .f32⟩
  | 85 => ⟨S100000x32, .f32⟩
  | 86 => ⟨S_, .i32⟩
  | 87 => ⟨S6400000, .i32⟩
  | 88 => ⟨S6400000, .i1⟩
  | 89 => ⟨S_, .i32⟩
  | 90 => ⟨S6400000, .i32⟩
  | 91 => ⟨S6400000, .i32⟩
  | 92 => ⟨S6400000, .i32⟩
  | 93 => ⟨S6400000x1, .i32⟩
  | 94 => ⟨S6400000x32, .f32⟩
  | 95 => ⟨S6400000x1, .f32⟩
  | 96 => ⟨S6400000x32, .f32⟩
  | 97 => ⟨S6400000x32, .f32⟩
  | 98 => ⟨S_, .f32⟩
  | 99 => ⟨S100000x32, .f32⟩
  | 100 => ⟨S6400000x1, .i32⟩
  | 101 => ⟨S100000x32, .f32⟩
  | 102 => ⟨S_, .i32⟩
  | 103 => ⟨S_, .f32⟩
  | 104 => ⟨S100000x32, .f32⟩
  | 105 => ⟨S_, .i32⟩
  | 106 => ⟨S_, .f32⟩
  | 107 => ⟨S100000x32, .f32⟩
  | 108 => ⟨S_, .i32⟩
  | 109 => ⟨S_, .f32⟩
  | 110 => ⟨S100000, .f32⟩
  | 111 => ⟨S100000x1, .f32⟩
  | 112 => ⟨S1x32, .f32⟩
  | 113 => ⟨S100000x32, .f32⟩
  | 114 => ⟨S_, .i32⟩
  | 115 => ⟨S_, .f32⟩
  | 116 => ⟨S100000x32, .f32⟩
  | 117 => ⟨S100000x32, .f32⟩
  | 118 => ⟨S_, .i32⟩
  | 119 => ⟨S6400000, .i32⟩
  | 120 => ⟨S6400000, .i1⟩
  | 121 => ⟨S_, .i32⟩
  | 122 => ⟨S6400000, .i32⟩
  | 123 => ⟨S6400000, .i32⟩
  | 124 => ⟨S6400000, .i32⟩
  | 125 => ⟨S6400000x1, .i32⟩
  | 126 => ⟨S6400000x32, .f32⟩
  | 127 => ⟨S6400000x1, .f32⟩
  | _ => ⟨S100000x256, .f32⟩

abbrev hbmTy0_1 (i : Nat) : BufTy := match i % 128 with
  | 0 => ⟨S6400000x32, .f32⟩
  | 1 => ⟨S6400000x32, .f32⟩
  | 2 => ⟨S_, .f32⟩
  | 3 => ⟨S100000x32, .f32⟩
  | 4 => ⟨S6400000x1, .i32⟩
  | 5 => ⟨S100000x32, .f32⟩
  | 6 => ⟨S_, .i32⟩
  | 7 => ⟨S_, .f32⟩
  | 8 => ⟨S100000x32, .f32⟩
  | 9 => ⟨S_, .i32⟩
  | 10 => ⟨S_, .f32⟩
  | 11 => ⟨S100000x32, .f32⟩
  | 12 => ⟨S_, .i32⟩
  | 13 => ⟨S_, .f32⟩
  | 14 => ⟨S100000, .f32⟩
  | 15 => ⟨S100000x1, .f32⟩
  | 16 => ⟨S1x32, .f32⟩
  | 17 => ⟨S100000x32, .f32⟩
  | 18 => ⟨S_, .i32⟩
  | 19 => ⟨S_, .f32⟩
  | 20 => ⟨S100000x32, .f32⟩
  | 21 => ⟨S100000x16, .f32⟩
  | 22 => ⟨S1x16, .f32⟩
  | 23 => ⟨S100000x16, .f32⟩
  | 24 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x1, .f32⟩
  | .local _ .vmem, ⟨10, _⟩ => ⟨S2000x1, .f32⟩
  | .local _ .vmem, ⟨11, _⟩ => ⟨S1x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S16x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x1, .f32⟩
  | .local _ .vmem, ⟨24, _⟩ => ⟨S2000x1, .f32⟩
  | .local _ .vmem, ⟨25, _⟩ => ⟨S1x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S32x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | .local _ .vmem, ⟨36, _⟩ => ⟨S2000x32, .f32⟩
  | .local _ .vmem, ⟨37, _⟩ => ⟨S2000x1, .f32⟩
  | .local _ .vmem, ⟨38, _⟩ => ⟨S2000x1, .f32⟩
  | .local _ .vmem, ⟨39, _⟩ => ⟨S1x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | .local _ .vmem, ⟨44, _⟩ => ⟨S32x16, .f32⟩
  | .local _ .vmem, ⟨45, _⟩ => ⟨S2000x16, .f32⟩
  | .local _ .vmem, ⟨46, _⟩ => ⟨S2000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_call1_v0 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_call2_v0 : Ref sig .tc := ⟨.hbm, 71, rfl⟩
abbrev main_v44 : Ref sig .tc := ⟨.hbm, 72, rfl⟩
abbrev main_c_11 : Ref sig .tc := ⟨.hbm, 73, rfl⟩
abbrev main_call3_v0 : Ref sig .tc := ⟨.hbm, 74, rfl⟩
abbrev main_v45 : Ref sig .tc := ⟨.hbm, 75, rfl⟩
abbrev main_c_12 : Ref sig .tc := ⟨.hbm, 76, rfl⟩
abbrev main_call4_v0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_call5_v0 : Ref sig .tc := ⟨.hbm, 83, rfl⟩
abbrev main_v50 : Ref sig .tc := ⟨.hbm, 84, rfl⟩
abbrev main_v51 : Ref sig .tc := ⟨.hbm, 85, rfl⟩
abbrev main_c_14 : Ref sig .tc := ⟨.hbm, 86, rfl⟩
abbrev main_v52 : Ref sig .tc := ⟨.hbm, 87, rfl⟩
abbrev main_v53 : Ref sig .tc := ⟨.hbm, 88, rfl⟩
abbrev main_c_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_17 : Ref sig .tc := ⟨.hbm, 102, rfl⟩
abbrev main_call6_v0 : Ref sig .tc := ⟨.hbm, 103, rfl⟩
abbrev main_v65 : Ref sig .tc := ⟨.hbm, 104, rfl⟩
abbrev main_c_18 : Ref sig .tc := ⟨.hbm, 105, rfl⟩
abbrev main_call7_v0 : Ref sig .tc := ⟨.hbm, 106, rfl⟩
abbrev main_v66 : Ref sig .tc := ⟨.hbm, 107, rfl⟩
abbrev main_c_19 : Ref sig .tc := ⟨.hbm, 108, rfl⟩
abbrev main_call8_v0 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_20 : Ref sig .tc := ⟨.hbm, 114, rfl⟩
abbrev main_call9_v0 : Ref sig .tc := ⟨.hbm, 115, rfl⟩
abbrev main_v71 : Ref sig .tc := ⟨.hbm, 116, rfl⟩
abbrev main_v72 : Ref sig .tc := ⟨.hbm, 117, rfl⟩
abbrev main_c_21 : Ref sig .tc := ⟨.hbm, 118, rfl⟩
abbrev main_v73 : Ref sig .tc := ⟨.hbm, 119, rfl⟩
abbrev main_v74 : Ref sig .tc := ⟨.hbm, 120, rfl⟩
abbrev main_c_22 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_23 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_24 : Ref sig .tc := ⟨.hbm, 134, rfl⟩
abbrev main_call10_v0 : Ref sig .tc := ⟨.hbm, 135, rfl⟩
abbrev main_v86 : Ref sig .tc := ⟨.hbm, 136, rfl⟩
abbrev main_c_25 : Ref sig .tc := ⟨.hbm, 137, rfl⟩
abbrev main_call11_v0 : Ref sig .tc := ⟨.hbm, 138, rfl⟩
abbrev main_v87 : Ref sig .tc := ⟨.hbm, 139, rfl⟩
abbrev main_c_26 : Ref sig .tc := ⟨.hbm, 140, rfl⟩
abbrev main_call12_v0 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_c_27 : Ref sig .tc := ⟨.hbm, 146, rfl⟩
abbrev main_call13_v0 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S6400000 : S_.BroadcastsInDim S6400000 (![] : Fin 0 → Fin S6400000.rank)
  pads_S100000x256_S100000x256_000_000 : S100000x256.Pads (![0, 0] : Fin 2 → Nat) ![0, 0] ![0, 0] S100000x256
  h_S_ : 0 < S_.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S2000x16_S2000x16_0_0 : ∀ a, (![0, 0] : Fin 2 → Nat) a + S2000x16.size a ≤ S2000x16.size a
  h_S2000x16 : 0 < S2000x16.numel
  bcast_S6400000x1_S6400000x16_0_1 : S6400000x1.BroadcastsInDim S6400000x16 (![0, 1] : Fin 2 → Fin S6400000x16.rank)
  bcast_S_S100000x16 : S_.BroadcastsInDim S100000x16 (![] : Fin 0 → Fin S100000x16.rank)
  pads_S100000x16_S100000x16_000_000 : S100000x16.Pads (![0, 0] : Fin 2 → Nat) ![0, 0] ![0, 0] S100000x16
  pads_S100000_S100000_000 : S100000.Pads (![0] : Fin 1 → Nat) ![0] ![0] S100000
  shapeCasts_S100000_S100000x1 : S100000.ShapeCasts S100000x1
  shapeCasts_S16_S1x16 : S16.ShapeCasts S1x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x16_S2000x16 : S2000x16.ShapeCasts S2000x16
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x32_S16x32_0_0 : ∀ a, (![0, 0] : Fin 2 → Nat) a + S16x32.size a ≤ S16x32.size a
  h_S16x32 : 0 < S16x32.numel
  inb_S2000x32_S2000x32_0_0 : ∀ a, (![0, 0] : Fin 2 → Nat) a + S2000x32.size a ≤ S2000x32.size a
  h_S2000x32 : 0 < S2000x32.numel
  bcast_S6400000x1_S6400000x32_0_1 : S6400000x1.BroadcastsInDim S6400000x32 (![0, 1] : Fin 2 → Fin S6400000x32.rank)
  bcast_S_S100000x32 : S_.BroadcastsInDim S100000x32 (![] : Fin 0 → Fin S100000x32.rank)
  pads_S100000x32_S100000x32_000_000 : S100000x32.Pads (![0, 0] : Fin 2 → Nat) ![0, 0] ![0, 0] S100000x32
  shapeCasts_S32_S1x32 : S32.ShapeCasts S1x32
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S32x16_S32x16_0_0 : ∀ a, (![0, 0] : Fin 2 → Nat) a + S32x16.size a ≤ S32x16.size a
  h_S32x16 : 0 < S32x16.numel
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  dot_S2000x256_S256x16_S2000x16_1_0_0_1_n_n_wf : DotDims.WF S2000x256 S256x16 S2000x16 [1] [0] [0] [1] [] []
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S2000x16_S16x32_S2000x32_1_0_0_1_n_n_wf : DotDims.WF S2000x16 S16x32 S2000x32 [1] [0] [0] [1] [] []
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S2000x32_S32x32_S2000x32_1_0_0_1_n_n_wf : DotDims.WF S2000x32 S32x32 S2000x32 [1] [0] [0] [1] [] []
  dot_S2000x32_S32x16_S2000x16_1_0_0_1_n_n_wf : DotDims.WF S2000x32 S32x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S100000x16.size a
  hwx1_4 : ∀ i : grid1.Coords, EltTy.bits .f32 = 32 ∨ (Rect.block (s := S100000x16) S2000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x32.size a ≤ S100000x32.size a
  hwx3_4 : ∀ i : grid3.Coords, EltTy.bits .f32 = 32 ∨ (Rect.block (s := S100000x32) S2000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S100000x32.size a
  hwx4_2 : ∀ i : grid4.Coords, EltTy.bits .f32 = 32 ∨ (Rect.block (s := S100000x32) S2000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S100000x32.size a
  hwx5_1 : ∀ i : grid5.Coords, EltTy.bits .f32 = 32 ∨ (Rect.block (s := S100000x32) S2000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x32.size a ≤ S100000x32.size a
  hwx5_4 : ∀ i : grid5.Coords, EltTy.bits .f32 = 32 ∨ (Rect.block (s := S100000x32) S2000x32.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x16.size a ≤ S32x16.size a
  hwx6_1 : ∀ i : grid6.Coords, EltTy.bits .f32 = 32 ∨ (Rect.block (s := S32x16) S32x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x16.size a ≤ S100000x16.size a
  hwx6_2 : ∀ i : grid6.Coords, EltTy.bits .f32 = 32 ∨ (Rect.block (s := S100000x16) S2000x16.size (cc6_transform_2 i) (hinb6_2 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf

abbrev win0_0 : Pipeline.Window sig grid0 :=
  Pipeline.Window.ofSpec (Memref.whole main_v29) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S2000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S2000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v86) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v89) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S2000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v92) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S32x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S2000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x6400000 : Shape := ⟨2, ![2, 6400000]⟩
abbrev S6400000 : Shape := ⟨1, ![6400000]⟩
abbrev S256x16 : Shape := ⟨2, ![256, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S1x6400000 : Shape := ⟨2, ![1, 6400000]⟩
abbrev S100000x16 : Shape := ⟨2, ![100000, 16]⟩
abbrev S_ : Shape := ⟨0, ![]⟩
abbrev S100000 : Shape := ⟨1, ![100000]⟩
abbrev S6400000x1 : Shape := ⟨2, ![6400000, 1]⟩
abbrev S6400000x16 : Shape := ⟨2, ![6400000, 16]⟩
abbrev S100000x1 : Shape := ⟨2, ![100000, 1]⟩
abbrev S1x16 : Shape := ⟨2, ![1, 16]⟩
abbrev S100000x32 : Shape := ⟨2, ![100000, 32]⟩
abbrev S6400000x32 : Shape := ⟨2, ![6400000, 32]⟩
abbrev S1x32 : Shape := ⟨2, ![1, 32]⟩

abbrev nBuf : Space → Nat
  | .hbm => 244
  | .vmem => 0
  | .smem => 0
  | _ => 0

abbrev hbmTy0_0 (i : Nat) : BufTy := match i % 128 with
  | 0 => ⟨S100000x256, .f32⟩
  | 1 => ⟨S2x6400000, .i32⟩
  | 2 => ⟨S6400000, .f32⟩
  | 3 => ⟨S256x16, .f32⟩
  | 4 => ⟨S16, .f32⟩
  | 5 => ⟨S16x32, .f32⟩
  | 6 => ⟨S32, .f32⟩
  | 7 => ⟨S32x32, .f32⟩
  | 8 => ⟨S32, .f32⟩
  | 9 => ⟨S32x16, .f32⟩
  | 10 => ⟨S16, .f32⟩
  | 11 => ⟨S1x6400000, .i32⟩
  | 12 => ⟨S6400000, .i32⟩
  | 13 => ⟨S1x6400000, .i32⟩
  | 14 => ⟨S6400000, .i32⟩
  | 15 => ⟨S100000x16, .f32⟩
  | 16 => ⟨S_, .f32⟩
  | 17 => ⟨S100000, .f32⟩
  | 18 => ⟨S6400000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S6400000, .i32⟩
  | 33 => ⟨S6400000, .i1⟩
  | 34 => ⟨S_, .i32⟩
  | 35 => ⟨S6400000, .i32⟩
  | 36 => ⟨S6400000, .i32⟩
  | 37 => ⟨S6400000, .i32⟩
  | 38 => ⟨S6400000x1, .i32⟩
  | 39 => ⟨S6400000, .f32⟩
  | 40 => ⟨S6400000, .f32⟩
  | 41 => ⟨S_, .i32⟩
  | 42 => ⟨S6400000, .i32⟩
  | 43 => ⟨S6400000, .i1⟩
  | 44 => ⟨S_, .i32⟩
  | 45 => ⟨S6400000, .i32⟩
  | 46 => ⟨S6400000, .i32⟩
  | 47 => ⟨S6400000, .i32⟩
  | 48 => ⟨S6400000x1, .i32⟩
  | 49 => ⟨S6400000, .f32⟩
  | 50 => ⟨S6400000, .f32⟩
  | 51 => ⟨S6400000x1, .f32⟩
  | 52 => ⟨S_, .i32⟩
  | 53 => ⟨S6400000, .i32⟩
  | 54 => ⟨S6400000, .i1⟩
  | 55 => ⟨S_, .i32⟩
  | 56 => ⟨S6400000, .i32⟩
  | 57 => ⟨S6400000, .i32⟩
  | 58 => ⟨S6400000, .i32⟩
  | 59 => ⟨S6400000x1, .i32⟩
  | 60 => ⟨S6400000x16, .f32⟩
  | 61 => ⟨S6400000x16, .f32⟩
  | 62 => ⟨S6400000x16, .f32⟩
  | 63 => ⟨S_, .f32⟩
  | 64 => ⟨S100000x16, .f32⟩
  | 65 => ⟨S6400000x1, .i32⟩
  | 66 => ⟨S100000x16, .f32⟩
  | 67 => ⟨S100000, .f32⟩
  | 68 => ⟨S100000x1, .f32⟩
  | 69 => ⟨S100000x16, .f32⟩
  | 70 => ⟨S100000x16, .f32⟩
  | 71 => ⟨S100000x16, .f32⟩
  | 72 => ⟨S1x16, .f32⟩
  | 73 => ⟨S100000x16, .f32⟩
  | 74 => ⟨S100000x16, .f32⟩
  | 75 => ⟨S_, .f32⟩
  | 76 => ⟨S100000x16, .f32⟩
  | 77 => ⟨S100000x16, .i1⟩
  | 78 => ⟨S_, .f32⟩
  | 79 => ⟨S100000x16, .f32⟩
  | 80 => ⟨S100000x16, .i1⟩
  | 81 => ⟨S_, .f32⟩
  | 82 => ⟨S_, .f32⟩
  | 83 => ⟨S100000x16, .f32⟩
  | 84 => ⟨S100000x16, .f32⟩
  | 85 => ⟨S100000x16, .f32⟩
  | 86 => ⟨S_, .f32⟩
  | 87 => ⟨S100000x16, .f32⟩
  | 88 => ⟨S100000x16, .f32⟩
  | 89 => ⟨S100000x16, .f32⟩
  | 90 => ⟨S100000x32, .f32⟩
  | 91 => ⟨S_, .f32⟩
  | 92 => ⟨S100000, .f32⟩
  | 93 => ⟨S6400000x1, .i32⟩
  | 94 => ⟨S100000, .f32⟩
  | 95 => ⟨S_, .f32⟩
  | 96 => ⟨S100000, .f32⟩
  | 97 => ⟨S100000, .f32⟩
  | 98 => ⟨S_, .f32⟩
  | 99 => ⟨S100000, .f32⟩
  | 100 => ⟨S100000, .i1⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S6400000, .i32⟩
  | 108 => ⟨S6400000, .i1⟩
  | 109 => ⟨S_, .i32⟩
  | 110 => ⟨S6400000, .i32⟩
  | 111 => ⟨S6400000, .i32⟩
  | 112 => ⟨S6400000, .i32⟩
  | 113 => ⟨S6400000x1, .i32⟩
  | 114 => ⟨S6400000, .f32⟩
  | 115 => ⟨S6400000, .f32⟩
  | 116 => ⟨S_, .i32⟩
  | 117 => ⟨S6400000, .i32⟩
  | 118 => ⟨S6400000, .i1⟩
  | 119 => ⟨S_, .i32⟩
  | 120 => ⟨S6400000, .i32⟩
  | 121 => ⟨S6400000, .i32⟩
  | 122 => ⟨S6400000, .i32⟩
  | 123 => ⟨S6400000x1, .i32⟩
  | 124 => ⟨S6400000, .f32⟩
  | 125 => ⟨S6400000, .f32⟩
  | 126 => ⟨S6400000x1, .f32⟩
  | 127 => ⟨S_, .i32⟩
  | _ => ⟨S100000x256, .f32⟩

abbrev hbmTy0_1 (i : Nat) : BufTy := match i % 128 with
  | 0 => ⟨S6400000, .i32⟩
  | 1 => ⟨S6400000, .i1⟩
  | 2 => ⟨S_, .i32⟩
  | 3 => ⟨S6400000, .i32⟩
  | 4 => ⟨S6400000, .i32⟩
  | 5 => ⟨S6400000, .i32⟩
  | 6 => ⟨S6400000x1, .i32⟩
  | 7 => ⟨S6400000x32, .f32⟩
  | 8 => ⟨S6400000x32, .f32⟩
  | 9 => ⟨S6400000x32, .f32⟩
  | 10 => ⟨S_, .f32⟩
  | 11 => ⟨S100000x32, .f32⟩
  | 12 => ⟨S6400000x1, .i32⟩
  | 13 => ⟨S100000x32, .f32⟩
  | 14 => ⟨S100000, .f32⟩
  | 15 => ⟨S100000x1, .f32⟩
  | 16 => ⟨S100000x32, .f32⟩
  | 17 => ⟨S100000x32, .f32⟩
  | 18 => ⟨S100000x32, .f32⟩
  | 19 => ⟨S1x32, .f32⟩
  | 20 => ⟨S100000x32, .f32⟩
  | 21 => ⟨S100000x32, .f32⟩
  | 22 => ⟨S_, .f32⟩
  | 23 => ⟨S100000x32, .f32⟩
  | 24 => ⟨S100000x32, .i1⟩
  | 25 => ⟨S_, .f32⟩
  | 26 => ⟨S100000x32, .f32⟩
  | 27 => ⟨S100000x32, .i1⟩
  | 28 => ⟨S_, .f32⟩
  | 29 => ⟨S_, .f32⟩
  | 30 => ⟨S100000x32, .f32⟩
  | 31 => ⟨S100000x32, .f32⟩
  | 32 => ⟨S100000x32, .f32⟩
  | 33 => ⟨S_, .f32⟩
  | 34 => ⟨S100000x32, .f32⟩
  | 35 => ⟨S100000x32, .f32⟩
  | 36 => ⟨S100000x32, .f32⟩
  | 37 => ⟨S100000x32, .f32⟩
  | 38 => ⟨S_, .f32⟩
  | 39 => ⟨S100000, .f32⟩
  | 40 => ⟨S6400000x1, .i32⟩
  | 41 => ⟨S100000, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .i1⟩
  | 48 => ⟨S100000, .f32⟩
  | 49 => ⟨S_, .f32⟩
  | 50 => ⟨S_, .f32⟩
  | 51 => ⟨S100000, .f32⟩
  | 52 => ⟨S100000, .f32⟩
  | 53 => ⟨S_, .i32⟩
  | 54 => ⟨S6400000, .i32⟩
  | 55 => ⟨S6400000, .i1⟩
  | 56 => ⟨S_, .i32⟩
  | 57 => ⟨S6400000, .i32⟩
  | 58 => ⟨S6400000, .i32⟩
  | 59 => ⟨S6400000, .i32⟩
  | 60 => ⟨S6400000x1, .i32⟩
  | 61 => ⟨S6400000, .f32⟩
  | 62 => ⟨S6400000, .f32⟩
  | 63 => ⟨S_, .i32⟩
  | 64 => ⟨S6400000, .i32⟩
  | 65 => ⟨S6400000, .i1⟩
  | 66 => ⟨S_, .i32⟩
  | 67 => ⟨S6400000, .i32⟩
  | 68 => ⟨S6400000, .i32⟩
  | 69 => ⟨S6400000, .i32⟩
  | 70 => ⟨S6400000x1, .i32⟩
  | 71 => ⟨S6400000, .f32⟩
  | 72 => ⟨S6400000, .f32⟩
  | 73 => ⟨S6400000x1, .f32⟩
  | 74 => ⟨S_, .i32⟩
  | 75 => ⟨S6400000, .i32⟩
  | 76 => ⟨S6400000, .i1⟩
  | 77 => ⟨S_, .i32⟩
  | 78 => ⟨S6400000, .i32⟩
  | 79 => ⟨S6400000, .i32⟩
  | 80 => ⟨S6400000, .i32⟩
  | 81 => ⟨S6400000x1, .i32⟩
  | 82 => ⟨S6400000x32, .f32⟩
  | 83 => ⟨S6400000x32, .f32⟩
  | 84 => ⟨S6400000x32, .f32⟩
  | 85 => ⟨S_, .f32⟩
  | 86 => ⟨S100000x32, .f32⟩
  | 87 => ⟨S6400000x1, .i32⟩
  | 88 => ⟨S100000x32, .f32⟩
  | 89 => ⟨S100000, .f32⟩
  | 90 => ⟨S100000x1, .f32⟩
  | 91 => ⟨S100000x32, .f32⟩
  | 92 => ⟨S100000x32, .f32⟩
  | 93 => ⟨S100000x32, .f32⟩
  | 94 => ⟨S1x32, .f32⟩
  | 95 => ⟨S100000x32, .f32⟩
  | 96 => ⟨S100000x32, .f32⟩
  | 97 => ⟨S_, .f32⟩
  | 98 => ⟨S100000x32, .f32⟩
  | 99 => ⟨S100000x32, .i1⟩
  | 100 => ⟨S_, .f32⟩
  | 101 => ⟨S100000x32, .f32⟩
  | 102 => ⟨S100000x32, .i1⟩
  | 103 => ⟨S_, .f32⟩
  | 104 => ⟨S_, .f32⟩
  | 105 => ⟨S100000x32, .f32⟩
  | 106 => ⟨S100000x32, .f32⟩
  | 107 => ⟨S100000x32, .f32⟩
  | 108 => ⟨S_, .f32⟩
  | 109 => ⟨S100000x32, .f32⟩
  | 110 => ⟨S100000x32, .f32⟩
  | 111 => ⟨S100000x32, .f32⟩
  | 112 => ⟨S100000x16, .f32⟩
  | 113 => ⟨S1x16, .f32⟩
  | 114 => ⟨S100000x16, .f32⟩
  | 115 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_cst_1 : Ref sig .tc := ⟨.hbm, 81, rfl⟩
abbrev main_call1_call0_v0 : Ref sig .tc := ⟨.hbm, 82, rfl⟩
abbrev main_call1_call0_v1 : Ref sig .tc := ⟨.hbm, 83, rfl⟩
abbrev main_call1_v4 : Ref sig .tc := ⟨.hbm, 84, rfl⟩
abbrev main_call1_v5 : Ref sig .tc := ⟨.hbm, 85, rfl⟩
abbrev main_call1_cst_2 : Ref sig .tc := ⟨.hbm, 86, rfl⟩
abbrev main_call1_v6 : Ref sig .tc := ⟨.hbm, 87, rfl⟩
abbrev main_call1_v7 : Ref sig .tc := ⟨.hbm, 88, rfl⟩
abbrev main_v51 : Ref sig .tc := ⟨.hbm, 89, rfl⟩
abbrev main_v52 : Ref sig .tc := ⟨.hbm, 90, rfl⟩
abbrev main_cst_9 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_10 : Ref sig .tc := ⟨.hbm, 95, rfl⟩
abbrev main_v56 : Ref sig .tc := ⟨.hbm, 96, rfl⟩
abbrev main_v57 : Ref sig .tc := ⟨.hbm, 97, rfl⟩
abbrev main_cst_11 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_12 : Ref sig .tc := ⟨.hbm, 102, rfl⟩
abbrev main_call2_v0 : Ref sig .tc := ⟨.hbm, 103, rfl⟩
abbrev main_call2_v1 : Ref sig .tc := ⟨.hbm, 104, rfl⟩
abbrev main_v61 : Ref sig .tc := ⟨.hbm, 105, rfl⟩
abbrev main_c_13 : Ref sig .tc := ⟨.hbm, 106, rfl⟩
abbrev main_v62 : Ref sig .tc := ⟨.hbm, 107, rfl⟩
abbrev main_v63 : Ref sig .tc := ⟨.hbm, 108, rfl⟩
abbrev main_c_14 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_15 : Ref sig .tc := ⟨.hbm, 116, rfl⟩
abbrev main_v70 : Ref sig .tc := ⟨.hbm, 117, rfl⟩
abbrev main_v71 : Ref sig .tc := ⟨.hbm, 118, rfl⟩
abbrev main_c_16 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_17 : Ref sig .tc := ⟨.hbm, 127, rfl⟩
abbrev main_v79 : Ref sig .tc := ⟨.hbm, 128, rfl⟩
abbrev main_v80 : Ref sig .tc := ⟨.hbm, 129, rfl⟩
abbrev main_c_18 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_19 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_cst_0 : Ref sig .tc := ⟨.hbm, 153, rfl⟩
abbrev main_call3_v2 : Ref sig .tc := ⟨.hbm, 154, rfl⟩
abbrev main_call3_v3 : Ref sig .tc := ⟨.hbm, 155, rfl⟩
abbrev main_call3_cst_1 : Ref sig .tc := ⟨.hbm, 156, rfl⟩
abbrev main_call3_call0_v0 : Ref sig .tc := ⟨.hbm, 157, rfl⟩
abbrev main_call3_call0_v1 : Ref sig .tc := ⟨.hbm, 158, rfl⟩
abbrev main_call3_v4 : Ref sig .tc := ⟨.hbm, 159, rfl⟩
abbrev main_call3_v5 : Ref sig .tc := ⟨.hbm, 160, rfl⟩
abbrev main_call3_cst_2 : Ref sig .tc := ⟨.hbm, 161, rfl⟩
abbrev main_call3_v6 : Ref sig .tc := ⟨.hbm, 162, rfl⟩
abbrev main_call3_v7 : Ref sig .tc := ⟨.hbm, 163, rfl⟩
abbrev main_v99 : Ref sig .tc := ⟨.hbm, 164, rfl⟩
abbrev main_v100 : Ref sig .tc := ⟨.hbm, 165, rfl⟩
abbrev main_cst_20 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_cst_21 : Ref sig .tc := ⟨.hbm, 170, rfl⟩
abbrev main_v104 : Ref sig .tc := ⟨.hbm, 171, rfl⟩
abbrev main_v105 : Ref sig .tc := ⟨.hbm, 172, rfl⟩
abbrev main_cst_22 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_23 : Ref sig .tc := ⟨.hbm, 177, rfl⟩
abbrev main_call4_v0 : Ref sig .tc := ⟨.hbm, 178, rfl⟩
abbrev main_call4_v1 : Ref sig .tc := ⟨.hbm, 179, rfl⟩
abbrev main_v109 : Ref sig .tc := ⟨.hbm, 180, rfl⟩
abbrev main_c_24 : Ref sig .tc := ⟨.hbm, 181, rfl⟩
abbrev main_v110 : Ref sig .tc := ⟨.hbm, 182, rfl⟩
abbrev main_v111 : Ref sig .tc := ⟨.hbm, 183, rfl⟩
abbrev main_c_25 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_c_26 : Ref sig .tc := ⟨.hbm, 191, rfl⟩
abbrev main_v118 : Ref sig .tc := ⟨.hbm, 192, rfl⟩
abbrev main_v119 : Ref sig .tc := ⟨.hbm, 193, rfl⟩
abbrev main_c_27 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_c_28 : Ref sig .tc := ⟨.hbm, 202, rfl⟩
abbrev main_v127 : Ref sig .tc := ⟨.hbm, 203, rfl⟩
abbrev main_v128 : Ref sig .tc := ⟨.hbm, 204, rfl⟩
abbrev main_c_29 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_cst_30 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_call5_cst : Ref sig .tc := ⟨.hbm, 225, rfl⟩
abbrev main_call5_v0 : Ref sig .tc := ⟨.hbm, 226, rfl⟩
abbrev main_call5_v1 : Ref sig .tc := ⟨.hbm, 227, rfl⟩
abbrev main_call5_cst_0 : Ref sig .tc := ⟨.hbm, 228, rfl⟩
abbrev main_call5_v2 : Ref sig .tc := ⟨.hbm, 229, rfl⟩
abbrev main_call5_v3 : Ref sig .tc := ⟨.hbm, 230, rfl⟩
abbrev main_call5_cst_1 : Ref sig .tc := ⟨.hbm, 231, rfl⟩
abbrev main_call5_call0_v0 : Ref sig .tc := ⟨.hbm, 232, rfl⟩
abbrev main_call5_call0_v1 : Ref sig .tc := ⟨.hbm, 233, rfl⟩
abbrev main_call5_v4 : Ref sig .tc := ⟨.hbm, 234, rfl⟩
abbrev main_call5_v5 : Ref sig .tc := ⟨.hbm, 235, rfl⟩
abbrev main_call5_cst_2 : Ref sig .tc := ⟨.hbm, 236, rfl⟩
abbrev main_call5_v6 : Ref sig .tc := ⟨.hbm, 237, rfl⟩
abbrev main_call5_v7 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S6400000 : S_.BroadcastsInDim S6400000 (![] : Fin 0 → Fin S6400000.rank)
  bcast_S6400000x1_S6400000x16_0_1 : S6400000x1.BroadcastsInDim S6400000x16 (![0, 1] : Fin 2 → Fin S6400000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6400000x1_S6400000x32_0_1 : S6400000x1.BroadcastsInDim S6400000x32 (![0, 1] : Fin 2 → Fin S6400000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x256_S256x16_S100000x16_1_0_0_1_n_n_wf : DotDims.WF S100000x256 S256x16 S100000x16 [1] [0] [0] [1] [] []
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S100000x16_S16x32_S100000x32_1_0_0_1_n_n_wf : DotDims.WF S100000x16 S16x32 S100000x32 [1] [0] [0] [1] [] []
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KRun.lean ====
/-
  The idealized kernel's whole run, with its result array named.

  @main is eight stretches of host operations around seven pipelined regions. Its run leaves every unscoped buffer of
  a core at the last of the boundary contents W0 … W39 (each a stretch's fold of host operations, or a region's arrays
  at what its write-backs leave). Read at the result buffer that gives the result array as W39 there; read at an
  argument it gives the argument as launched.
-/
import proofs.«142261_j89635967467582_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last boundary
    contents at that buffer, and every argument array is as launched. -/
theorem run_named : θ_run defs (onTc (τ := τ) (main (F := F))) ⟨m, fun _ => 0, ρ⟩ (fun r => ∀ c : Dev nD,
      r.2.mem ((c.tc : Thread nD τ).loc main_v96) = W39 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h c =>
      ⟨h c _ (mem_uc main_v96 (by decide)),
       (h c _ (mem_uc main_arg0 (by decide))).trans (W39_main_arg0 m ρ c),
       (h c _ (mem_uc main_arg1 (by decide))).trans (W39_main_arg1 m ρ c),
       (h c _ (mem_uc main_arg2 (by decide))).trans (W39_main_arg2 m ρ c),
       (h c _ (mem_uc main_arg3 (by decide))).trans (W39_main_arg3 m ρ c),
       (h c _ (mem_uc main_arg4 (by decide))).trans (W39_main_arg4 m ρ c),
       (h c _ (mem_uc main_arg5 (by decide))).trans (W39_main_arg5 m ρ c),
       (h c _ (mem_uc main_arg6 (by decide))).trans (W39_main_arg6 m ρ c),
       (h c _ (mem_uc main_arg7 (by decide))).trans (W39_main_arg7 m ρ c),
       (h c _ (mem_uc main_arg8 (by decide))).trans (W39_main_arg8 m ρ c),
       (h c _ (mem_uc main_arg9 (by decide))).trans (W39_main_arg9 m ρ c),
       (h c _ (mem_uc main_arg10 (by decide))).trans (W39_main_arg10 m ρ c)⟩)

end Cert.KernelIdeal.Gen

end
-- ==== Proof.KPlain.lean ====
/-
  The host side of the idealized kernel's @main, made ready to be read.

  Some stretches of @main are the bodies of outlined functions (jnp.where's select, jnp.pad): their operations are
  stated over typed references, whose transports are the identity at literal buffers. jnp.where's stretch is restated
  here over the plain operations (the thirteen jnp.pad stretches are in KTables). Every jnp.pad in this program
  pads by nothing, so it returns its operand.
-/
import proofs.«142261_j89635967467582_2_alg».proof.Proof.Gen.KernelIdeal.Frame
import proofs.«142261_j89635967467582_2_alg».proof.Proof.KTables
import Idealize.ShloMosaic.Lib.StableHlo.Run
import Idealize.ShloMosaic.Lib.KernelVsHost

set_option maxRecDepth 16384

noncomputable section

namespace Cert.KernelSide

open Idealize.ShloMosaic Idealize.ShloMosaic.TcCoe Idealize.SL.Sem
open Cert.KernelIdeal Cert.KernelIdeal.Gen

variable {F : FTy → Type} [FloatOps F]

/-- jnp.where(deg > 0, rsqrt(deg), 0): the zero converted to its own type, broadcast, the select. -/
theorem hostOps0_1_plain : (hostOps0_1 : List (HloOp τ sig (Elt F))) =
    [ StableHlo.unary main_cst_2 main_call0_v0 (id : (⟨S_, .f32⟩ : BufTy).Contents (Elt F) → (⟨S_, .f32⟩ : BufTy).Contents (Elt F)) (by decide) (by decide),
      StableHlo.unary main_call0_v0 main_call0_v1 (broadcastInDim S100000 ![] bcast_S_S100000 : (⟨S_, .f32⟩ : BufTy).Contents (Elt F) → (⟨S100000, .f32⟩ : BufTy).Contents (Elt F)) (by decide) (by decide),
      StableHlo.ternary main_v10 main_v11 main_call0_v1 main_v12 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (by decide) (by decide) (by decide) (by decide) ] := rfl

/-! ## A pad by nothing -/

/-- A rank-two array padded by nothing on every side is itself: every index is inside, at its own position. -/
theorem pad_none2 {a b : Nat} {α : Type} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) :
    pad ⟨2, ![a, b]⟩ ![0, 0] ![0, 0] ![0, 0] x v h hu = x := by
  funext j
  refine pad_apply_of_inside _ _ _ x v h hu j j (fun k => ?_)
  match k with
  | ⟨0, _⟩ => simp
  | ⟨1, _⟩ => simp

/-- A vector padded by nothing on either side is itself. -/
theorem pad_none1 {a : Nat} {α : Type} (x : (⟨1, ![a]⟩ : Shape).Idx → α) {u : Shape} (v : u.Idx → α)
    (h : (⟨1, ![a]⟩ : Shape).Pads ![0] ![0] ![0] ⟨1, ![a]⟩) (hu : 0 < u.numel) :
    pad ⟨1, ![a]⟩ ![0] ![0] ![0] x v h hu = x := by
  funext j
  refine pad_apply_of_inside _ _ _ x v h hu j j (fun k => ?_)
  match k with
  | ⟨0, _⟩ => simp

end Cert.KernelSide

end
-- ==== Proof.KCarry.lean ====
/-
  What the host side of the idealized kernel's @main leaves alone.

  Between two regions the host operations write only their own result buffers (the lists wrA … wrH), and a region
  writes only its windows' arrays. So a buffer outside a stage's list holds after the stage what it held before it,
  and a buffer that is no array of a region holds after the region what it held at its entry. Chained, that carries
  the edge tables, dinv, the edge normalization and the later arguments from where they are made to where they are read.
-/
import proofs.«142261_j89635967467582_2_alg».proof.Proof.KPlain

set_option maxRecDepth 16384

noncomputable section

namespace Cert.KernelSide

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- Every operation of a stretch writes a buffer of the stage's list: each operation writes its one result buffer,
    and that buffer is in the list by inspection. -/
macro "writes_in" : tactic => `(tactic| (
  simp only [hostOps0, hostOps0_1, hostOps0_2, hostOps0_3, hostOps1, hostOps1_1, hostOps1_2, hostOps1_3, hostOps1_4, hostOps1_5, hostOps1_6, hostOps2, hostOps2_1, hostOps3, hostOps3_1, hostOps3_2, hostOps3_3, hostOps3_4, hostOps3_5, hostOps3_6, hostOps4, hostOps4_1, hostOps5, hostOps5_1, hostOps5_2, hostOps5_3, hostOps5_4, hostOps5_5, hostOps5_6, hostOps6, hostOps6_1, hostOps7,
    List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)))

/-! ## Each stage of host operations -/

/-- The host operations before region 0 leave every other buffer as launched. -/
theorem keepA (r : Ref sig .tc) (hr : r ∉ wrA) :
    W4 (F := F) m ρ c (Proc.devRef .tc r) = W0 m ρ c (Proc.devRef .tc r) :=
  ((StableHlo.after_of_writes_sub (τ := τ) (W := wrA) (hostOps0_3 : List (HloOp τ sig (Elt F))) _ (by writes_in) hr).trans
    ((StableHlo.after_of_writes_sub (τ := τ) (W := wrA) (hostOps0_2 : List (HloOp τ sig (Elt F))) _ (by writes_in) hr).trans
    ((StableHlo.after_of_writes_sub (τ := τ) (W := wrA) (hostOps0_1 : List (HloOp τ sig (Elt F))) _ (by writes_in) hr).trans
    (StableHlo.after_of_writes_sub (τ := τ) (W := wrA) (hostOps0 : List (HloOp τ sig (Elt F))) _ (by writes_in) hr))))

/-- The host operations between regions 0 and 1 leave every other buffer as region 0 left it. -/
theorem keepB (r : Ref sig .tc) (hr : r ∉ wrB) :
    W12 (F := F) m ρ c (Proc.devRef .tc r) = W5 m ρ c (Proc.devRef .tc r) :=
  ((StableHlo.after_of_writes_sub (τ := τ) (W := wrB) (hostOps1_6 : List (HloOp τ sig (Elt F))) _ (by writes_in) hr).trans
    ((StableHlo.after_of_writes_sub (τ := τ) (W := wrB) (hostOps1_5 : List (HloOp τ sig (Elt F))) _ (by writes_in) hr).trans
    ((StableHlo.after_of_writes_sub (τ := τ) (W := wrB) (hostOps1_4 : List (HloOp τ sig (Elt F))) _ (by writes_in) hr).trans
    ((StableHlo.after_of_writes_sub (τ := τ) (W := wrB) (hostOps1_3 : List (HloOp τ sig (Elt F))) _ (by writes_in) hr).trans
    ((StableHlo.after_of_writes_sub (τ := τ) (W := wrB) (hostOps1_2 : List (HloOp τ sig (Elt F))) _ (by writes_in) hr).trans
    ((StableHlo.after_of_writes_sub (τ := τ) (W := wrB) (hostOps1_1 : List (HloOp τ sig (Elt F))) _ (by writes_in) hr).trans
    (StableHlo.after_of_writes_sub (τ := τ) (W := wrB) (hostOps1 : List (HloOp τ sig (Elt F))) _ (by writes_in) hr)))))))

/-- The host operations between regions 1 and 2. -/
theorem keepC (r : Ref sig .tc) (hr : r ∉ wrC) :
    W15 (F := F) m ρ c (Proc.devRef .tc r) = W13 m ρ c (Proc.devRef .tc r) :=
  ((StableHlo.after_of_writes_sub (τ := τ) (W := wrC) (hostOps2_1 : List (HloOp τ sig (Elt F))) _ (by writes_in) hr).trans
    (StableHlo.after_of_writes_sub (τ := τ) (W := wrC) (hostOps2 : List (HloOp τ sig (Elt F))) _ (by writes_in) hr))

/-- The host operations between regions 2 and 3. -/
theorem keepD (r : Ref sig .tc) (hr : r ∉ wrD) :
    W23 (F := F) m ρ c (Proc.devRef .tc r) = W16 m ρ c (Proc.devRef .tc r) :=
  ((StableHlo.after_of_writes_sub (τ := τ) (W := wrD) (hostOps3_6 : List (HloOp τ sig (Elt F))) _ (by writes_in) hr).trans
    ((StableHlo.after_of_writes_sub (τ := τ) (W := wrD) (hostOps3_5 : List (HloOp τ sig (Elt F))) _ (by writes_in) hr).trans
    ((StableHlo.after_of_writes_sub (τ := τ) (W := wrD) (hostOps3_4 : List (HloOp τ sig (Elt F))) _ (by writes_in) hr).trans
    ((StableHlo.after_of_writes_sub (τ := τ) (W := wrD) (hostOps3_3 : List (HloOp τ sig (Elt F))) _ (by writes_in) hr).trans
    ((StableHlo.after_of_writes_sub (τ := τ) (W := wrD) (hostOps3_2 : List (HloOp τ sig (Elt F))) _ (by writes_in) hr).trans
    ((StableHlo.after_of_writes_sub (τ := τ) (W := wrD) (hostOps3_1 : List (HloOp τ sig (Elt F))) _ (by writes_in) hr).trans
    (StableHlo.after_of_writes_sub (τ := τ) (W := wrD) (hostOps3 : List (HloOp τ sig (Elt F))) _ (by writes_in) hr)))))))

/-- The host operations between regions 3 and 4. -/
theorem keepE (r : Ref sig .tc) (hr : r ∉ wrE) :
    W26 (F := F) m ρ c (Proc.devRef .tc r) = W24 m ρ c (Proc.devRef .tc r) :=
  ((StableHlo.after_of_writes_sub (τ := τ) (W := wrE) (hostOps4_1 : List (HloOp τ sig (Elt F))) _ (by writes_in) hr).trans
    (StableHlo.after_of_writes_sub (τ := τ) (W := wrE) (hostOps4 : List (HloOp τ sig (Elt F))) _ (by writes_in) hr))

/-- The host operations between regions 4 and 5. -/
theorem keepF (r : Ref sig .tc) (hr : r ∉ wrF) :
    W34 (F := F) m ρ c (Proc.devRef .tc r) = W27 m ρ c (Proc.devRef .tc r) :=
  ((StableHlo.after_of_writes_sub (τ := τ) (W := wrF) (hostOps5_6 : List (HloOp τ sig (Elt F))) _ (by writes_in) hr).trans
    ((StableHlo.after_of_writes_sub (τ := τ) (W := wrF) (hostOps5_5 : List (HloOp τ sig (Elt F))) _ (by writes_in) hr).trans
    ((StableHlo.after_of_writes_sub (τ := τ) (W := wrF) (hostOps5_4 : List (HloOp τ sig (Elt F))) _ (by writes_in) hr).trans
    ((StableHlo.after_of_writes_sub (τ := τ) (W := wrF) (hostOps5_3 : List (HloOp τ sig (Elt F))) _ (by writes_in) hr).trans
    ((StableHlo.after_of_writes_sub (τ := τ) (W := wrF) (hostOps5_2 : List (HloOp τ sig (Elt F))) _ (by writes_in) hr).trans
    ((StableHlo.after_of_writes_sub (τ := τ) (W := wrF) (hostOps5_1 : List (HloOp τ sig (Elt F))) _ (by writes_in) hr).trans
    (StableHlo.after_of_writes_sub (τ := τ) (W := wrF) (hostOps5 : List (HloOp τ sig (Elt F))) _ (by writes_in) hr)))))))

/-- The host operations between regions 5 and 6. -/
theorem keepG (r : Ref sig .tc) (hr : r ∉ wrG) :
    W37 (F := F) m ρ c (Proc.devRef .tc r) = W35 m ρ c (Proc.devRef .tc r) :=
  ((StableHlo.after_of_writes_sub (τ := τ) (W := wrG) (hostOps6_1 : List (HloOp τ sig (Elt F))) _ (by writes_in) hr).trans
    (StableHlo.after_of_writes_sub (τ := τ) (W := wrG) (hostOps6 : List (HloOp τ sig (Elt F))) _ (by writes_in) hr))

/-- The host operations after region 6. -/
theorem keepH (r : Ref sig .tc) (hr : r ∉ wrH) :
    W39 (F := F) m ρ c (Proc.devRef .tc r) = W38 m ρ c (Proc.devRef .tc r) :=
  (StableHlo.after_of_writes_sub (τ := τ) (W := wrH) (hostOps7 : List (HloOp τ sig (Elt F))) _ (by writes_in) hr)

/-! ## From a later boundary back to region 0's entry

A buffer that no region up to the boundary has among its arrays and no stage up to it writes. -/

theorem carry5 (r : Ref sig .tc) (h0 : ∀ w, Pipeline.arrRef spec0 w ≠ r) :
    W5 (F := F) m ρ c (Proc.devRef .tc r) = W4 m ρ c (Proc.devRef .tc r) := W5_of_ne m ρ c r h0

theorem carry12 (r : Ref sig .tc) (h0 : ∀ w, Pipeline.arrRef spec0 w ≠ r) (hB : r ∉ wrB) :
    W12 (F := F) m ρ c (Proc.devRef .tc r) = W4 m ρ c (Proc.devRef .tc r) :=
  (keepB m ρ c r hB).trans (carry5 m ρ c r h0)

theorem carry13 (r : Ref sig .tc) (h0 : ∀ w, Pipeline.arrRef spec0 w ≠ r) (hB : r ∉ wrB)
    (h1 : ∀ w, Pipeline.arrRef spec1 w ≠ r) :
    W13 (F := F) m ρ c (Proc.devRef .tc r) = W4 m ρ c (Proc.devRef .tc r) :=
  (W13_of_ne m ρ c r h1).trans (carry12 m ρ c r h0 hB)

theorem carry15 (r : Ref sig .tc) (h0 : ∀ w, Pipeline.arrRef spec0 w ≠ r) (hB : r ∉ wrB)
    (h1 : ∀ w, Pipeline.arrRef spec1 w ≠ r) (hC : r ∉ wrC) :
    W15 (F := F) m ρ c (Proc.devRef .tc r) = W4 m ρ c (Proc.devRef .tc r) :=
  (keepC m ρ c r hC).trans (carry13 m ρ c r h0 hB h1)

theorem carry16 (r : Ref sig .tc) (h0 : ∀ w, Pipeline.arrRef spec0 w ≠ r) (hB : r ∉ wrB)
    (h1 : ∀ w, Pipeline.arrRef spec1 w ≠ r) (hC : r ∉ wrC) (h2 : ∀ w, Pipeline.arrRef spec2 w ≠ r) :
    W16 (F := F) m ρ c (Proc.devRef .tc r) = W4 m ρ c (Proc.devRef .tc r) :=
  (W16_of_ne m ρ c r h2).trans (carry15 m ρ c r h0 hB h1 hC)

/-- From region 4's entry back to region 2's exit. -/
theorem carry26 (r : Ref sig .tc) (hD : r ∉ wrD) (h3 : ∀ w, Pipeline.arrRef spec3 w ≠ r) (hE : r ∉ wrE) :
    W26 (F := F) m ρ c (Proc.devRef .tc r) = W16 m ρ c (Proc.devRef .tc r) :=
  (keepE m ρ c r hE).trans ((W24_of_ne m ρ c r h3).trans (keepD m ρ c r hD))

/-- From region 4's exit back to region 2's exit. -/
theorem carry27 (r : Ref sig .tc) (hD : r ∉ wrD) (h3 : ∀ w, Pipeline.arrRef spec3 w ≠ r) (hE : r ∉ wrE)
    (h4 : ∀ w, Pipeline.arrRef spec4 w ≠ r) :
    W27 (F := F) m ρ c (Proc.devRef .tc r) = W16 m ρ c (Proc.devRef .tc r) :=
  (W27_of_ne m ρ c r h4).trans (carry26 m ρ c r hD h3 hE)

/-- From region 6's entry back to region 4's exit. -/
theorem carry37 (r : Ref sig .tc) (hF : r ∉ wrF) (h5 : ∀ w, Pipeline.arrRef spec5 w ≠ r) (hG : r ∉ wrG) :
    W37 (F := F) m ρ c (Proc.devRef .tc r) = W27 m ρ c (Proc.devRef .tc r) :=
  (keepG m ρ c r hG).trans ((W35_of_ne m ρ c r h5).trans (keepF m ρ c r hF))

/-- From region 6's exit back to region 4's exit. -/
theorem carry38 (r : Ref sig .tc) (hF : r ∉ wrF) (h5 : ∀ w, Pipeline.arrRef spec5 w ≠ r) (hG : r ∉ wrG)
    (h6 : ∀ w, Pipeline.arrRef spec6 w ≠ r) :
    W38 (F := F) m ρ c (Proc.devRef .tc r) = W27 m ρ c (Proc.devRef .tc r) :=
  (W38_of_ne m ρ c r h6).trans (carry37 m ρ c r hF h5 hG)

/-- At launch a core's buffer holds the launch memory there. -/
theorem W0_eq (r : Ref sig .tc) : W0 (F := F) m ρ c (Proc.devRef .tc r) = m ((c : Thread nD τ).loc r) := rfl

end Cert.KernelSide

end
-- ==== Proof.Spec.lean ====
/-
  The function both programs compute, spelt once, in the reference's own host operations.

  A graph convolution layer over N = 100000 nodes and E = 6400000 weighted edges (src, dst, w):
    deg   = segment_sum(w, dst) + 1                     (the self loop)
    dinv  = where(deg > 0, rsqrt(deg), 0)
    norm  = dinv[src] · w · dinv[dst]
    xw    = h · W
    agg   = segment_sum(norm · xw[src], dst)
    out   = elu(agg + (dinv · dinv) · xw + b),   elu(x) = where(x > 0, x, 1 · expm1(where(x > 0, 0, x)))
  Three such layers (256 → 16 → 32 → 32 features), then a last product with a [32,16] matrix plus a bias.
  An index below zero is wrapped once by N before it is used to gather (jnp's indexing rule).
-/
import proofs.«142261_j89635967467582_2_alg».proof.ReferenceIdeal
import Idealize.ShloMosaic.PureOps.Ideal

noncomputable section

namespace Cert.Spec

open Idealize.ShloMosaic Cert.ReferenceIdeal Cert.ReferenceIdeal.Facts₀

variable {F : FTy → Type} [FloatOps F] [Cert.ReferenceIdeal.Facts]

/-- The contents of a tensor value of shape `s` and element type `e`. -/
abbrev Arr (F : FTy → Type) [FloatOps F] (s : Shape) (e : EltTy) : Type := (⟨s, e⟩ : BufTy).Contents (Elt F)

/-- Row 0 of the edge table: the source node of each edge. -/
def src (e : Arr F S2x6400000 .i32) : Arr F S6400000 .i32 :=
  shapeCast S6400000 (extractStridedSlice S1x6400000 ![0, 0] e slices_S2x6400000_S1x6400000_0_0) shapeCasts_S1x6400000_S6400000

/-- Row 1 of the edge table: the destination node of each edge. -/
def dst (e : Arr F S2x6400000 .i32) : Arr F S6400000 .i32 :=
  shapeCast S6400000 (extractStridedSlice S1x6400000 ![1, 0] e slices_S2x6400000_S1x6400000_1_0) shapeCasts_S1x6400000_S6400000

/-- A node index wrapped once by N when negative, as a column of gather indices. -/
def wrapIdx (i : Arr F S6400000 .i32) : Arr F S6400000x1 .i32 :=
  broadcastInDim S6400000x1 ![0] bcast_S6400000_S6400000x1_0
    (select (cmpi .slt i (broadcastInDim S6400000 ![] bcast_S_S6400000 (constantI S_ 32 0#32)))
      (addi i (broadcastInDim S6400000 ![] bcast_S_S6400000 (constantI S_ 32 100000#32))) i)

/-- The weighted in-degree of every node plus one for its self loop. -/
def deg (d : Arr F S6400000 .i32) (w : Arr F S6400000 .f32) : Arr F S100000 .f32 :=
  addf (Host.scatterAdd scatter_S100000_S6400000x1_S6400000_n_0_0_1
          (broadcastInDim S100000 ![] bcast_S_S100000 (constant S_ .f32 0x00000000#32))
          (broadcastInDim S6400000x1 ![0] bcast_S6400000_S6400000x1_0 d) w)
    (broadcastInDim S100000 ![] bcast_S_S100000 (constant S_ .f32 0x3F800000#32))

/-- deg^(-1/2) where the degree is positive, zero elsewhere. -/
def dinv (d : Arr F S6400000 .i32) (w : Arr F S6400000 .f32) : Arr F S100000 .f32 :=
  select (cmpf .ogt (deg d w) (broadcastInDim S100000 ![] bcast_S_S100000 (constant S_ .f32 0x00000000#32)))
    (Host.rsqrt (deg d w))
    (broadcastInDim S100000 ![] bcast_S_S100000 (constant S_ .f32 0x00000000#32))

/-- The symmetric normalization of each edge: dinv at its source, its weight, dinv at its destination. -/
def norm (s d : Arr F S6400000 .i32) (w : Arr F S6400000 .f32) : Arr F S6400000 .f32 :=
  mulf (mulf (Host.gather gather_S100000_S6400000x1_S6400000_n_0_n_n_0_1_1 (dinv d w) (wrapIdx s)) w)
    (Host.gather gather_S100000_S6400000x1_S6400000_n_0_n_n_0_1_1 (dinv d w) (wrapIdx d))

/-! ## Sixteen features -/

/-- The messages norm · xw[src] summed into their destination rows. -/
def agg16 (s d : Arr F S6400000 .i32) (nrm : Arr F S6400000 .f32) (xw : Arr F S100000x16 .f32) : Arr F S100000x16 .f32 :=
  Host.scatterAdd scatter_S100000x16_S6400000x1_S6400000x16_1_0_0_1
    (broadcastInDim S100000x16 ![] bcast_S_S100000x16 (constant S_ .f32 0x00000000#32))
    (broadcastInDim S6400000x1 ![0] bcast_S6400000_S6400000x1_0 d)
    (mulf (broadcastInDim S6400000x16 ![0, 1] bcast_S6400000x1_S6400000x16_0_1
            (broadcastInDim S6400000x1 ![0] bcast_S6400000_S6400000x1_0 nrm))
      (Host.gather gather_S100000x16_S6400000x1_S6400000x16_1_0_n_n_0_1_116 xw (wrapIdx s)))

/-- elu, in jax.nn.elu's spelling. -/
def elu16 (x : Arr F S100000x16 .f32) : Arr F S100000x16 .f32 :=
  select (cmpf .ogt x (broadcastInDim S100000x16 ![] bcast_S_S100000x16 (constant S_ .f32 0x00000000#32))) x
    (mulf (broadcastInDim S100000x16 ![] bcast_S_S100000x16 (constant S_ .f32 0x3F800000#32))
      (Host.expm1 (select (cmpf .ogt x (broadcastInDim S100000x16 ![] bcast_S_S100000x16 (constant S_ .f32 0x00000000#32)))
        (broadcastInDim S100000x16 ![] bcast_S_S100000x16 (constant S_ .f32 0x00000000#32)) x)))

/-- agg + (dcol · dcol) · xw + brow for a column dcol of shape [N,1] and a row brow of shape [1,16]. -/
def affine16 (agg xw : Arr F S100000x16 .f32) (dcol : Arr F S100000x1 .f32) (brow : Arr F S1x16 .f32) : Arr F S100000x16 .f32 :=
  addf (addf agg (mulf (broadcastInDim S100000x16 ![0, 1] bcast_S100000x1_S100000x16_0_1 dcol) xw))
    (broadcastInDim S100000x16 ![0, 1] bcast_S1x16_S100000x16_0_1 brow)

/-- The layer's value before the activation, from dinv as a vector and the bias as a vector. -/
def pre16 (agg xw : Arr F S100000x16 .f32) (dv : Arr F S100000 .f32) (b : Arr F S16 .f32) : Arr F S100000x16 .f32 :=
  affine16 agg xw (broadcastInDim S100000x1 ![0] bcast_S100000_S100000x1_0 (mulf dv dv))
    (broadcastInDim S1x16 ![1] bcast_S16_S1x16_1 b)

/-! ## Thirty-two features -/

def agg32 (s d : Arr F S6400000 .i32) (nrm : Arr F S6400000 .f32) (xw : Arr F S100000x32 .f32) : Arr F S100000x32 .f32 :=
  Host.scatterAdd scatter_S100000x32_S6400000x1_S6400000x32_1_0_0_1
    (broadcastInDim S100000x32 ![] bcast_S_S100000x32 (constant S_ .f32 0x00000000#32))
    (broadcastInDim S6400000x1 ![0] bcast_S6400000_S6400000x1_0 d)
    (mulf (broadcastInDim S6400000x32 ![0, 1] bcast_S6400000x1_S6400000x32_0_1
            (broadcastInDim S6400000x1 ![0] bcast_S6400000_S6400000x1_0 nrm))
      (Host.gather gather_S100000x32_S6400000x1_S6400000x32_1_0_n_n_0_1_132 xw (wrapIdx s)))

def elu32 (x : Arr F S100000x32 .f32) : Arr F S100000x32 .f32 :=
  select (cmpf .ogt x (broadcastInDim S100000x32 ![] bcast_S_S100000x32 (constant S_ .f32 0x00000000#32))) x
    (mulf (broadcastInDim S100000x32 ![] bcast_S_S100000x32 (constant S_ .f32 0x3F800000#32))
      (Host.expm1 (select (cmpf .ogt x (broadcastInDim S100000x32 ![] bcast_S_S100000x32 (constant S_ .f32 0x00000000#32)))
        (broadcastInDim S100000x32 ![] bcast_S_S100000x32 (constant S_ .f32 0x00000000#32)) x)))

def affine32 (agg xw : Arr F S100000x32 .f32) (dcol : Arr F S100000x1 .f32) (brow : Arr F S1x32 .f32) : Arr F S100000x32 .f32 :=
  addf (addf agg (mulf (broadcastInDim S100000x32 ![0, 1] bcast_S100000x1_S100000x32_0_1 dcol) xw))
    (broadcastInDim S100000x32 ![0, 1] bcast_S1x32_S100000x32_0_1 brow)

def pre32 (agg xw : Arr F S100000x32 .f32) (dv : Arr F S100000 .f32) (b : Arr F S32 .f32) : Arr F S100000x32 .f32 :=
  affine32 agg xw (broadcastInDim S100000x1 ![0] bcast_S100000_S100000x1_0 (mulf dv dv))
    (broadcastInDim S1x32 ![1] bcast_S32_S1x32_1 b)

/-! ## The four products -/

def dot0 (x : Arr F S100000x256 .f32) (W : Arr F S256x16 .f32) : Arr F S100000x16 .f32 :=
  Host.dotGeneral dot_S100000x256_S256x16_S100000x16_1_0_0_1_n_n none x W
def dot1 (x : Arr F S100000x16 .f32) (W : Arr F S16x32 .f32) : Arr F S100000x32 .f32 :=
  Host.dotGeneral dot_S100000x16_S16x32_S100000x32_1_0_0_1_n_n none x W
def dot2 (x : Arr F S100000x32 .f32) (W : Arr F S32x32 .f32) : Arr F S100000x32 .f32 :=
  Host.dotGeneral dot_S100000x32_S32x32_S100000x32_1_0_0_1_n_n none x W
def dot3 (x : Arr F S100000x32 .f32) (W : Arr F S32x16 .f32) : Arr F S100000x16 .f32 :=
  Host.dotGeneral dot_S100000x32_S32x16_S100000x16_1_0_0_1_n_n none x W

/-! ## The layers and the whole function -/

/-- A layer into sixteen features, from its product xw. -/
def layer16 (e : Arr F S2x6400000 .i32) (w : Arr F S6400000 .f32) (xw : Arr F S100000x16 .f32) (b : Arr F S16 .f32) :
    Arr F S100000x16 .f32 :=
  elu16 (pre16 (agg16 (src e) (dst e) (norm (src e) (dst e) w) xw) xw (dinv (dst e) w) b)

/-- A layer into thirty-two features, from its product xw. -/
def layer32 (e : Arr F S2x6400000 .i32) (w : Arr F S6400000 .f32) (xw : Arr F S100000x32 .f32) (b : Arr F S32 .f32) :
    Arr F S100000x32 .f32 :=
  elu32 (pre32 (agg32 (src e) (dst e) (norm (src e) (dst e) w) xw) xw (dinv (dst e) w) b)

/-- The last step: a product and a bias row. -/
def head (h : Arr F S100000x32 .f32) (Wm : Arr F S32x16 .f32) (bm : Arr F S16 .f32) : Arr F S100000x16 .f32 :=
  addf (dot3 h Wm) (broadcastInDim S100000x16 ![0, 1] bcast_S1x16_S100000x16_0_1 (broadcastInDim S1x16 ![1] bcast_S16_S1x16_1 bm))

/-- The result as one function of the eleven arguments. -/
def G (x : Arr F S100000x256 .f32) (e : Arr F S2x6400000 .i32) (w : Arr F S6400000 .f32)
    (W0 : Arr F S256x16 .f32) (b0 : Arr F S16 .f32) (W1 : Arr F S16x32 .f32) (b1 : Arr F S32 .f32)
    (W2 : Arr F S32x32 .f32) (b2 : Arr F S32 .f32) (Wm : Arr F S32x16 .f32) (bm : Arr F S16 .f32) : Arr F S100000x16 .f32 :=
  head (layer32 e w (dot2 (layer32 e w (dot1 (layer16 e w (dot0 x W0) b0) W1) b1) W2) b2) Wm bm

end Cert.Spec

end
-- ==== Proof.KEnds.lean ====
/-
  The short stages of the idealized kernel's host side, read as values.

  Before region 0 the host computes, from the edge table and the edge weights alone, the two index rows, dinv and the
  edge normalization, and hands x to the first product through a pad by nothing. Between an epilogue region and the
  next product the only host work is again a pad by nothing. After the last product the host adds the bias row.
  Each is read off the stage's fold of operations, at arbitrary entry contents named by hypotheses.
-/
import proofs.«142261_j89635967467582_2_alg».proof.Proof.KPlain
import proofs.«142261_j89635967467582_2_alg».proof.Proof.Spec
import proofs.«142261_j89635967467582_2_alg».proof.Proof.Gen.ReferenceIdeal

set_option maxRecDepth 16384

noncomputable section

namespace Cert.KernelSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Before region 0 -/

/-- The fold of the four stretches before region 0, unrolled at a buffer. -/
macro "read_stageA" : tactic => `(tactic| (
  show StableHlo.after hostOps0_3 (StableHlo.after hostOps0_2 (StableHlo.after hostOps0_1 (StableHlo.after hostOps0 (W0 _ _ _)))) _ = _
  rw [hostOps0_1_plain, hostOps0_3_plain]
  simp only [hostOps0, hostOps0_2]
  after_results_simp))

set_option maxHeartbeats 400000 in
/-- The source row of the edge table. -/
theorem A_v1 : W4 (F := Ideal) m ρ c (Proc.devRef .tc main_v1) = Cert.Spec.src (F := Ideal) (m ((c : Thread nD τ).loc main_arg1)) := by
  read_stageA
  unfold Cert.Spec.src
  rfl

set_option maxHeartbeats 400000 in
/-- The destination row of the edge table. -/
theorem A_v3 : W4 (F := Ideal) m ρ c (Proc.devRef .tc main_v3) = Cert.Spec.dst (F := Ideal) (m ((c : Thread nD τ).loc main_arg1)) := by
  read_stageA
  unfold Cert.Spec.dst
  rfl

set_option maxHeartbeats 400000 in
/-- dinv: the degree's inverse square root where the degree is positive. -/
theorem A_v12 : W4 (F := Ideal) m ρ c (Proc.devRef .tc main_v12)
    = Cert.Spec.dinv (F := Ideal) (Cert.Spec.dst (m ((c : Thread nD τ).loc main_arg1))) (m ((c : Thread nD τ).loc main_arg2)) := by
  read_stageA
  unfold Cert.Spec.dinv Cert.Spec.deg Cert.Spec.dst
  rfl

set_option maxHeartbeats 800000 in
/-- The edge normalization dinv[src] · w · dinv[dst]. -/
theorem A_v28 : W4 (F := Ideal) m ρ c (Proc.devRef .tc main_v28)
    = Cert.Spec.norm (F := Ideal) (Cert.Spec.src (m ((c : Thread nD τ).loc main_arg1))) (Cert.Spec.dst (m ((c : Thread nD τ).loc main_arg1)))
        (m ((c : Thread nD τ).loc main_arg2)) := by
  read_stageA
  unfold Cert.Spec.norm Cert.Spec.wrapIdx Cert.Spec.dinv Cert.Spec.deg Cert.Spec.dst Cert.Spec.src
  rfl

set_option maxHeartbeats 400000 in
/-- x, padded by nothing, is x. -/
theorem A_v29 : W4 (F := Ideal) m ρ c (Proc.devRef .tc main_v29) = m ((c : Thread nD τ).loc main_arg0) := by
  read_stageA
  exact pad_none2 _ _ _ _

/-! ## A pad by nothing between an epilogue region and the next product -/

set_option maxHeartbeats 400000 in
theorem stageC_v50 (Y : Cert.Spec.Arr Ideal Cert.ReferenceIdeal.S100000x16 .f32)
    (h : W13 (F := Ideal) m ρ c (Proc.devRef .tc main_v49) = Y) : W15 (F := Ideal) m ρ c (Proc.devRef .tc main_v50) = Y := by
  show StableHlo.after hostOps2_1 (StableHlo.after hostOps2 (W13 m ρ c)) _ = _
  rw [hostOps2_1_plain]
  simp only [hostOps2]
  after_results_simp
  rw [h]
  exact pad_none2 _ _ _ _

set_option maxHeartbeats 400000 in
theorem stageE_v71 (Y : Cert.Spec.Arr Ideal Cert.ReferenceIdeal.S100000x32 .f32)
    (h : W24 (F := Ideal) m ρ c (Proc.devRef .tc main_v70) = Y) : W26 (F := Ideal) m ρ c (Proc.devRef .tc main_v71) = Y := by
  show StableHlo.after hostOps4_1 (StableHlo.after hostOps4 (W24 m ρ c)) _ = _
  rw [hostOps4_1_plain]
  simp only [hostOps4]
  after_results_simp
  rw [h]
  exact pad_none2 _ _ _ _

set_option maxHeartbeats 400000 in
theorem stageG_v92 (Y : Cert.Spec.Arr Ideal Cert.ReferenceIdeal.S100000x32 .f32)
    (h : W35 (F := Ideal) m ρ c (Proc.devRef .tc main_v91) = Y) : W37 (F := Ideal) m ρ c (Proc.devRef .tc main_v92) = Y := by
  show StableHlo.after hostOps6_1 (StableHlo.after hostOps6 (W35 m ρ c)) _ = _
  rw [hostOps6_1_plain]
  simp only [hostOps6]
  after_results_simp
  rw [h]
  exact pad_none2 _ _ _ _

/-! ## After region 6 -/

set_option maxHeartbeats 400000 in
/-- The last product plus the bias as a row broadcast down the rows. -/
theorem stageH_v96 (H : Cert.Spec.Arr Ideal Cert.ReferenceIdeal.S100000x32 .f32) (Wm : Cert.Spec.Arr Ideal Cert.ReferenceIdeal.S32x16 .f32)
    (bm : Cert.Spec.Arr Ideal Cert.ReferenceIdeal.S16 .f32)
    (hz : W38 (F := Ideal) m ρ c (Proc.devRef .tc main_v93) = Cert.Spec.dot3 (F := Ideal) H Wm)
    (hb : W38 (F := Ideal) m ρ c (Proc.devRef .tc main_arg10) = bm) :
    W39 (F := Ideal) m ρ c (Proc.devRef .tc main_v96) = Cert.Spec.head (F := Ideal) H Wm bm := by
  show StableHlo.after hostOps7 (W38 m ρ c) _ = _
  simp only [hostOps7]
  after_results_simp
  (rw [hz, hb]) <;> (unfold Cert.Spec.head; rfl)

end Cert.KernelSide

end
-- ==== Proof.KStages.lean ====
/-
  The long host stretches between a product region and the epilogue region that follows it, in the idealized kernel's
  @main.  Each gathers the product's rows by source node, multiplies them by the broadcast edge normalization, and
  scatter-adds them into destination rows (the aggregate); then pads the aggregate, the product and the inverse square
  root degrees by nothing, and reshapes the degrees [N] to [N,1] and the bias [F] to [1,F].  Read at each buffer the
  epilogue takes, the stretch leaves the specification's aggregate, the product itself, and the two reshapes.
-/
import proofs.«142261_j89635967467582_2_alg».proof.Proof.KPlain
import proofs.«142261_j89635967467582_2_alg».proof.Proof.Spec

set_option maxRecDepth 16384

noncomputable section

namespace Cert.KernelSide

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)
variable [Cert.ReferenceIdeal.Facts]

/-! ## The stretch before the epilogue at 16 features (first layer) -/

open Idealize.ShloMosaic.StableHlo in
set_option maxHeartbeats 400000 in
/-- The padded aggregate is the specification's aggregate of the product's rows. -/
theorem stageB_v44 (S D : Cert.Spec.Arr Ideal Cert.ReferenceIdeal.S6400000 .i32) (Nm : Cert.Spec.Arr Ideal Cert.ReferenceIdeal.S6400000 .f32)
    (X : Cert.Spec.Arr Ideal Cert.ReferenceIdeal.S100000x16 .f32)
    (h1 : W5 m ρ c (Proc.devRef .tc main_v1) = S) (h3 : W5 m ρ c (Proc.devRef .tc main_v3) = D)
    (h28 : W5 m ρ c (Proc.devRef .tc main_v28) = Nm) (hx : W5 m ρ c (Proc.devRef .tc main_v30) = X) :
    W12 (F := Ideal) m ρ c (Proc.devRef .tc main_v44) = Cert.Spec.agg16 S D Nm X := by
  show StableHlo.after hostOps1_6 (StableHlo.after hostOps1_5 (StableHlo.after hostOps1_4 (StableHlo.after hostOps1_3
    (StableHlo.after hostOps1_2 (StableHlo.after hostOps1_1 (StableHlo.after hostOps1 (W5 m ρ c))))))) (Proc.devRef .tc main_v44) = _
  rw [hostOps1_1_plain, hostOps1_3_plain, hostOps1_5_plain]
  simp only [hostOps1, hostOps1_2, hostOps1_4, hostOps1_6]
  after_results_simp
  rw [h1, h3, h28, hx]
  rw [pad_none2]
  unfold Cert.Spec.agg16 Cert.Spec.wrapIdx
  first | rfl | fail "the aggregate's two spellings differ"

open Idealize.ShloMosaic.StableHlo in
set_option maxHeartbeats 400000 in
/-- The padded product is the product. -/
theorem stageB_v45 (X : Cert.Spec.Arr Ideal Cert.ReferenceIdeal.S100000x16 .f32)
    (hx : W5 m ρ c (Proc.devRef .tc main_v30) = X) :
    W12 (F := Ideal) m ρ c (Proc.devRef .tc main_v45) = X := by
  show StableHlo.after hostOps1_6 (StableHlo.after hostOps1_5 (StableHlo.after hostOps1_4 (StableHlo.after hostOps1_3
    (StableHlo.after hostOps1_2 (StableHlo.after hostOps1_1 (StableHlo.after hostOps1 (W5 m ρ c))))))) (Proc.devRef .tc main_v45) = _
  rw [hostOps1_1_plain, hostOps1_3_plain, hostOps1_5_plain]
  simp only [hostOps1, hostOps1_2, hostOps1_4, hostOps1_6]
  after_results_simp
  rw [hx]
  rw [pad_none2]

open Idealize.ShloMosaic.StableHlo in
set_option maxHeartbeats 400000 in
/-- The inverse square root degrees, padded by nothing and reshaped to a column. -/
theorem stageB_v47 (Dv : Cert.Spec.Arr Ideal Cert.ReferenceIdeal.S100000 .f32)
    (h12 : W5 m ρ c (Proc.devRef .tc main_v12) = Dv) :
    W12 (F := Ideal) m ρ c (Proc.devRef .tc main_v47) = shapeCast S100000x1 Dv shapeCasts_S100000_S100000x1 := by
  show StableHlo.after hostOps1_6 (StableHlo.after hostOps1_5 (StableHlo.after hostOps1_4 (StableHlo.after hostOps1_3
    (StableHlo.after hostOps1_2 (StableHlo.after hostOps1_1 (StableHlo.after hostOps1 (W5 m ρ c))))))) (Proc.devRef .tc main_v47) = _
  rw [hostOps1_1_plain, hostOps1_3_plain, hostOps1_5_plain]
  simp only [hostOps1, hostOps1_2, hostOps1_4, hostOps1_6]
  after_results_simp
  rw [h12]
  rw [pad_none1]
  first | rfl | fail "the column's two spellings differ"

open Idealize.ShloMosaic.StableHlo in
set_option maxHeartbeats 400000 in
/-- The bias reshaped to a row. -/
theorem stageB_v48 (b : Cert.Spec.Arr Ideal Cert.ReferenceIdeal.S16 .f32)
    (hb : W5 m ρ c (Proc.devRef .tc main_arg4) = b) :
    W12 (F := Ideal) m ρ c (Proc.devRef .tc main_v48) = shapeCast S1x16 b shapeCasts_S16_S1x16 := by
  show StableHlo.after hostOps1_6 (StableHlo.after hostOps1_5 (StableHlo.after hostOps1_4 (StableHlo.after hostOps1_3
    (StableHlo.after hostOps1_2 (StableHlo.after hostOps1_1 (StableHlo.after hostOps1 (W5 m ρ c))))))) (Proc.devRef .tc main_v48) = _
  rw [hostOps1_1_plain, hostOps1_3_plain, hostOps1_5_plain]
  simp only [hostOps1, hostOps1_2, hostOps1_4, hostOps1_6]
  after_results_simp
  rw [hb]
  first | rfl | fail "the row's two spellings differ"

/-! ## The stretch before the epilogue at 32 features (second layer) -/

open Idealize.ShloMosaic.StableHlo in
set_option maxHeartbeats 400000 in
/-- The padded aggregate is the specification's aggregate of the product's rows. -/
theorem stageD_v65 (S D : Cert.Spec.Arr Ideal Cert.ReferenceIdeal.S6400000 .i32) (Nm : Cert.Spec.Arr Ideal Cert.ReferenceIdeal.S6400000 .f32)
    (X : Cert.Spec.Arr Ideal Cert.ReferenceIdeal.S100000x32 .f32)
    (h1 : W16 m ρ c (Proc.devRef .tc main_v1) = S) (h3 : W16 m ρ c (Proc.devRef .tc main_v3) = D)
    (h28 : W16 m ρ c (Proc.devRef .tc main_v28) = Nm) (hx : W16 m ρ c (Proc.devRef .tc main_v51) = X) :
    W23 (F := Ideal) m ρ c (Proc.devRef .tc main_v65) = Cert.Spec.agg32 S D Nm X := by
  show StableHlo.after hostOps3_6 (StableHlo.after hostOps3_5 (StableHlo.after hostOps3_4 (StableHlo.after hostOps3_3
    (StableHlo.after hostOps3_2 (StableHlo.after hostOps3_1 (StableHlo.after hostOps3 (W16 m ρ c))))))) (Proc.devRef .tc main_v65) = _
  rw [hostOps3_1_plain, hostOps3_3_plain, hostOps3_5_plain]
  simp only [hostOps3, hostOps3_2, hostOps3_4, hostOps3_6]
  after_results_simp
  rw [h1, h3, h28, hx]
  rw [pad_none2]
  unfold Cert.Spec.agg32 Cert.Spec.wrapIdx
  first | rfl | fail "the aggregate's two spellings differ"

open Idealize.ShloMosaic.StableHlo in
set_option maxHeartbeats 400000 in
/-- The padded product is the product. -/
theorem stageD_v66 (X : Cert.Spec.Arr Ideal Cert.ReferenceIdeal.S100000x32 .f32)
    (hx : W16 m ρ c (Proc.devRef .tc main_v51) = X) :
    W23 (F := Ideal) m ρ c (Proc.devRef .tc main_v66) = X := by
  show StableHlo.after hostOps3_6 (StableHlo.after hostOps3_5 (StableHlo.after hostOps3_4 (StableHlo.after hostOps3_3
    (StableHlo.after hostOps3_2 (StableHlo.after hostOps3_1 (StableHlo.after hostOps3 (W16 m ρ c))))))) (Proc.devRef .tc main_v66) = _
  rw [hostOps3_1_plain, hostOps3_3_plain, hostOps3_5_plain]
  simp only [hostOps3, hostOps3_2, hostOps3_4, hostOps3_6]
  after_results_simp
  rw [hx]
  rw [pad_none2]

open Idealize.ShloMosaic.StableHlo in
set_option maxHeartbeats 400000 in
/-- The inverse square root degrees, padded by nothing and reshaped to a column. -/
theorem stageD_v68 (Dv : Cert.Spec.Arr Ideal Cert.ReferenceIdeal.S100000 .f32)
    (h12 : W16 m ρ c (Proc.devRef .tc main_v12) = Dv) :
    W23 (F := Ideal) m ρ c (Proc.devRef .tc main_v68) = shapeCast S100000x1 Dv shapeCasts_S100000_S100000x1 := by
  show StableHlo.after hostOps3_6 (StableHlo.after hostOps3_5 (StableHlo.after hostOps3_4 (StableHlo.after hostOps3_3
    (StableHlo.after hostOps3_2 (StableHlo.after hostOps3_1 (StableHlo.after hostOps3 (W16 m ρ c))))))) (Proc.devRef .tc main_v68) = _
  rw [hostOps3_1_plain, hostOps3_3_plain, hostOps3_5_plain]
  simp only [hostOps3, hostOps3_2, hostOps3_4, hostOps3_6]
  after_results_simp
  rw [h12]
  rw [pad_none1]
  first | rfl | fail "the column's two spellings differ"

open Idealize.ShloMosaic.StableHlo in
set_option maxHeartbeats 400000 in
/-- The bias reshaped to a row. -/
theorem stageD_v69 (b : Cert.Spec.Arr Ideal Cert.ReferenceIdeal.S32 .f32)
    (hb : W16 m ρ c (Proc.devRef .tc main_arg6) = b) :
    W23 (F := Ideal) m ρ c (Proc.devRef .tc main_v69) = shapeCast S1x32 b shapeCasts_S32_S1x32 := by
  show StableHlo.after hostOps3_6 (StableHlo.after hostOps3_5 (StableHlo.after hostOps3_4 (StableHlo.after hostOps3_3
    (StableHlo.after hostOps3_2 (StableHlo.after hostOps3_1 (StableHlo.after hostOps3 (W16 m ρ c))))))) (Proc.devRef .tc main_v69) = _
  rw [hostOps3_1_plain, hostOps3_3_plain, hostOps3_5_plain]
  simp only [hostOps3, hostOps3_2, hostOps3_4, hostOps3_6]
  after_results_simp
  rw [hb]
  first | rfl | fail "the row's two spellings differ"

/-! ## The stretch before the epilogue at 32 features (third layer) -/

open Idealize.ShloMosaic.StableHlo in
set_option maxHeartbeats 400000 in
/-- The padded aggregate is the specification's aggregate of the product's rows. -/
theorem stageF_v86 (S D : Cert.Spec.Arr Ideal Cert.ReferenceIdeal.S6400000 .i32) (Nm : Cert.Spec.Arr Ideal Cert.ReferenceIdeal.S6400000 .f32)
    (X : Cert.Spec.Arr Ideal Cert.ReferenceIdeal.S100000x32 .f32)
    (h1 : W27 m ρ c (Proc.devRef .tc main_v1) = S) (h3 : W27 m ρ c (Proc.devRef .tc main_v3) = D)
    (h28 : W27 m ρ c (Proc.devRef .tc main_v28) = Nm) (hx : W27 m ρ c (Proc.devRef .tc main_v72) = X) :
    W34 (F := Ideal) m ρ c (Proc.devRef .tc main_v86) = Cert.Spec.agg32 S D Nm X := by
  show StableHlo.after hostOps5_6 (StableHlo.after hostOps5_5 (StableHlo.after hostOps5_4 (StableHlo.after hostOps5_3
    (StableHlo.after hostOps5_2 (StableHlo.after hostOps5_1 (StableHlo.after hostOps5 (W27 m ρ c))))))) (Proc.devRef .tc main_v86) = _
  rw [hostOps5_1_plain, hostOps5_3_plain, hostOps5_5_plain]
  simp only [hostOps5, hostOps5_2, hostOps5_4, hostOps5_6]
  after_results_simp
  rw [h1, h3, h28, hx]
  rw [pad_none2]
  unfold Cert.Spec.agg32 Cert.Spec.wrapIdx
  first | rfl | fail "the aggregate's two spellings differ"

open Idealize.ShloMosaic.StableHlo in
set_option maxHeartbeats 400000 in
/-- The padded product is the product. -/
theorem stageF_v87 (X : Cert.Spec.Arr Ideal Cert.ReferenceIdeal.S100000x32 .f32)
    (hx : W27 m ρ c (Proc.devRef .tc main_v72) = X) :
    W34 (F := Ideal) m ρ c (Proc.devRef .tc main_v87) = X := by
  show StableHlo.after hostOps5_6 (StableHlo.after hostOps5_5 (StableHlo.after hostOps5_4 (StableHlo.after hostOps5_3
    (StableHlo.after hostOps5_2 (StableHlo.after hostOps5_1 (StableHlo.after hostOps5 (W27 m ρ c))))))) (Proc.devRef .tc main_v87) = _
  rw [hostOps5_1_plain, hostOps5_3_plain, hostOps5_5_plain]
  simp only [hostOps5, hostOps5_2, hostOps5_4, hostOps5_6]
  after_results_simp
  rw [hx]
  rw [pad_none2]

open Idealize.ShloMosaic.StableHlo in
set_option maxHeartbeats 400000 in
/-- The inverse square root degrees, padded by nothing and reshaped to a column. -/
theorem stageF_v89 (Dv : Cert.Spec.Arr Ideal Cert.ReferenceIdeal.S100000 .f32)
    (h12 : W27 m ρ c (Proc.devRef .tc main_v12) = Dv) :
    W34 (F := Ideal) m ρ c (Proc.devRef .tc main_v89) = shapeCast S100000x1 Dv shapeCasts_S100000_S100000x1 := by
  show StableHlo.after hostOps5_6 (StableHlo.after hostOps5_5 (StableHlo.after hostOps5_4 (StableHlo.after hostOps5_3
    (StableHlo.after hostOps5_2 (StableHlo.after hostOps5_1 (StableHlo.after hostOps5 (W27 m ρ c))))))) (Proc.devRef .tc main_v89) = _
  rw [hostOps5_1_plain, hostOps5_3_plain, hostOps5_5_plain]
  simp only [hostOps5, hostOps5_2, hostOps5_4, hostOps5_6]
  after_results_simp
  rw [h12]
  rw [pad_none1]
  first | rfl | fail "the column's two spellings differ"

open Idealize.ShloMosaic.StableHlo in
set_option maxHeartbeats 400000 in
/-- The bias reshaped to a row. -/
theorem stageF_v90 (b : Cert.Spec.Arr Ideal Cert.ReferenceIdeal.S32 .f32)
    (hb : W27 m ρ c (Proc.devRef .tc main_arg8) = b) :
    W34 (F := Ideal) m ρ c (Proc.devRef .tc main_v90) = shapeCast S1x32 b shapeCasts_S32_S1x32 := by
  show StableHlo.after hostOps5_6 (StableHlo.after hostOps5_5 (StableHlo.after hostOps5_4 (StableHlo.after hostOps5_3
    (StableHlo.after hostOps5_2 (StableHlo.after hostOps5_1 (StableHlo.after hostOps5 (W27 m ρ c))))))) (Proc.devRef .tc main_v90) = _
  rw [hostOps5_1_plain, hostOps5_3_plain, hostOps5_5_plain]
  simp only [hostOps5, hostOps5_2, hostOps5_4, hostOps5_6]
  after_results_simp
  rw [hb]
  first | rfl | fail "the row's two spellings differ"

end Cert.KernelSide

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowTileDot.lean ====
/-
  A row tile of a matrix product.  Cut the rows of an M × K array X into tiles of B rows; the tile that holds row r at its
  local row p is a B × K array T with T(p, k) = X(r, k).  Multiplying the tile by the whole K × N array W gives, at the
  entry (p, c), the sum over k < K of T(p, k) · W(k, c) = X(r, k) · W(k, c): the entry (r, c) of the whole product X · W.
  Nothing but the two sums being the same sum term by term is used, so the statement holds on the extended reals with
  no finiteness assumption.  The tile's product is the kernel's (into a zero accumulator); the whole product is the
  host's.  Each operand of the tile's product may be a copy of the whole array's rows or columns in any float format:
  only the values at the entries the sum visits are compared.
-/
import Idealize.ShloMosaic.PureOps.Ideal.Laws
import Idealize.ShloMosaic.Lib.ValueIdx
import proofs.«142261_j89635967467582_2_alg».proof.Proof.LibPlainDot

noncomputable section

namespace Cert.LibRowTileDot

open Idealize.ShloMosaic Idealize.ShloMosaic.ValueIdx

variable {M B K N : Nat} {φ₁ φ₂ ψ₁ ψ₂ : FTy}
  (Dt : DotDims (⟨2, ![B, K]⟩ : Shape) (⟨2, ![K, N]⟩ : Shape) (⟨2, ![B, N]⟩ : Shape))
  (htrank : Dt.contr.rank = 1) (htsize : Dt.contr.size ⟨0, by omega⟩ = K)
  (htlc : Dt.lhsContracting = [1]) (htrc : Dt.rhsContracting = [0])
  (htL0 : ∀ j k, (Dt.lhsIdx j k 0).val = (j 0).val) (htR1 : ∀ j k, (Dt.rhsIdx j k 1).val = (j 1).val)
  (Dh : DotDims (⟨2, ![M, K]⟩ : Shape) (⟨2, ![K, N]⟩ : Shape) (⟨2, ![M, N]⟩ : Shape))
  (hhrank : Dh.contr.rank = 1) (hhsize : Dh.contr.size ⟨0, by omega⟩ = K)
  (hhlc : Dh.lhsContracting = [1]) (hhrc : Dh.rhsContracting = [0])
  (hhL0 : ∀ j k, (Dh.lhsIdx j k 0).val = (j 0).val) (hhR1 : ∀ j k, (Dh.rhsIdx j k 1).val = (j 1).val)

include htrank htsize htlc htrc htL0 htR1 hhrank hhsize hhlc hhrc hhL0 hhR1 in
/-- Entry (p, c) of the tile's product into a zero accumulator is entry (r, c) of the whole host product, when the
    tile's row p is the whole array's row r and the tile's right operand has the whole right operand's column c. -/
theorem tile_entry (prec prec' : Option ContractPrecision) (sched : HostSchedule)
    (T : FVec Ideal (⟨2, ![B, K]⟩ : Shape) φ₁) (Wt : FVec Ideal (⟨2, ![K, N]⟩ : Shape) φ₂)
    (X : FVec Ideal (⟨2, ![M, K]⟩ : Shape) ψ₁) (W : FVec Ideal (⟨2, ![K, N]⟩ : Shape) ψ₂)
    (p : Fin B) (c : Fin N) (r : Fin M)
    (hT : ∀ k : Fin K, (T (ix2 p k) : EReal) = X (ix2 r k)) (hW : ∀ k : Fin K, (Wt (ix2 k c) : EReal) = W (ix2 k c)) :
    FloatOps.matmul Dt prec T Wt (constant (⟨2, ![B, N]⟩ : Shape) .f32 0x00000000#32) (ix2 p c)
      = FloatOps.dotGeneral Dh prec' sched X W (ix2 r c) := by
  rw [Cert.LibPlainDot.matmul_zero_apply Dt htrank htsize htlc htrc htL0 htR1 prec T Wt p c,
    Cert.LibPlainDot.dotGeneral_apply Dh hhrank hhsize hhlc hhrc hhL0 hhR1 prec' sched X W r c]
  exact Finset.sum_congr rfl fun k _ => by rw [hT k, hW k]

end Cert.LibRowTileDot

end
-- ==== Proof.MatRegion0.lean ====
/-
  The first product of the network, h · W with h of shape [100000, 256] and W of shape [256, 16], as the pipelined kernel
  computes it.  The kernel walks 50 grid points; point t stages rows 2000·t … 2000·t + 1999 of h and the whole of W,
  multiplies the staged row tile by W into a zero accumulator, and writes the [2000, 16] result back to rows
  2000·t … 2000·t + 1999 of the output.  Entry (p, q) of the tile's product is the sum over k of h(2000·t + p, k) · W(k, q),
  which is entry (2000·t + p, q) of the whole product; the 50 row blocks tile the 100000 rows exactly, so after the
  last write-back the output array is the whole product.
-/
import proofs.«142261_j89635967467582_2_alg».proof.Proof.Gen.KernelIdeal.Frame
import proofs.«142261_j89635967467582_2_alg».proof.Proof.Spec
import proofs.«142261_j89635967467582_2_alg».proof.Proof.LibRowTileDot
import Idealize.ShloMosaic.Lib.Pipeline.Value

set_option maxRecDepth 16384

noncomputable section

namespace Cert.KernelSide

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The zero offset of a whole-buffer access. -/
theorem zero_off0 : (![0, 0] : Fin 2 → Nat) = fun _ => 0 := funext fun a => by fin_cases a <;> rfl

/-! ## The tile's product at an entry -/

/-- Entry (p, q) of the product of a [2000, 256] row tile by the [256, 16] weights, into a zero accumulator, is entry
    (r, q) of the whole product when the tile's row p is the array's row r and the staged weights are the weights. -/
theorem tile0_entry (x0 : Vec Ideal S2000x256 .f32) (x1 : Vec Ideal S256x16 .f32)
    (X : FVec Ideal S100000x256 .f32) (W : FVec Ideal S256x16 .f32)
    (p : Fin 2000) (q : Fin 16) (r : Fin 100000)
    (hx0 : ∀ k : Fin 256, x0 (ix2 p k) = X (ix2 r k)) (hx1 : ∀ k : Fin 256, x1 (ix2 k q) = W (ix2 k q)) :
    k0_pay1 x0 x1 (ix2 p q) = Cert.Spec.dot0 (F := Ideal) X W (ix2 r q) := by
  unfold k0_pay1 Cert.Spec.dot0
  refine Cert.LibRowTileDot.tile_entry (M := 100000) (B := 2000) (K := 256) (N := 16)
    dot_S2000x256_S256x16_S2000x16_1_0_0_1_n_n rfl rfl rfl rfl (fun _ _ => rfl) (fun _ _ => rfl)
    Cert.ReferenceIdeal.dot_S100000x256_S256x16_S100000x16_1_0_0_1_n_n rfl rfl rfl rfl (fun _ _ => rfl) (fun _ _ => rfl)
    none none .single _ _ X W p q r (fun k => ?_) (fun k => ?_)
  · show shapeCast S2000x256 x0 shapeCasts_S2000x256_S2000x256 (ix2 p k) = _
    rw [shapeCast_self]; exact hx0 k
  · exact hx1 k

/-! ## Where the blocks sit -/

/-- The printed index maps over the 50 grid points: the left operand's and the output's block at point t is row block t,
    column block 0; the weights' block is always the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row p of the left operand's block at point t is row 2000·t + p of the array. -/
theorem blk0_lhs (c : Dev nD) (t : Fin cfg0.N) (p : Fin 2000) (k : Fin 256) (r : Fin 100000) (hr : r.val = t.val * 2000 + p.val) :
    iblk0 (F := Ideal) V c 0 t (ix2 p k) = V c main_v29 (ix2 r k) := by
  show V c main_v29 (((cfg0.win 0).blk t).view.emb (ix2 p k)) = V c main_v29 (ix2 r k)
  refine congrArg (V c main_v29) ?_
  obtain ⟨e0, e1, e2, e3, e4, e5⟩ := idx0 t
  funext a; apply Fin.ext
  match a with
  | ⟨0, _⟩ => show win0_0.index t (0 : Fin 2) * 2000 + 1 * p.val = r.val; omega
  | ⟨1, _⟩ => show win0_0.index t (1 : Fin 2) * 256 + 1 * k.val = k.val; omega

/-- The weights' block at any point is the whole weight matrix. -/
theorem blk0_rhs (c : Dev nD) (t : Fin cfg0.N) (k : Fin 256) (q : Fin 16) :
    iblk0 (F := Ideal) V c 1 t (ix2 k q) = V c main_arg3 (ix2 k q) := by
  show V c main_arg3 (((cfg0.win 1).blk t).view.emb (ix2 k q)) = V c main_arg3 (ix2 k q)
  refine congrArg (V c main_arg3) ?_
  obtain ⟨e0, e1, e2, e3, e4, e5⟩ := idx0 t
  funext a; apply Fin.ext
  match a with
  | ⟨0, _⟩ => show win0_1.index t (0 : Fin 2) * 256 + 1 * k.val = k.val; omega
  | ⟨1, _⟩ => show win0_1.index t (1 : Fin 2) * 16 + 1 * q.val = q.val; omega

/-- Entry (p, q) of the output's block at point t is entry (2000·t + p, q) of the array. -/
theorem blk0_out (t : Fin cfg0.N) (p : Fin 2000) (q : Fin 16) (r : Fin 100000) (hr : r.val = t.val * 2000 + p.val) :
    ((cfg0.win 2).blk t).view.emb (ix2 p q) = (ix2 r q : S100000x16.Idx) := by
  obtain ⟨e0, e1, e2, e3, e4, e5⟩ := idx0 t
  funext a; apply Fin.ext
  match a with
  | ⟨0, _⟩ => show win0_2.index t (0 : Fin 2) * 2000 + 1 * p.val = r.val; omega
  | ⟨1, _⟩ => show win0_2.index t (1 : Fin 2) * 16 + 1 * q.val = q.val; omega

/-! ## What a point writes back, and the array after the last point -/

/-- What point t writes back is block t of the whole product of the arrays as the region finds them. -/
theorem flushed0 (c : Dev nD) (t : Fin cfg0.N) :
    (dat0 (F := Ideal) V c).flushed 2 t
      = ((cfg0.win 2).blk t).view.read (Elt Ideal) (Cert.Spec.dot0 (F := Ideal) (V c main_v29) (V c main_arg3)) := by
  show (cfg0.win 2).cut (grid0.coords t) ((dat0 V c).after 2 t) = _
  rw [after0_2]
  unfold out0_2
  rw [View.canon_unit_zero zero_off0]
  simp only [View.ld_unit_zero (S := S2000x256) zero_off0, View.ld_unit_zero (S := S256x16) zero_off0]
  funext j
  obtain ⟨p, q, rfl⟩ : ∃ (p : Fin 2000) (q : Fin 16), j = ix2 p q := ⟨j 0, j 1, eq_ix2 j⟩
  have ht : t.val < 50 := Nat.lt_of_lt_of_eq t.isLt N_0
  obtain ⟨r, hr⟩ : ∃ r : Fin 100000, r.val = t.val * 2000 + p.val := ⟨⟨t.val * 2000 + p.val, by have := p.isLt; omega⟩, rfl⟩
  show k0_pay1 (iblk0 V c 0 t) (iblk0 V c 1 t) (ix2 p q)
    = Cert.Spec.dot0 (F := Ideal) (V c main_v29) (V c main_arg3) (((cfg0.win 2).blk t).view.emb (ix2 p q))
  rw [blk0_out t p q r hr]
  exact tile0_entry (iblk0 V c 0 t) (iblk0 V c 1 t) (V c main_v29) (V c main_arg3) p q r
    (fun k => blk0_lhs V c t p k r hr) (fun k => blk0_rhs V c t k q)

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Every index of the output array is in some point's block: row r is in block r / 2000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 2000 :=
    ⟨⟨(i 0).val / 2000, by rw [show cfg0.N = 50 from N_0]; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- After the region's last write-back the output array is the whole product. -/
theorem mat0 (c : Dev nD) :
    (dat0 (F := Ideal) V c).arrAt 2 cfg0.N = Cert.Spec.dot0 (F := Ideal) (V c main_v29) (V c main_arg3) :=
  (dat0 V c).arrAt_eq_of_cover 2 _ (fun t _ => flushed0 V c t) cover0

end Cert.KernelSide

end
-- ==== Proof.MatRegion2.lean ====
/-
  The second product of the network, h · W with h of shape [100000, 16] and W of shape [16, 32], as the pipelined kernel
  computes it.  The kernel walks 50 grid points; point t stages rows 2000·t … 2000·t + 1999 of h and the whole of W,
  multiplies the staged row tile by W into a zero accumulator, and writes the [2000, 32] result back to rows
  2000·t … 2000·t + 1999 of the output.  Entry (p, q) of the tile's product is the sum over k of h(2000·t + p, k) · W(k, q),
  which is entry (2000·t + p, q) of the whole product; the 50 row blocks tile the 100000 rows exactly, so after the
  last write-back the output array is the whole product.
-/
import proofs.«142261_j89635967467582_2_alg».proof.Proof.Gen.KernelIdeal.Frame
import proofs.«142261_j89635967467582_2_alg».proof.Proof.Spec
import proofs.«142261_j89635967467582_2_alg».proof.Proof.LibRowTileDot
import Idealize.ShloMosaic.Lib.Pipeline.Value

set_option maxRecDepth 16384

noncomputable section

namespace Cert.KernelSide

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The zero offset of a whole-buffer access. -/
theorem zero_off2 : (![0, 0] : Fin 2 → Nat) = fun _ => 0 := funext fun a => by fin_cases a <;> rfl

/-! ## The tile's product at an entry -/

/-- Entry (p, q) of the product of a [2000, 16] row tile by the [16, 32] weights, into a zero accumulator, is entry
    (r, q) of the whole product when the tile's row p is the array's row r and the staged weights are the weights. -/
theorem tile2_entry (x0 : Vec Ideal S2000x16 .f32) (x1 : Vec Ideal S16x32 .f32)
    (X : FVec Ideal S100000x16 .f32) (W : FVec Ideal S16x32 .f32)
    (p : Fin 2000) (q : Fin 32) (r : Fin 100000)
    (hx0 : ∀ k : Fin 16, x0 (ix2 p k) = X (ix2 r k)) (hx1 : ∀ k : Fin 16, x1 (ix2 k q) = W (ix2 k q)) :
    k2_pay1 x0 x1 (ix2 p q) = Cert.Spec.dot1 (F := Ideal) X W (ix2 r q) := by
  unfold k2_pay1 Cert.Spec.dot1
  refine Cert.LibRowTileDot.tile_entry (M := 100000) (B := 2000) (K := 16) (N := 32)
    dot_S2000x16_S16x32_S2000x32_1_0_0_1_n_n rfl rfl rfl rfl (fun _ _ => rfl) (fun _ _ => rfl)
    Cert.ReferenceIdeal.dot_S100000x16_S16x32_S100000x32_1_0_0_1_n_n rfl rfl rfl rfl (fun _ _ => rfl) (fun _ _ => rfl)
    none none .single _ _ X W p q r (fun k => ?_) (fun k => ?_)
  · show shapeCast S2000x16 x0 shapeCasts_S2000x16_S2000x16 (ix2 p k) = _
    rw [shapeCast_self]; exact hx0 k
  · exact hx1 k

/-! ## Where the blocks sit -/

/-- The printed index maps over the 50 grid points: the left operand's and the output's block at point t is row block t,
    column block 0; the weights' block is always the whole matrix. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Row p of the left operand's block at point t is row 2000·t + p of the array. -/
theorem blk2_lhs (c : Dev nD) (t : Fin cfg2.N) (p : Fin 2000) (k : Fin 16) (r : Fin 100000) (hr : r.val = t.val * 2000 + p.val) :
    iblk2 (F := Ideal) V c 0 t (ix2 p k) = V c main_v50 (ix2 r k) := by
  show V c main_v50 (((cfg2.win 0).blk t).view.emb (ix2 p k)) = V c main_v50 (ix2 r k)
  refine congrArg (V c main_v50) ?_
  obtain ⟨e0, e1, e2, e3, e4, e5⟩ := idx2 t
  funext a; apply Fin.ext
  match a with
  | ⟨0, _⟩ => show win2_0.index t (0 : Fin 2) * 2000 + 1 * p.val = r.val; omega
  | ⟨1, _⟩ => show win2_0.index t (1 : Fin 2) * 16 + 1 * k.val = k.val; omega

/-- The weights' block at any point is the whole weight matrix. -/
theorem blk2_rhs (c : Dev nD) (t : Fin cfg2.N) (k : Fin 16) (q : Fin 32) :
    iblk2 (F := Ideal) V c 1 t (ix2 k q) = V c main_arg5 (ix2 k q) := by
  show V c main_arg5 (((cfg2.win 1).blk t).view.emb (ix2 k q)) = V c main_arg5 (ix2 k q)
  refine congrArg (V c main_arg5) ?_
  obtain ⟨e0, e1, e2, e3, e4, e5⟩ := idx2 t
  funext a; apply Fin.ext
  match a with
  | ⟨0, _⟩ => show win2_1.index t (0 : Fin 2) * 16 + 1 * k.val = k.val; omega
  | ⟨1, _⟩ => show win2_1.index t (1 : Fin 2) * 32 + 1 * q.val = q.val; omega

/-- Entry (p, q) of the output's block at point t is entry (2000·t + p, q) of the array. -/
theorem blk2_out (t : Fin cfg2.N) (p : Fin 2000) (q : Fin 32) (r : Fin 100000) (hr : r.val = t.val * 2000 + p.val) :
    ((cfg2.win 2).blk t).view.emb (ix2 p q) = (ix2 r q : S100000x32.Idx) := by
  obtain ⟨e0, e1, e2, e3, e4, e5⟩ := idx2 t
  funext a; apply Fin.ext
  match a with
  | ⟨0, _⟩ => show win2_2.index t (0 : Fin 2) * 2000 + 1 * p.val = r.val; omega
  | ⟨1, _⟩ => show win2_2.index t (1 : Fin 2) * 32 + 1 * q.val = q.val; omega

/-! ## What a point writes back, and the array after the last point -/

/-- What point t writes back is block t of the whole product of the arrays as the region finds them. -/
theorem flushed2 (c : Dev nD) (t : Fin cfg2.N) :
    (dat2 (F := Ideal) V c).flushed 2 t
      = ((cfg2.win 2).blk t).view.read (Elt Ideal) (Cert.Spec.dot1 (F := Ideal) (V c main_v50) (V c main_arg5)) := by
  show (cfg2.win 2).cut (grid2.coords t) ((dat2 V c).after 2 t) = _
  rw [after2_2]
  unfold out2_2
  rw [View.canon_unit_zero zero_off2]
  simp only [View.ld_unit_zero (S := S2000x16) zero_off2, View.ld_unit_zero (S := S16x32) zero_off2]
  funext j
  obtain ⟨p, q, rfl⟩ : ∃ (p : Fin 2000) (q : Fin 32), j = ix2 p q := ⟨j 0, j 1, eq_ix2 j⟩
  have ht : t.val < 50 := Nat.lt_of_lt_of_eq t.isLt N_2
  obtain ⟨r, hr⟩ : ∃ r : Fin 100000, r.val = t.val * 2000 + p.val := ⟨⟨t.val * 2000 + p.val, by have := p.isLt; omega⟩, rfl⟩
  show k2_pay1 (iblk2 V c 0 t) (iblk2 V c 1 t) (ix2 p q)
    = Cert.Spec.dot1 (F := Ideal) (V c main_v50) (V c main_arg5) (((cfg2.win 2).blk t).view.emb (ix2 p q))
  rw [blk2_out t p q r hr]
  exact tile2_entry (iblk2 V c 0 t) (iblk2 V c 1 t) (V c main_v50) (V c main_arg5) p q r
    (fun k => blk2_lhs V c t p k r hr) (fun k => blk2_rhs V c t k q)

/-- An index of the output array is in point t's block iff each coordinate is in the block's range on its axis. -/
theorem mem_blk2 (t : Fin cfg2.N) (i : S100000x32.Idx) :
    i ∈ ((cfg2.win 2).blk t).view.set ↔ ∀ a : Fin 2, win2_2.index t a * S2000x32.size a ≤ (i a).val ∧ (i a).val < win2_2.index t a * S2000x32.size a + S2000x32.size a := by
  show i ∈ ((View.whole main_v51).slice (win2_2.rect t)).set ↔ _
  rw [View.set_slice_whole, Rect.mem_set_unit]
  exact Iff.rfl

/-- Every index of the output array is in some point's block: row r is in block r / 2000. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ : ∃ t : Fin cfg2.N, t.val = (i 0).val / 2000 :=
    ⟨⟨(i 0).val / 2000, by rw [show cfg2.N = 50 from N_2]; omega⟩, rfl⟩
  obtain ⟨e0, e1, e2, e3, e4, e5⟩ := idx2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 32 ≤ (i 1).val ∧ (i 1).val < win2_2.index t (1 : Fin 2) * 32 + 32; omega

/-- After the region's last write-back the output array is the whole product. -/
theorem mat2 (c : Dev nD) :
    (dat2 (F := Ideal) V c).arrAt 2 cfg2.N = Cert.Spec.dot1 (F := Ideal) (V c main_v50) (V c main_arg5) :=
  (dat2 V c).arrAt_eq_of_cover 2 _ (fun t _ => flushed2 V c t) cover2

end Cert.KernelSide

end
-- ==== Proof.MatRegion4.lean ====
/-
  The third product of the network, h · W with h of shape [100000, 32] and W of shape [32, 32], as the pipelined kernel
  computes it.  The kernel walks 50 grid points; point t stages rows 2000·t … 2000·t + 1999 of h and the whole of W,
  multiplies the staged row tile by W into a zero accumulator, and writes the [2000, 32] result back to rows
  2000·t … 2000·t + 1999 of the output.  Entry (p, q) of the tile's product is the sum over k of h(2000·t + p, k) · W(k, q),
  which is entry (2000·t + p, q) of the whole product; the 50 row blocks tile the 100000 rows exactly, so after the
  last write-back the output array is the whole product.
-/
import proofs.«142261_j89635967467582_2_alg».proof.Proof.Gen.KernelIdeal.Frame
import proofs.«142261_j89635967467582_2_alg».proof.Proof.Spec
import proofs.«142261_j89635967467582_2_alg».proof.Proof.LibRowTileDot
import Idealize.ShloMosaic.Lib.Pipeline.Value

set_option maxRecDepth 16384

noncomputable section

namespace Cert.KernelSide

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The zero offset of a whole-buffer access. -/
theorem zero_off4 : (![0, 0] : Fin 2 → Nat) = fun _ => 0 := funext fun a => by fin_cases a <;> rfl

/-! ## The tile's product at an entry -/

/-- Entry (p, q) of the product of a [2000, 32] row tile by the [32, 32] weights, into a zero accumulator, is entry
    (r, q) of the whole product when the tile's row p is the array's row r and the staged weights are the weights. -/
theorem tile4_entry (x0 : Vec Ideal S2000x32 .f32) (x1 : Vec Ideal S32x32 .f32)
    (X : FVec Ideal S100000x32 .f32) (W : FVec Ideal S32x32 .f32)
    (p : Fin 2000) (q : Fin 32) (r : Fin 100000)
    (hx0 : ∀ k : Fin 32, x0 (ix2 p k) = X (ix2 r k)) (hx1 : ∀ k : Fin 32, x1 (ix2 k q) = W (ix2 k q)) :
    k4_pay1 x0 x1 (ix2 p q) = Cert.Spec.dot2 (F := Ideal) X W (ix2 r q) := by
  unfold k4_pay1 Cert.Spec.dot2
  refine Cert.LibRowTileDot.tile_entry (M := 100000) (B := 2000) (K := 32) (N := 32)
    dot_S2000x32_S32x32_S2000x32_1_0_0_1_n_n rfl rfl rfl rfl (fun _ _ => rfl) (fun _ _ => rfl)
    Cert.ReferenceIdeal.dot_S100000x32_S32x32_S100000x32_1_0_0_1_n_n rfl rfl rfl rfl (fun _ _ => rfl) (fun _ _ => rfl)
    none none .single _ _ X W p q r (fun k => ?_) (fun k => ?_)
  · show shapeCast S2000x32 x0 shapeCasts_S2000x32_S2000x32 (ix2 p k) = _
    rw [shapeCast_self]; exact hx0 k
  · exact hx1 k

/-! ## Where the blocks sit -/

/-- The printed index maps over the 50 grid points: the left operand's and the output's block at point t is row block t,
    column block 0; the weights' block is always the whole matrix. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- Row p of the left operand's block at point t is row 2000·t + p of the array. -/
theorem blk4_lhs (c : Dev nD) (t : Fin cfg4.N) (p : Fin 2000) (k : Fin 32) (r : Fin 100000) (hr : r.val = t.val * 2000 + p.val) :
    iblk4 (F := Ideal) V c 0 t (ix2 p k) = V c main_v71 (ix2 r k) := by
  show V c main_v71 (((cfg4.win 0).blk t).view.emb (ix2 p k)) = V c main_v71 (ix2 r k)
  refine congrArg (V c main_v71) ?_
  obtain ⟨e0, e1, e2, e3, e4, e5⟩ := idx4 t
  funext a; apply Fin.ext
  match a with
  | ⟨0, _⟩ => show win4_0.index t (0 : Fin 2) * 2000 + 1 * p.val = r.val; omega
  | ⟨1, _⟩ => show win4_0.index t (1 : Fin 2) * 32 + 1 * k.val = k.val; omega

/-- The weights' block at any point is the whole weight matrix. -/
theorem blk4_rhs (c : Dev nD) (t : Fin cfg4.N) (k : Fin 32) (q : Fin 32) :
    iblk4 (F := Ideal) V c 1 t (ix2 k q) = V c main_arg7 (ix2 k q) := by
  show V c main_arg7 (((cfg4.win 1).blk t).view.emb (ix2 k q)) = V c main_arg7 (ix2 k q)
  refine congrArg (V c main_arg7) ?_
  obtain ⟨e0, e1, e2, e3, e4, e5⟩ := idx4 t
  funext a; apply Fin.ext
  match a with
  | ⟨0, _⟩ => show win4_1.index t (0 : Fin 2) * 32 + 1 * k.val = k.val; omega
  | ⟨1, _⟩ => show win4_1.index t (1 : Fin 2) * 32 + 1 * q.val = q.val; omega

/-- Entry (p, q) of the output's block at point t is entry (2000·t + p, q) of the array. -/
theorem blk4_out (t : Fin cfg4.N) (p : Fin 2000) (q : Fin 32) (r : Fin 100000) (hr : r.val = t.val * 2000 + p.val) :
    ((cfg4.win 2).blk t).view.emb (ix2 p q) = (ix2 r q : S100000x32.Idx) := by
  obtain ⟨e0, e1, e2, e3, e4, e5⟩ := idx4 t
  funext a; apply Fin.ext
  match a with
  | ⟨0, _⟩ => show win4_2.index t (0 : Fin 2) * 2000 + 1 * p.val = r.val; omega
  | ⟨1, _⟩ => show win4_2.index t (1 : Fin 2) * 32 + 1 * q.val = q.val; omega

/-! ## What a point writes back, and the array after the last point -/

/-- What point t writes back is block t of the whole product of the arrays as the region finds them. -/
theorem flushed4 (c : Dev nD) (t : Fin cfg4.N) :
    (dat4 (F := Ideal) V c).flushed 2 t
      = ((cfg4.win 2).blk t).view.read (Elt Ideal) (Cert.Spec.dot2 (F := Ideal) (V c main_v71) (V c main_arg7)) := by
  show (cfg4.win 2).cut (grid4.coords t) ((dat4 V c).after 2 t) = _
  rw [after4_2]
  unfold out4_2
  rw [View.canon_unit_zero zero_off4]
  simp only [View.ld_unit_zero (S := S2000x32) zero_off4, View.ld_unit_zero (S := S32x32) zero_off4]
  funext j
  obtain ⟨p, q, rfl⟩ : ∃ (p : Fin 2000) (q : Fin 32), j = ix2 p q := ⟨j 0, j 1, eq_ix2 j⟩
  have ht : t.val < 50 := Nat.lt_of_lt_of_eq t.isLt N_4
  obtain ⟨r, hr⟩ : ∃ r : Fin 100000, r.val = t.val * 2000 + p.val := ⟨⟨t.val * 2000 + p.val, by have := p.isLt; omega⟩, rfl⟩
  show k4_pay1 (iblk4 V c 0 t) (iblk4 V c 1 t) (ix2 p q)
    = Cert.Spec.dot2 (F := Ideal) (V c main_v71) (V c main_arg7) (((cfg4.win 2).blk t).view.emb (ix2 p q))
  rw [blk4_out t p q r hr]
  exact tile4_entry (iblk4 V c 0 t) (iblk4 V c 1 t) (V c main_v71) (V c main_arg7) p q r
    (fun k => blk4_lhs V c t p k r hr) (fun k => blk4_rhs V c t k q)

/-- An index of the output array is in point t's block iff each coordinate is in the block's range on its axis. -/
theorem mem_blk4 (t : Fin cfg4.N) (i : S100000x32.Idx) :
    i ∈ ((cfg4.win 2).blk t).view.set ↔ ∀ a : Fin 2, win4_2.index t a * S2000x32.size a ≤ (i a).val ∧ (i a).val < win4_2.index t a * S2000x32.size a + S2000x32.size a := by
  show i ∈ ((View.whole main_v72).slice (win4_2.rect t)).set ↔ _
  rw [View.set_slice_whole, Rect.mem_set_unit]
  exact Iff.rfl

/-- Every index of the output array is in some point's block: row r is in block r / 2000. -/
theorem cover4 (i : S100000x32.Idx) : ∃ t : Fin cfg4.N, (cfg4.win 2).flush t = true ∧ i ∈ ((cfg4.win 2).blk t).view.set := by
  have hi0 : (i 0).val < 100000 := (i 0).isLt
  have hi1 : (i 1).val < 32 := (i 1).isLt
  obtain ⟨t, ht⟩ : ∃ t : Fin cfg4.N, t.val = (i 0).val / 2000 :=
    ⟨⟨(i 0).val / 2000, by rw [show cfg4.N = 50 from N_4]; omega⟩, rfl⟩
  obtain ⟨e0, e1, e2, e3, e4, e5⟩ := idx4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 32 ≤ (i 1).val ∧ (i 1).val < win4_2.index t (1 : Fin 2) * 32 + 32; omega

/-- After the region's last write-back the output array is the whole product. -/
theorem mat4 (c : Dev nD) :
    (dat4 (F := Ideal) V c).arrAt 2 cfg4.N = Cert.Spec.dot2 (F := Ideal) (V c main_v71) (V c main_arg7) :=
  (dat4 V c).arrAt_eq_of_cover 2 _ (fun t _ => flushed4 V c t) cover4

end Cert.KernelSide

end
-- ==== Proof.MatRegion6.lean ====
/-
  The last product of the network, h · W with h of shape [100000, 32] and W of shape [32, 16], as the pipelined kernel
  computes it.  The kernel walks 50 grid points; point t stages rows 2000·t … 2000·t + 1999 of h and the whole of W,
  multiplies the staged row tile by W into a zero accumulator, and writes the [2000, 16] result back to rows
  2000·t … 2000·t + 1999 of the output.  Entry (p, q) of the tile's product is the sum over k of h(2000·t + p, k) · W(k, q),
  which is entry (2000·t + p, q) of the whole product; the 50 row blocks tile the 100000 rows exactly, so after the
  last write-back the output array is the whole product.
-/
import proofs.«142261_j89635967467582_2_alg».proof.Proof.Gen.KernelIdeal.Frame
import proofs.«142261_j89635967467582_2_alg».proof.Proof.Spec
import proofs.«142261_j89635967467582_2_alg».proof.Proof.LibRowTileDot
import Idealize.ShloMosaic.Lib.Pipeline.Value

set_option maxRecDepth 16384

noncomputable section

namespace Cert.KernelSide

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The zero offset of a whole-buffer access. -/
theorem zero_off6 : (![0, 0] : Fin 2 → Nat) = fun _ => 0 := funext fun a => by fin_cases a <;> rfl

/-! ## The tile's product at an entry -/

/-- Entry (p, q) of the product of a [2000, 32] row tile by the [32, 16] weights, into a zero accumulator, is entry
    (r, q) of the whole product when the tile's row p is the array's row r and the staged weights are the weights. -/
theorem tile6_entry (x0 : Vec Ideal S2000x32 .f32) (x1 : Vec Ideal S32x16 .f32)
    (X : FVec Ideal S100000x32 .f32) (W : FVec Ideal S32x16 .f32)
    (p : Fin 2000) (q : Fin 16) (r : Fin 100000)
    (hx0 : ∀ k : Fin 32, x0 (ix2 p k) = X (ix2 r k)) (hx1 : ∀ k : Fin 32, x1 (ix2 k q) = W (ix2 k q)) :
    k6_pay1 x0 x1 (ix2 p q) = Cert.Spec.dot3 (F := Ideal) X W (ix2 r q) := by
  unfold k6_pay1 Cert.Spec.dot3
  refine Cert.LibRowTileDot.tile_entry (M := 100000) (B := 2000) (K := 32) (N := 16)
    dot_S2000x32_S32x16_S2000x16_1_0_0_1_n_n rfl rfl rfl rfl (fun _ _ => rfl) (fun _ _ => rfl)
    Cert.ReferenceIdeal.dot_S100000x32_S32x16_S100000x16_1_0_0_1_n_n rfl rfl rfl rfl (fun _ _ => rfl) (fun _ _ => rfl)
    none none .single _ _ X W p q r (fun k => ?_) (fun k => ?_)
  · show shapeCast S2000x32 x0 shapeCasts_S2000x32_S2000x32 (ix2 p k) = _
    rw [shapeCast_self]; exact hx0 k
  · exact hx1 k

/-! ## Where the blocks sit -/

/-- The printed index maps over the 50 grid points: the left operand's and the output's block at point t is row block t,
    column block 0; the weights' block is always the whole matrix. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- Row p of the left operand's block at point t is row 2000·t + p of the array. -/
theorem blk6_lhs (c : Dev nD) (t : Fin cfg6.N) (p : Fin 2000) (k : Fin 32) (r : Fin 100000) (hr : r.val = t.val * 2000 + p.val) :
    iblk6 (F := Ideal) V c 0 t (ix2 p k) = V c main_v92 (ix2 r k) := by
  show V c main_v92 (((cfg6.win 0).blk t).view.emb (ix2 p k)) = V c main_v92 (ix2 r k)
  refine congrArg (V c main_v92) ?_
  obtain ⟨e0, e1, e2, e3, e4, e5⟩ := idx6 t
  funext a; apply Fin.ext
  match a with
  | ⟨0, _⟩ => show win6_0.index t (0 : Fin 2) * 2000 + 1 * p.val = r.val; omega
  | ⟨1, _⟩ => show win6_0.index t (1 : Fin 2) * 32 + 1 * k.val = k.val; omega

/-- The weights' block at any point is the whole weight matrix. -/
theorem blk6_rhs (c : Dev nD) (t : Fin cfg6.N) (k : Fin 32) (q : Fin 16) :
    iblk6 (F := Ideal) V c 1 t (ix2 k q) = V c main_arg9 (ix2 k q) := by
  show V c main_arg9 (((cfg6.win 1).blk t).view.emb (ix2 k q)) = V c main_arg9 (ix2 k q)
  refine congrArg (V c main_arg9) ?_
  obtain ⟨e0, e1, e2, e3, e4, e5⟩ := idx6 t
  funext a; apply Fin.ext
  match a with
  | ⟨0, _⟩ => show win6_1.index t (0 : Fin 2) * 32 + 1 * k.val = k.val; omega
  | ⟨1, _⟩ => show win6_1.index t (1 : Fin 2) * 16 + 1 * q.val = q.val; omega

/-- Entry (p, q) of the output's block at point t is entry (2000·t + p, q) of the array. -/
theorem blk6_out (t : Fin cfg6.N) (p : Fin 2000) (q : Fin 16) (r : Fin 100000) (hr : r.val = t.val * 2000 + p.val) :
    ((cfg6.win 2).blk t).view.emb (ix2 p q) = (ix2 r q : S100000x16.Idx) := by
  obtain ⟨e0, e1, e2, e3, e4, e5⟩ := idx6 t
  funext a; apply Fin.ext
  match a with
  | ⟨0, _⟩ => show win6_2.index t (0 : Fin 2) * 2000 + 1 * p.val = r.val; omega
  | ⟨1, _⟩ => show win6_2.index t (1 : Fin 2) * 16 + 1 * q.val = q.val; omega

/-! ## What a point writes back, and the array after the last point -/

/-- What point t writes back is block t of the whole product of the arrays as the region finds them. -/
theorem flushed6 (c : Dev nD) (t : Fin cfg6.N) :
    (dat6 (F := Ideal) V c).flushed 2 t
      = ((cfg6.win 2).blk t).view.read (Elt Ideal) (Cert.Spec.dot3 (F := Ideal) (V c main_v92) (V c main_arg9)) := by
  show (cfg6.win 2).cut (grid6.coords t) ((dat6 V c).after 2 t) = _
  rw [after6_2]
  unfold out6_2
  rw [View.canon_unit_zero zero_off6]
  simp only [View.ld_unit_zero (S := S2000x32) zero_off6, View.ld_unit_zero (S := S32x16) zero_off6]
  funext j
  obtain ⟨p, q, rfl⟩ : ∃ (p : Fin 2000) (q : Fin 16), j = ix2 p q := ⟨j 0, j 1, eq_ix2 j⟩
  have ht : t.val < 50 := Nat.lt_of_lt_of_eq t.isLt N_6
  obtain ⟨r, hr⟩ : ∃ r : Fin 100000, r.val = t.val * 2000 + p.val := ⟨⟨t.val * 2000 + p.val, by have := p.isLt; omega⟩, rfl⟩
  show k6_pay1 (iblk6 V c 0 t) (iblk6 V c 1 t) (ix2 p q)
    = Cert.Spec.dot3 (F := Ideal) (V c main_v92) (V c main_arg9) (((cfg6.win 2).blk t).view.emb (ix2 p q))
  rw [blk6_out t p q r hr]
  exact tile6_entry (iblk6 V c 0 t) (iblk6 V c 1 t) (V c main_v92) (V c main_arg9) p q r
    (fun k => blk6_lhs V c t p k r hr) (fun k => blk6_rhs V c t k q)

/-- An index of the output array is in point t's block iff each coordinate is in the block's range on its axis. -/
theorem mem_blk6 (t : Fin cfg6.N) (i : S100000x16.Idx) :
    i ∈ ((cfg6.win 2).blk t).view.set ↔ ∀ a : Fin 2, win6_2.index t a * S2000x16.size a ≤ (i a).val ∧ (i a).val < win6_2.index t a * S2000x16.size a + S2000x16.size a := by
  show i ∈ ((View.whole main_v93).slice (win6_2.rect t)).set ↔ _
  rw [View.set_slice_whole, Rect.mem_set_unit]
  exact Iff.rfl

/-- Every index of the output array is in some point's block: row r is in block r / 2000. -/
theorem cover6 (i : S100000x16.Idx) : ∃ t : Fin cfg6.N, (cfg6.win 2).flush t = true ∧ i ∈ ((cfg6.win 2).blk t).view.set := by
  have hi0 : (i 0).val < 100000 := (i 0).isLt
  have hi1 : (i 1).val < 16 := (i 1).isLt
  obtain ⟨t, ht⟩ : ∃ t : Fin cfg6.N, t.val = (i 0).val / 2000 :=
    ⟨⟨(i 0).val / 2000, by rw [show cfg6.N = 50 from N_6]; omega⟩, rfl⟩
  obtain ⟨e0, e1, e2, e3, e4, e5⟩ := idx6 t
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 16 ≤ (i 1).val ∧ (i 1).val < win6_2.index t (1 : Fin 2) * 16 + 16; omega

/-- After the region's last write-back the output array is the whole product. -/
theorem mat6 (c : Dev nD) :
    (dat6 (F := Ideal) V c).arrAt 2 cfg6.N = Cert.Spec.dot3 (F := Ideal) (V c main_v92) (V c main_arg9) :=
  (dat6 V c).arrAt_eq_of_cover 2 _ (fun t _ => flushed6 V c t) cover6

end Cert.KernelSide

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.EpiRegions.lean ====
/-
  The three fused epilogues of the graph convolution layers, on the extended reals.

  Each epilogue runs over fifty row blocks of 2000 nodes.  At a block it reads the aggregated messages agg and the
  product xw (2000 rows of H features), the column dinv (2000 rows, one entry each) and the bias row (H features), and
  stores, entry by entry,
      elu (agg + (dinv · dinv) · xw + b),      elu y = y where y > 0, exp y − 1 elsewhere.
  The specification spells the same value with the host's operations: the column and the row are spread over the
  array along both dimensions, and elu is written  y where y > 0, 1 · (exp (0 where y > 0, y elsewhere) − 1) elsewhere.
  Entry by entry the two agree: 1 · z = z, and on the branch that uses it the inner choice is y.  Row p of block t is
  row 2000 · t + p of each array, the bias row is read whole at every block, and the fifty blocks tile the 100000
  rows, so after the last block the output array holds the specification's layer value.  No finiteness is used.
-/
import proofs.«142261_j89635967467582_2_alg».proof.Proof.Gen.KernelIdeal.Frame
import proofs.«142261_j89635967467582_2_alg».proof.Proof.Spec
import proofs.«142261_j89635967467582_2_alg».proof.Proof.LibUnitAxes
import Idealize.ShloMosaic.PureOps.Ideal.Laws
import Idealize.ShloMosaic.Lib.Pipeline.Value
import Idealize.ShloMosaic.Lib.ValueIdx
import Idealize.ShloMosaic.Lib.ValueLayout

noncomputable section

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen

/-! ## The entries of the two spellings -/

/-- The exponential linear unit on the extended reals: the identity above zero, exp − 1 elsewhere. -/
def eluE (y : EReal) : EReal := if 0 < y then y else Ideal.exp y - 1

/-- The word 0x3F800000 is the number one. -/
theorem ofBits_one_f32 : Ideal.ofBits .f32 0x3F800000#32 = 1 := by
  simp [Ideal.ofBits, Ideal.ieee, -EReal.coe_mul]; norm_num

/-- A choice on "y is above the zero word" is a choice on 0 < y. -/
theorem select_ogt_zero (y a b : EReal) :
    Scalar.select (FloatOps.cmpf (F := Ideal) (φ := .f32) .ogt y (Ideal.ofBits .f32 0x00000000#32)) a b = if 0 < y then a else b := by
  rw [Ideal.cmpf_def, Ideal.ofBits_zero_f32]
  unfold Ideal.cmp Scalar.select
  by_cases h : 0 < y <;> simp [h]

/-- The kernel's spelling of elu, entry by entry: where y > 0 take y, elsewhere exp y − 1. -/
theorem elu_vec_at {s : Shape} (y : FVec Ideal s .f32) (i : s.Idx) :
    select (cmpf .ogt y (broadcast s (Scalar.ofBits .f32 0x00000000#32))) y
      (subf (exp y) (broadcast s (Scalar.ofBits .f32 0x3F800000#32))) i = eluE (y i) := by
  show Scalar.select (FloatOps.cmpf .ogt (y i) (Ideal.ofBits .f32 0x00000000#32)) (y i)
    (Ideal.exp (y i) - Ideal.ofBits .f32 0x3F800000#32) = _
  rw [select_ogt_zero, ofBits_one_f32]; rfl

/-- The host's spelling of elu, entry by entry: where y > 0 take y, elsewhere 1 · (exp (y where y > 0 fails, else 0) − 1);
    one times z is z, and the inner choice is y on the branch that uses it. -/
theorem elu_host_at {t : Shape} (h : (⟨0, ![]⟩ : Shape).BroadcastsInDim t ![]) (x : FVec Ideal t .f32) (i : t.Idx) :
    select (cmpf .ogt x (broadcastInDim t ![] h (constant (F := Ideal) ⟨0, ![]⟩ .f32 0x00000000#32))) x
      (mulf (broadcastInDim t ![] h (constant (F := Ideal) ⟨0, ![]⟩ .f32 0x3F800000#32))
        (Host.expm1 (select (cmpf .ogt x (broadcastInDim t ![] h (constant (F := Ideal) ⟨0, ![]⟩ .f32 0x00000000#32)))
          (broadcastInDim t ![] h (constant (F := Ideal) ⟨0, ![]⟩ .f32 0x00000000#32)) x))) i = eluE (x i) := by
  show Scalar.select (FloatOps.cmpf .ogt (x i) (Ideal.ofBits .f32 0x00000000#32)) (x i)
    (Ideal.ofBits .f32 0x3F800000#32 * (Ideal.exp (Scalar.select (FloatOps.cmpf .ogt (x i) (Ideal.ofBits .f32 0x00000000#32))
      (Ideal.ofBits .f32 0x00000000#32) (x i)) - 1)) = _
  rw [select_ogt_zero, select_ogt_zero, ofBits_one_f32, one_mul]
  unfold eluE
  by_cases hp : 0 < x i
  · rw [if_pos hp, if_pos hp]
  · rw [if_neg hp, if_neg hp, if_neg hp]

/-- The kernel's value before the activation at row p, feature q: the column entry of row p squared times xw, added to agg,
    plus the bias row's entry q. -/
theorem pre_vec_at {a b : ℕ} (d : FVec Ideal ⟨2, ![a, 1]⟩ .f32) (agg xw : FVec Ideal ⟨2, ![a, b]⟩ .f32)
    (brow : FVec Ideal ⟨2, ![1, b]⟩ .f32)
    (h1 : (⟨2, ![a, 1]⟩ : Shape).ShapeCasts ⟨2, ![a, 1]⟩) (h2 : (⟨2, ![a, b]⟩ : Shape).ShapeCasts ⟨2, ![a, b]⟩)
    (h3 : (⟨2, ![1, b]⟩ : Shape).ShapeCasts ⟨2, ![1, b]⟩)
    (hb1 : (⟨2, ![a, 1]⟩ : Shape).Broadcasts ⟨2, ![a, b]⟩) (hb2 : (⟨2, ![1, b]⟩ : Shape).Broadcasts ⟨2, ![a, b]⟩)
    (p : Fin a) (q : Fin b) :
    addf (addf (shapeCast ⟨2, ![a, b]⟩ agg h2)
        (mulf (broadcastTo ⟨2, ![a, b]⟩ (mulf (shapeCast ⟨2, ![a, 1]⟩ d h1) (shapeCast ⟨2, ![a, 1]⟩ d h1)) hb1)
          (shapeCast ⟨2, ![a, b]⟩ xw h2)))
      (broadcastTo ⟨2, ![a, b]⟩ (shapeCast ⟨2, ![1, b]⟩ brow h3) hb2) (ix2 p q)
      = agg (ix2 p q) + d (ix2 p (0 : Fin 1)) * d (ix2 p (0 : Fin 1)) * xw (ix2 p q) + brow (ix2 (0 : Fin 1) q) := by
  rw [shapeCast_self agg, shapeCast_self xw, shapeCast_self d, shapeCast_self brow]
  rw [addf_apply, addf_apply, mulf_apply, Cert.LibUnitAxes.broadcastTo_a1_ab_apply, broadcastTo_1b_ab_apply, mulf_apply]

/-- The host's value before the activation at row p, feature q. -/
theorem pre_host_at {a b : ℕ} (A X : FVec Ideal ⟨2, ![a, b]⟩ .f32) (D : FVec Ideal ⟨2, ![a, 1]⟩ .f32)
    (B : FVec Ideal ⟨2, ![1, b]⟩ .f32)
    (h1 : (⟨2, ![a, 1]⟩ : Shape).BroadcastsInDim ⟨2, ![a, b]⟩ ![0, 1])
    (h2 : (⟨2, ![1, b]⟩ : Shape).BroadcastsInDim ⟨2, ![a, b]⟩ ![0, 1]) (p : Fin a) (q : Fin b) :
    addf (addf A (mulf (broadcastInDim ⟨2, ![a, b]⟩ ![0, 1] h1 (mulf D D)) X))
      (broadcastInDim ⟨2, ![a, b]⟩ ![0, 1] h2 B) (ix2 p q)
      = A (ix2 p q) + D (ix2 p (0 : Fin 1)) * D (ix2 p (0 : Fin 1)) * X (ix2 p q) + B (ix2 (0 : Fin 1) q) := by
  rw [addf_apply, addf_apply, mulf_apply, Cert.LibUnitAxes.broadcastInDim_a1_ab_apply,
    Cert.LibUnitAxes.broadcastInDim_1b_ab_apply, mulf_apply]

variable [Cert.ReferenceIdeal.Facts]

/-! ## Region 1: sixteen features -/

/-- The kernel's stored value at row p, feature q of a block. -/
theorem k1_pay1_at (d : Vec Ideal S2000x1 .f32) (agg xw : Vec Ideal S2000x16 .f32) (b : Vec Ideal S1x16 .f32)
    (p : Fin 2000) (q : Fin 16) :
    k1_pay1 d agg xw b (ix2 p q)
      = eluE (agg (ix2 p q) + d (ix2 p (0 : Fin 1)) * d (ix2 p (0 : Fin 1)) * xw (ix2 p q) + b (ix2 (0 : Fin 1) q)) := by
  unfold k1_pay1
  exact (elu_vec_at _ (ix2 p q)).trans (congrArg eluE (pre_vec_at d agg xw b _ _ _ _ _ p q))

/-- The specification's layer value at row r, feature q. -/
theorem spec16_at (A X : FVec Ideal Cert.ReferenceIdeal.S100000x16 .f32) (D : FVec Ideal Cert.ReferenceIdeal.S100000x1 .f32)
    (B : FVec Ideal Cert.ReferenceIdeal.S1x16 .f32) (r : Fin 100000) (q : Fin 16) :
    Cert.Spec.elu16 (F := Ideal) (Cert.Spec.affine16 A X (mulf D D : FVec Ideal Cert.ReferenceIdeal.S100000x1 .f32) B) (ix2 r q)
      = eluE (A (ix2 r q) + D (ix2 r (0 : Fin 1)) * D (ix2 r (0 : Fin 1)) * X (ix2 r q) + B (ix2 (0 : Fin 1) q)) := by
  unfold Cert.Spec.elu16 Cert.Spec.affine16
  exact (elu_host_at _ _ (ix2 r q)).trans (congrArg eluE (pre_host_at A X D B _ _ r q))

/-- One entry of a block: when the four input blocks hold, at (p, q), the arrays' entries of row r, the stored value
    is the specification's entry (r, q). -/
theorem point16 (A X : FVec Ideal Cert.ReferenceIdeal.S100000x16 .f32) (D : FVec Ideal Cert.ReferenceIdeal.S100000x1 .f32)
    (B : FVec Ideal Cert.ReferenceIdeal.S1x16 .f32)
    (x0 x1 : Vec Ideal S2000x16 .f32) (x2 : Vec Ideal S2000x1 .f32) (x3 : Vec Ideal S1x16 .f32)
    (p : Fin 2000) (q : Fin 16) (r : Fin 100000)
    (h0 : x0 (ix2 p q) = A (ix2 r q)) (h1 : x1 (ix2 p q) = X (ix2 r q))
    (h2 : x2 (ix2 p (0 : Fin 1)) = D (ix2 r (0 : Fin 1))) (h3 : x3 (ix2 (0 : Fin 1) q) = B (ix2 (0 : Fin 1) q)) :
    k1_pay1 x2 x0 x1 x3 (ix2 p q)
      = Cert.Spec.elu16 (F := Ideal) (Cert.Spec.affine16 A X (mulf D D : FVec Ideal Cert.ReferenceIdeal.S100000x1 .f32) B) (ix2 r q) := by
  rw [k1_pay1_at, spec16_at, h0, h1, h2, h3]

theorem hz : (![0, 0] : Fin 2 → Nat) = fun _ => 0 := funext fun a => by fin_cases a <;> rfl

/-- The printed index maps, decided over the fifty points: point t's row blocks are block t, the bias row's block is the
    whole row. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b)) (c : Dev nD)

/-- The layer's value as one array of the four arrays the region finds. -/
abbrev G1 : FVec Ideal Cert.ReferenceIdeal.S100000x16 .f32 :=
  Cert.Spec.elu16 (F := Ideal) (Cert.Spec.affine16 (V c main_v44) (V c main_v45)
    (mulf (V c main_v47) (V c main_v47) : FVec Ideal Cert.ReferenceIdeal.S100000x1 .f32) (V c main_v48))

/-- What point t writes back is block t of that array. -/
theorem flushed1 (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S2000x1) hz, View.ld_unit_zero (S := S2000x16) hz, View.ld_unit_zero (S := S1x16) hz]
  funext j
  obtain ⟨p, q, rfl⟩ : ∃ (p : Fin 2000) (q : Fin 16), j = ix2 p q := ⟨j 0, j 1, eq_ix2 j⟩
  obtain ⟨e00, e01, e10, e11, e20, e21, e30, e31, e40, e41⟩ := idx1 t
  have ht : t.val < 50 := lt_of_lt_of_eq t.isLt N_1
  show k1_pay1 (iblk1 V c 2 t) (iblk1 V c 0 t) (iblk1 V c 1 t) (iblk1 V c 3 t) (ix2 p q)
    = G1 V c (((cfg1.win 4).blk t).view.emb (ix2 p q))
  have hr : t.val * 2000 + p.val < 100000 := by have := p.isLt; omega
  have hemb : ((cfg1.win 4).blk t).view.emb (ix2 p q) = ix2 (⟨t.val * 2000 + p.val, hr⟩ : Fin 100000) q := by
    funext a; apply Fin.ext
    match a with
    | ⟨0, _⟩ => show win1_4.index t (0 : Fin 2) * 2000 + 1 * p.val = t.val * 2000 + p.val; omega
    | ⟨1, _⟩ => show win1_4.index t (1 : Fin 2) * 16 + 1 * q.val = q.val; omega
  rw [hemb]
  refine point16 (V c main_v44) (V c main_v45) (V c main_v47) (V c main_v48)
    (iblk1 V c 0 t) (iblk1 V c 1 t) (iblk1 V c 2 t) (iblk1 V c 3 t) p q ⟨t.val * 2000 + p.val, hr⟩ ?_ ?_ ?_ ?_
  · show V c main_v44 (((cfg1.win 0).blk t).view.emb (ix2 p q)) = V c main_v44 (ix2 (⟨t.val * 2000 + p.val, hr⟩ : Fin 100000) q)
    refine congrArg (V c main_v44) (funext fun a => Fin.ext ?_)
    match a with
    | ⟨0, _⟩ => show win1_0.index t (0 : Fin 2) * 2000 + 1 * p.val = t.val * 2000 + p.val; omega
    | ⟨1, _⟩ => show win1_0.index t (1 : Fin 2) * 16 + 1 * q.val = q.val; omega
  · show V c main_v45 (((cfg1.win 1).blk t).view.emb (ix2 p q)) = V c main_v45 (ix2 (⟨t.val * 2000 + p.val, hr⟩ : Fin 100000) q)
    refine congrArg (V c main_v45) (funext fun a => Fin.ext ?_)
    match a with
    | ⟨0, _⟩ => show win1_1.index t (0 : Fin 2) * 2000 + 1 * p.val = t.val * 2000 + p.val; omega
    | ⟨1, _⟩ => show win1_1.index t (1 : Fin 2) * 16 + 1 * q.val = q.val; omega
  · show V c main_v47 (((cfg1.win 2).blk t).view.emb (ix2 p (0 : Fin 1))) = V c main_v47 (ix2 (⟨t.val * 2000 + p.val, hr⟩ : Fin 100000) (0 : Fin 1))
    refine congrArg (V c main_v47) (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  · show V c main_v48 (((cfg1.win 3).blk t).view.emb (ix2 (0 : Fin 1) q)) = V c main_v48 (ix2 (0 : Fin 1) q)
    refine congrArg (V c main_v48) (funext fun a => Fin.ext ?_)
    match a with
    | ⟨0, _⟩ => show win1_3.index t (0 : Fin 2) * 1 + 1 * 0 = 0; omega
    | ⟨1, _⟩ => show win1_3.index t (1 : Fin 2) * 16 + 1 * q.val = q.val; omega

/-- An index of the array is in point t's block iff each coordinate is in the block's range on its axis. -/
theorem mem_blk1 (t : Fin cfg1.N) (i : S100000x16.Idx) :
    i ∈ ((cfg1.win 4).blk t).view.set ↔ ∀ a : Fin 2, win1_4.index t a * S2000x16.size a ≤ (i a).val
      ∧ (i a).val < win1_4.index t a * S2000x16.size a + S2000x16.size a := by
  show i ∈ ((View.whole main_v49).slice (win1_4.rect t)).set ↔ _
  rw [View.set_slice_whole, Rect.mem_set_unit]
  exact Iff.rfl

/-- The fifty row blocks tile the array: row r is in the block of point r / 2000. -/
theorem cover1 (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  have hN : (i 0).val / 2000 < cfg1.N := by rw [show cfg1.N = 50 from N_1]; omega
  refine ⟨⟨(i 0).val / 2000, hN⟩, flush1_4 _, ?_⟩
  obtain ⟨-, -, -, -, -, -, -, -, e40, e41⟩ := idx1 ⟨(i 0).val / 2000, hN⟩
  rw [mem_blk1]
  intro a
  match a with
  | ⟨0, _⟩ =>
    show win1_4.index ⟨(i 0).val / 2000, hN⟩ (0 : Fin 2) * 2000 ≤ (i 0).val
      ∧ (i 0).val < win1_4.index ⟨(i 0).val / 2000, hN⟩ (0 : Fin 2) * 2000 + 2000
    rw [e40]; show (i 0).val / 2000 * 2000 ≤ (i 0).val ∧ (i 0).val < (i 0).val / 2000 * 2000 + 2000; omega
  | ⟨1, _⟩ =>
    show win1_4.index ⟨(i 0).val / 2000, hN⟩ (1 : Fin 2) * 16 ≤ (i 1).val
      ∧ (i 1).val < win1_4.index ⟨(i 0).val / 2000, hN⟩ (1 : Fin 2) * 16 + 16
    rw [e41]; omega

/-- Region 1 leaves the layer's value in its output array. -/
theorem epi1 : (dat1 (F := Ideal) V c).arrAt 4 cfg1.N
    = Cert.Spec.elu16 (F := Ideal) (Cert.Spec.affine16 (V c main_v44) (V c main_v45)
        (mulf (V c main_v47) (V c main_v47) : FVec Ideal Cert.ReferenceIdeal.S100000x1 .f32) (V c main_v48)) :=
  (dat1 (F := Ideal) V c).arrAt_eq_of_cover 4 (G1 V c) (fun t _ => flushed1 V c t) cover1
end

/-! ## Region 3: thirty-two features, second layer -/

/-- The kernel's stored value at row p, feature q of a block. -/
theorem k3_pay1_at (d : Vec Ideal S2000x1 .f32) (agg xw : Vec Ideal S2000x32 .f32) (b : Vec Ideal S1x32 .f32)
    (p : Fin 2000) (q : Fin 32) :
    k3_pay1 d agg xw b (ix2 p q)
      = eluE (agg (ix2 p q) + d (ix2 p (0 : Fin 1)) * d (ix2 p (0 : Fin 1)) * xw (ix2 p q) + b (ix2 (0 : Fin 1) q)) := by
  unfold k3_pay1
  exact (elu_vec_at _ (ix2 p q)).trans (congrArg eluE (pre_vec_at d agg xw b _ _ _ _ _ p q))

/-- The specification's layer value at row r, feature q. -/
theorem spec32_at (A X : FVec Ideal Cert.ReferenceIdeal.S100000x32 .f32) (D : FVec Ideal Cert.ReferenceIdeal.S100000x1 .f32)
    (B : FVec Ideal Cert.ReferenceIdeal.S1x32 .f32) (r : Fin 100000) (q : Fin 32) :
    Cert.Spec.elu32 (F := Ideal) (Cert.Spec.affine32 A X (mulf D D : FVec Ideal Cert.ReferenceIdeal.S100000x1 .f32) B) (ix2 r q)
      = eluE (A (ix2 r q) + D (ix2 r (0 : Fin 1)) * D (ix2 r (0 : Fin 1)) * X (ix2 r q) + B (ix2 (0 : Fin 1) q)) := by
  unfold Cert.Spec.elu32 Cert.Spec.affine32
  exact (elu_host_at _ _ (ix2 r q)).trans (congrArg eluE (pre_host_at A X D B _ _ r q))

/-- One entry of a block: when the four input blocks hold, at (p, q), the arrays' entries of row r, the stored value
    is the specification's entry (r, q). -/
theorem point3 (A X : FVec Ideal Cert.ReferenceIdeal.S100000x32 .f32) (D : FVec Ideal Cert.ReferenceIdeal.S100000x1 .f32)
    (B : FVec Ideal Cert.ReferenceIdeal.S1x32 .f32)
    (x0 x1 : Vec Ideal S2000x32 .f32) (x2 : Vec Ideal S2000x1 .f32) (x3 : Vec Ideal S1x32 .f32)
    (p : Fin 2000) (q : Fin 32) (r : Fin 100000)
    (h0 : x0 (ix2 p q) = A (ix2 r q)) (h1 : x1 (ix2 p q) = X (ix2 r q))
    (h2 : x2 (ix2 p (0 : Fin 1)) = D (ix2 r (0 : Fin 1))) (h3 : x3 (ix2 (0 : Fin 1) q) = B (ix2 (0 : Fin 1) q)) :
    k3_pay1 x2 x0 x1 x3 (ix2 p q)
      = Cert.Spec.elu32 (F := Ideal) (Cert.Spec.affine32 A X (mulf D D : FVec Ideal Cert.ReferenceIdeal.S100000x1 .f32) B) (ix2 r q) := by
  rw [k3_pay1_at, spec32_at, h0, h1, h2, h3]

/-- The printed index maps, decided over the fifty points: point t's row blocks are block t, the bias row's block is the
    whole row. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section
variable (V : (c : Dev nD) → (b : Ref sig .tc) → Buf (Elt Ideal) ((c : Thread nD τ).loc b)) (c : Dev nD)

/-- The layer's value as one array of the four arrays the region finds. -/
abbrev G3 : FVec Ideal Cert.ReferenceIdeal.S100000x32 .f32 :=
  Cert.Spec.elu32 (F := Ideal) (Cert.Spec.affine32 (V c main_v65) (V c main_v66)
    (mulf (V c main_v68) (V c main_v68) : FVec Ideal Cert.ReferenceIdeal.S100000x1 .f32) (V c main_v69))

/-- What point t writes back is block t of that array. -/
theorem flushed3 (t : Fin cfg3.N) :
    (dat3 (F := Ideal) V c).flushed 4 t = ((cfg3.win 4).blk t).view.read (Elt Ideal) (G3 V c) := by
  show (cfg3.win 4).cut (grid3.coords t) ((dat3 V c).after 4 t) = _
  rw [after3_4]
  unfold out3_4
  rw [View.canon_unit_zero hz]
  simp only [View.ld_unit_zero (S := S2000x1) hz, View.ld_unit_zero (S := S2000x32) hz, View.ld_unit_zero (S := S1x32) hz]
  funext j
  obtain ⟨p, q, rfl⟩ : ∃ (p : Fin 2000) (q : Fin 32), j = ix2 p q := ⟨j 0, j 1, eq_ix2 j⟩
  obtain ⟨e00, e01, e10, e11, e20, e21, e30, e31, e40, e41⟩ := idx3 t
  have ht : t.val < 50 := lt_of_lt_of_eq t.isLt N_3
  show k3_pay1 (iblk3 V c 2 t) (iblk3 V c 0 t) (iblk3 V c 1 t) (iblk3 V c 3 t) (ix2 p q)
    = G3 V c (((cfg3.win 4).blk t).view.emb (ix2 p q))
  have hr : t.val * 2000 + p.val < 100000 := by have := p.isLt; omega
  have hemb : ((cfg3.win 4).blk t).view.emb (ix2 p q) = ix2 (⟨t.val * 2000 + p.val, hr⟩ : Fin 100000) q := by
    funext a; apply Fin.ext
    match a with
    | ⟨0, _⟩ => show win3_4.index t (0 : Fin 2) * 2000 + 1 * p.val = t.val * 2000 + p.val; omega
    | ⟨1, _⟩ => show win3_4.index t (1 : Fin 2) * 32 + 1 * q.val = q.val; omega
  rw [hemb]
  refine point3 (V c main_v65) (V c main_v66) (V c main_v68) (V c main_v69)
    (iblk3 V c 0 t) (iblk3 V c 1 t) (iblk3 V c 2 t) (iblk3 V c 3 t) p q ⟨t.val * 2000 + p.val, hr⟩ ?_ ?_ ?_ ?_
  · show V c main_v65 (((cfg3.win 0).blk t).view.emb (ix2 p q)) = V c main_v65 (ix2 (⟨t.val * 2000 + p.val, hr⟩ : Fin 100000) q)
    refine congrArg (V c main_v65) (funext fun a => Fin.ext ?_)
    match a with
    | ⟨0, _⟩ => show win3_0.index t (0 : Fin 2) * 2000 + 1 * p.val = t.val * 2000 + p.val; omega
    | ⟨1, _⟩ => show win3_0.index t (1 : Fin 2) * 32 + 1 * q.val = q.val; omega
  · show V c main_v66 (((cfg3.win 1).blk t).view.emb (ix2 p q)) = V c main_v66 (ix2 (⟨t.val * 2000 + p.val, hr⟩ : Fin 100000) q)
    refine congrArg (V c main_v66) (funext fun a => Fin.ext ?_)
    match a with
    | ⟨0, _⟩ => show win3_1.index t (0 : Fin 2) * 2000 + 1 * p.val = t.val * 2000 + p.val; omega
    | ⟨1, _⟩ => show win3_1.index t (1 : Fin 2) * 32 + 1 * q.val = q.val; omega
  · show V c main_v68 (((cfg3.win 2).blk t).view.emb (ix2 p (0 : Fin 1))) = V c main_v68 (ix2 (⟨t.val * 2000 + p.val, hr⟩ : Fin 100000) (0 : Fin 1))
    refine congrArg (V c main_v68) (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  · show V c main_v69 (((cfg3.win 3).blk t).view.emb (ix2 (0 : Fin 1) q)) = V c main_v69 (ix2 (0 : Fin 1) q)
    refine congrArg (V c main_v69) (funext fun a => Fin.ext ?_)
    match a with
    | ⟨0, _⟩ => show win3_3.index t (0 : Fin 2) * 1 + 1 * 0 = 0; omega
    | ⟨1, _⟩ => show win3_3.index t (1 : Fin 2) * 32 + 1 * q.val = q.val; omega

/-- An index of the array is in point t's block iff each coordinate is in the block's range on its axis. -/
theorem mem_blk3 (t : Fin cfg3.N) (i : S100000x32.Idx) :
    i ∈ ((cfg3.win 4).blk t).view.set ↔ ∀ a : Fin 2, win3_4.index t a * S2000x32.size a ≤ (i a).val
      ∧ (i a).val < win3_4.index t a * S2000x32.size a + S2000x32.size a := by
  show i ∈ ((View.whole main_v70).slice (win3_4.rect t)).set ↔ _
  rw [View.set_slice_whole, Rect.mem_set_unit]
  exact Iff.rfl

/-- The fifty row blocks tile the array: row r is in the block of point r / 2000. -/
theorem cover3 (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  have hN : (i 0).val / 2000 < cfg3.N := by rw [show cfg3.N = 50 from N_3]; omega
  refine ⟨⟨(i 0).val / 2000, hN⟩, flush3_4 _, ?_⟩
  obtain ⟨-, -, -, -, -, -, -, -, e40, e41⟩ := idx3 ⟨(i 0).val / 2000, hN⟩
  rw [mem_blk3]
  intro a
  match a with
  | ⟨0, _⟩ =>
    show win3_4.index ⟨(i 0).val / 2000, hN⟩ (0 : Fin 2) * 2000 ≤ (i 0).val
      ∧ (i 0).val < win3_4.index ⟨(i 0).val / 2000, hN⟩ (0 : Fin 2) * 2000 + 2000
    rw [e40]; show (i 0).val / 2000 * 2000 ≤ (i 0).val ∧ (i 0).val < (i 0).val / 2000 * 2000 + 2000; omega
  | ⟨1, _⟩ =>
    show win3_4.index ⟨(i 0).val / 2000, hN⟩ (1 : Fin 2) * 32 ≤ (i 1).val
      ∧ (i 1).val < win3_4.index ⟨(i 0).val / 2000, hN⟩ (1 : Fin 2) * 32 + 32
    rw [e41]; omega

/-- Region 3 leaves the layer's value in its output array. -/
theorem epi3 : (dat3 (F := Ideal) V c).arrAt 4 cfg3.N
    = Cert.Spec.elu32 (F := Ideal) (Cert.Spec.affine32 (V c main_v65) (V c main_v66)
        (mulf (V c main_v68) (V c main_v68) : FVec Ideal Cert.ReferenceIdeal.S100000x1 .f32) (V c main_v69)) :=
  (dat3 (F := Ideal) V c).arrAt_eq_of_cover 4 (G3 V c) (fun t _ => flushed3 V c t) cover3
end

/-! ## Region 5: thirty-two features, third layer -/

/-- The kernel's stored value at row p, feature q of a block. -/
theorem k5_pay1_at (d : Vec Ideal S2000x1 .f32) (agg xw : Vec Ideal S2000x32 .f32) (b : Vec Ideal S1x32 .f32)
    (p : Fin 2000) (q : Fin 32) :
    k5_pay1 d agg xw b (ix2 p q)
      = eluE (agg (ix2 p q) + d (ix2 p (0 : Fin 1)) * d (ix2 p (0 : Fin 1)) * xw (ix2 p q) + b (ix2 (0 : Fin 1) q)) := by
  unfold k5_pay1
  exact (elu_vec_at _ (ix2 p q)).trans (congrArg eluE (pre_vec_at d agg xw b _ _ _ _ _ p q))

/-- One entry of a block: when the four input blocks hold, at (p, q), the arrays' entries of row r, the stored value
    is the specification's entry (r, q). -/
theorem point5 (A X : FVec Ideal Cert.ReferenceIdeal.S100000x32 .f32) (D : FVec Ideal Cert.ReferenceIdeal.S100000x1 .f32)
    (B : FVec Ideal Cert.ReferenceIdeal.S1x32 .f32)
    (x0 x1 : Vec Ideal S2000x32 .f32) (x2 : Vec Ideal S2000x1 .f32) (x3 : Vec Ideal S1x32 .f32)
    (p : Fin 2000) (q : Fin 32) (r : Fin 100000)
    (h0 : x0 (ix2 p q) = A (ix2 r q)) (h1 : x1 (ix2 p q) = X (ix2 r q))
    (h2 : x2 (ix2 p (0 : Fin 1)) = D (ix2 r (0 : Fin 1))) (h3 : x3 (ix2 (0 : Fin 1) q) = B (ix2 (0 : Fin 1) q)) :
    k5_pay1 x2 x0 x1 x3 (ix2 p q)
      = Cert.Spec.elu32 (F := Ideal) (Cert.Spec.affine32 A X (mulf D D : FVec Ideal Cert.ReferenceIdeal.S100000x1 .f32) B) (ix2 r q) := by
  rw [k5_pay1_at, spec32_at, h0, h1, h2, h3]

/-- The printed index maps, decided over the fifty points: point t's row blocks are block t, the bias row's block is the
    whole row. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

section
variable (V : (c : Dev nD) → (b : Ref sig .tc) → Buf (Elt Ideal) ((c : Thread nD τ).loc b)) (c : Dev nD)

/-- The layer's value as one array of the four arrays the region finds. -/
abbrev G5 : FVec Ideal Cert.ReferenceIdeal.S100000x32 .f32 :=
  Cert.Spec.elu32 (F := Ideal) (Cert.Spec.affine32 (V c main_v86) (V c main_v87)
    (mulf (V c main_v89) (V c main_v89) : FVec Ideal Cert.ReferenceIdeal.S100000x1 .f32) (V c main_v90))

/-- What point t writes back is block t of that array. -/
theorem flushed5 (t : Fin cfg5.N) :
    (dat5 (F := Ideal) V c).flushed 4 t = ((cfg5.win 4).blk t).view.read (Elt Ideal) (G5 V c) := by
  show (cfg5.win 4).cut (grid5.coords t) ((dat5 V c).after 4 t) = _
  rw [after5_4]
  unfold out5_4
  rw [View.canon_unit_zero hz]
  simp only [View.ld_unit_zero (S := S2000x1) hz, View.ld_unit_zero (S := S2000x32) hz, View.ld_unit_zero (S := S1x32) hz]
  funext j
  obtain ⟨p, q, rfl⟩ : ∃ (p : Fin 2000) (q : Fin 32), j = ix2 p q := ⟨j 0, j 1, eq_ix2 j⟩
  obtain ⟨e00, e01, e10, e11, e20, e21, e30, e31, e40, e41⟩ := idx5 t
  have ht : t.val < 50 := lt_of_lt_of_eq t.isLt N_5
  show k5_pay1 (iblk5 V c 2 t) (iblk5 V c 0 t) (iblk5 V c 1 t) (iblk5 V c 3 t) (ix2 p q)
    = G5 V c (((cfg5.win 4).blk t).view.emb (ix2 p q))
  have hr : t.val * 2000 + p.val < 100000 := by have := p.isLt; omega
  have hemb : ((cfg5.win 4).blk t).view.emb (ix2 p q) = ix2 (⟨t.val * 2000 + p.val, hr⟩ : Fin 100000) q := by
    funext a; apply Fin.ext
    match a with
    | ⟨0, _⟩ => show win5_4.index t (0 : Fin 2) * 2000 + 1 * p.val = t.val * 2000 + p.val; omega
    | ⟨1, _⟩ => show win5_4.index t (1 : Fin 2) * 32 + 1 * q.val = q.val; omega
  rw [hemb]
  refine point5 (V c main_v86) (V c main_v87) (V c main_v89) (V c main_v90)
    (iblk5 V c 0 t) (iblk5 V c 1 t) (iblk5 V c 2 t) (iblk5 V c 3 t) p q ⟨t.val * 2000 + p.val, hr⟩ ?_ ?_ ?_ ?_
  · show V c main_v86 (((cfg5.win 0).blk t).view.emb (ix2 p q)) = V c main_v86 (ix2 (⟨t.val * 2000 + p.val, hr⟩ : Fin 100000) q)
    refine congrArg (V c main_v86) (funext fun a => Fin.ext ?_)
    match a with
    | ⟨0, _⟩ => show win5_0.index t (0 : Fin 2) * 2000 + 1 * p.val = t.val * 2000 + p.val; omega
    | ⟨1, _⟩ => show win5_0.index t (1 : Fin 2) * 32 + 1 * q.val = q.val; omega
  · show V c main_v87 (((cfg5.win 1).blk t).view.emb (ix2 p q)) = V c main_v87 (ix2 (⟨t.val * 2000 + p.val, hr⟩ : Fin 100000) q)
    refine congrArg (V c main_v87) (funext fun a => Fin.ext ?_)
    match a with
    | ⟨0, _⟩ => show win5_1.index t (0 : Fin 2) * 2000 + 1 * p.val = t.val * 2000 + p.val; omega
    | ⟨1, _⟩ => show win5_1.index t (1 : Fin 2) * 32 + 1 * q.val = q.val; omega
  · show V c main_v89 (((cfg5.win 2).blk t).view.emb (ix2 p (0 : Fin 1))) = V c main_v89 (ix2 (⟨t.val * 2000 + p.val, hr⟩ : Fin 100000) (0 : Fin 1))
    refine congrArg (V c main_v89) (funext fun a => Fin.ext ?_)
    match a with
    | ⟨0, _⟩ => show win5_2.index t (0 : Fin 2) * 2000 + 1 * p.val = t.val * 2000 + p.val; omega
    | ⟨1, _⟩ => show win5_2.index t (1 : Fin 2) * 1 + 1 * 0 = 0; omega
  · show V c main_v90 (((cfg5.win 3).blk t).view.emb (ix2 (0 : Fin 1) q)) = V c main_v90 (ix2 (0 : Fin 1) q)
    refine congrArg (V c main_v90) (funext fun a => Fin.ext ?_)
    match a with
    | ⟨0, _⟩ => show win5_3.index t (0 : Fin 2) * 1 + 1 * 0 = 0; omega
    | ⟨1, _⟩ => show win5_3.index t (1 : Fin 2) * 32 + 1 * q.val = q.val; omega

/-- An index of the array is in point t's block iff each coordinate is in the block's range on its axis. -/
theorem mem_blk5 (t : Fin cfg5.N) (i : S100000x32.Idx) :
    i ∈ ((cfg5.win 4).blk t).view.set ↔ ∀ a : Fin 2, win5_4.index t a * S2000x32.size a ≤ (i a).val
      ∧ (i a).val < win5_4.index t a * S2000x32.size a + S2000x32.size a := by
  show i ∈ ((View.whole main_v91).slice (win5_4.rect t)).set ↔ _
  rw [View.set_slice_whole, Rect.mem_set_unit]
  exact Iff.rfl

/-- The fifty row blocks tile the array: row r is in the block of point r / 2000. -/
theorem cover5 (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  have hN : (i 0).val / 2000 < cfg5.N := by rw [show cfg5.N = 50 from N_5]; omega
  refine ⟨⟨(i 0).val / 2000, hN⟩, flush5_4 _, ?_⟩
  obtain ⟨-, -, -, -, -, -, -, -, e40, e41⟩ := idx5 ⟨(i 0).val / 2000, hN⟩
  rw [mem_blk5]
  intro a
  match a with
  | ⟨0, _⟩ =>
    show win5_4.index ⟨(i 0).val / 2000, hN⟩ (0 : Fin 2) * 2000 ≤ (i 0).val
      ∧ (i 0).val < win5_4.index ⟨(i 0).val / 2000, hN⟩ (0 : Fin 2) * 2000 + 2000
    rw [e40]; show (i 0).val / 2000 * 2000 ≤ (i 0).val ∧ (i 0).val < (i 0).val / 2000 * 2000 + 2000; omega
  | ⟨1, _⟩ =>
    show win5_4.index ⟨(i 0).val / 2000, hN⟩ (1 : Fin 2) * 32 ≤ (i 1).val
      ∧ (i 1).val < win5_4.index ⟨(i 0).val / 2000, hN⟩ (1 : Fin 2) * 32 + 32
    rw [e41]; omega

/-- Region 5 leaves the layer's value in its output array. -/
theorem epi5 : (dat5 (F := Ideal) V c).arrAt 4 cfg5.N
    = Cert.Spec.elu32 (F := Ideal) (Cert.Spec.affine32 (V c main_v86) (V c main_v87)
        (mulf (V c main_v89) (V c main_v89) : FVec Ideal Cert.ReferenceIdeal.S100000x1 .f32) (V c main_v90)) :=
  (dat5 (F := Ideal) V c).arrAt_eq_of_cover 4 (G5 V c) (fun t _ => flushed5 V c t) cover5
end

end Cert.KernelSide

end
-- ==== Proof.KJoin.lean ====
/-
  The kernel's host code and the specification prepare the epilogue's column and row differently.

  The kernel casts the vector dinv of N entries to a column of shape [N, 1] (row-major, so no entry moves) and squares
  the column; it casts the bias of H entries to a row of shape [1, H].  The specification squares the vector first and
  then spreads it to [N, 1] along dimension 0, and spreads the bias to [1, H] along dimension 1.  Entry by entry these
  agree: the cast to [N, 1] at (p, 0) and the spread along dimension 0 at (p, 0) are both the vector's entry p, the
  square is taken entry by entry, and the cast to [1, H] at (0, q) and the spread along dimension 1 at (0, q) are both
  the bias's entry q.  So the layer's value before the activation, built from the kernel's column and row, is the
  specification's.
-/
import proofs.«142261_j89635967467582_2_alg».proof.Proof.Gen.KernelIdeal
import proofs.«142261_j89635967467582_2_alg».proof.Proof.Spec
import proofs.«142261_j89635967467582_2_alg».proof.Proof.LibUnitAxes

noncomputable section

namespace Cert.KernelSide

open Idealize.ShloMosaic
open Cert.KernelIdeal Cert.KernelIdeal.Gen

variable {F : FTy → Type} [FloatOps F]

/-- The square of a vector cast to a column is the vector's square spread along dimension 0: both read, at (p, 0), the
    vector's entry p times itself. -/
theorem sq_cast_column {a : ℕ} (dv : FVec F ⟨1, ![a]⟩ .f32) (h : (⟨1, ![a]⟩ : Shape).ShapeCasts ⟨2, ![a, 1]⟩)
    (hb : (⟨1, ![a]⟩ : Shape).BroadcastsInDim ⟨2, ![a, 1]⟩ ![0]) :
    (mulf (shapeCast ⟨2, ![a, 1]⟩ dv h) (shapeCast ⟨2, ![a, 1]⟩ dv h) : FVec F ⟨2, ![a, 1]⟩ .f32)
      = broadcastInDim ⟨2, ![a, 1]⟩ ![0] hb (mulf dv dv) := by
  rw [Cert.LibUnitAxes.shapeCast_a_a1_eq_broadcastInDim dv h hb]
  funext j
  rfl

variable [Cert.ReferenceIdeal.Facts]

/-- Sixteen features: the value before the activation from the kernel's column and row is the specification's. -/
theorem join16 (A X : Cert.Spec.Arr F Cert.ReferenceIdeal.S100000x16 .f32) (dv : Cert.Spec.Arr F Cert.ReferenceIdeal.S100000 .f32)
    (b : Cert.Spec.Arr F Cert.ReferenceIdeal.S16 .f32) :
    Cert.Spec.affine16 A X
        (mulf (shapeCast S100000x1 dv shapeCasts_S100000_S100000x1) (shapeCast S100000x1 dv shapeCasts_S100000_S100000x1)
          : FVec F Cert.ReferenceIdeal.S100000x1 .f32)
        (shapeCast S1x16 b shapeCasts_S16_S1x16)
      = Cert.Spec.pre16 A X dv b := by
  unfold Cert.Spec.pre16
  rw [sq_cast_column dv shapeCasts_S100000_S100000x1 Cert.ReferenceIdeal.Facts₀.bcast_S100000_S100000x1_0,
    Cert.LibUnitAxes.shapeCast_a_1a_eq_broadcastInDim b shapeCasts_S16_S1x16 Cert.ReferenceIdeal.Facts₀.bcast_S16_S1x16_1]

/-- Thirty-two features likewise. -/
theorem join32 (A X : Cert.Spec.Arr F Cert.ReferenceIdeal.S100000x32 .f32) (dv : Cert.Spec.Arr F Cert.ReferenceIdeal.S100000 .f32)
    (b : Cert.Spec.Arr F Cert.ReferenceIdeal.S32 .f32) :
    Cert.Spec.affine32 A X
        (mulf (shapeCast S100000x1 dv shapeCasts_S100000_S100000x1) (shapeCast S100000x1 dv shapeCasts_S100000_S100000x1)
          : FVec F Cert.ReferenceIdeal.S100000x1 .f32)
        (shapeCast S1x32 b shapeCasts_S32_S1x32)
      = Cert.Spec.pre32 A X dv b := by
  unfold Cert.Spec.pre32
  rw [sq_cast_column dv shapeCasts_S100000_S100000x1 Cert.ReferenceIdeal.Facts₀.bcast_S100000_S100000x1_0,
    Cert.LibUnitAxes.shapeCast_a_1a_eq_broadcastInDim b shapeCasts_S32_S1x32 Cert.ReferenceIdeal.Facts₀.bcast_S32_S1x32_1]

end Cert.KernelSide

end
-- ==== Proof.KValue.lean ====
/-
  The idealized kernel's result array as the specification's function of the launch arguments.

  The boundary contents are walked once, from the launch to the return: before region 0 the host makes the index rows,
  dinv and the edge normalization; each product region leaves h · W (its row tiles are rows of the whole product);
  the host gathers, scales and sums the messages; each epilogue region leaves elu(agg + dinv² · xw + b), where the
  kernel's reshaped column and row are the reference's broadcasts; a pad by nothing hands the layer on; the last stage
  adds the bias row. What is carried across stages untouched is carried by the lemmas of KCarry.
-/
import proofs.«142261_j89635967467582_2_alg».proof.Proof.KCarry
import proofs.«142261_j89635967467582_2_alg».proof.Proof.KEnds
import proofs.«142261_j89635967467582_2_alg».proof.Proof.KStages
import proofs.«142261_j89635967467582_2_alg».proof.Proof.MatRegion0
import proofs.«142261_j89635967467582_2_alg».proof.Proof.MatRegion2
import proofs.«142261_j89635967467582_2_alg».proof.Proof.MatRegion4
import proofs.«142261_j89635967467582_2_alg».proof.Proof.MatRegion6
import proofs.«142261_j89635967467582_2_alg».proof.Proof.EpiRegions
import proofs.«142261_j89635967467582_2_alg».proof.Proof.KJoin

set_option maxRecDepth 16384

noncomputable section

namespace Cert.KernelSide

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The intermediate values, as the specification names them -/

/-- x · W0. -/
def xw0 : Cert.Spec.Arr Ideal Cert.ReferenceIdeal.S100000x16 .f32 := Cert.Spec.dot0 (F := Ideal) (m ((c : Thread nD τ).loc main_arg0)) (m ((c : Thread nD τ).loc main_arg3))
/-- The first layer's output. -/
def hid1 : Cert.Spec.Arr Ideal Cert.ReferenceIdeal.S100000x16 .f32 :=
  Cert.Spec.layer16 (F := Ideal) (m ((c : Thread nD τ).loc main_arg1)) (m ((c : Thread nD τ).loc main_arg2)) (xw0 m c) (m ((c : Thread nD τ).loc main_arg4))
/-- h1 · W1. -/
def xw1 : Cert.Spec.Arr Ideal Cert.ReferenceIdeal.S100000x32 .f32 := Cert.Spec.dot1 (F := Ideal) (hid1 m c) (m ((c : Thread nD τ).loc main_arg5))
/-- The second layer's output. -/
def hid2 : Cert.Spec.Arr Ideal Cert.ReferenceIdeal.S100000x32 .f32 :=
  Cert.Spec.layer32 (F := Ideal) (m ((c : Thread nD τ).loc main_arg1)) (m ((c : Thread nD τ).loc main_arg2)) (xw1 m c) (m ((c : Thread nD τ).loc main_arg6))
/-- h2 · W2. -/
def xw2 : Cert.Spec.Arr Ideal Cert.ReferenceIdeal.S100000x32 .f32 := Cert.Spec.dot2 (F := Ideal) (hid2 m c) (m ((c : Thread nD τ).loc main_arg7))
/-- The third layer's output. -/
def hid3 : Cert.Spec.Arr Ideal Cert.ReferenceIdeal.S100000x32 .f32 :=
  Cert.Spec.layer32 (F := Ideal) (m ((c : Thread nD τ).loc main_arg1)) (m ((c : Thread nD τ).loc main_arg2)) (xw2 m c) (m ((c : Thread nD τ).loc main_arg8))

/-! ## Region 0's entry -/

/-- An argument no host operation before region 0 writes is, at region 0's entry, as launched. -/
theorem argAt4 (r : Ref sig .tc) (hr : r ∉ wrA) : W4 (F := Ideal) m ρ c (Proc.devRef .tc r) = m ((c : Thread nD τ).loc r) :=
  (keepA m ρ c r hr).trans (W0_eq m ρ c r)

/-! ## Layer 1 -/

theorem e5_v1 : W5 (F := Ideal) m ρ c (Proc.devRef .tc main_v1) = Cert.Spec.src (F := Ideal) (m ((c : Thread nD τ).loc main_arg1)) :=
  (carry5 m ρ c main_v1 (by decide)).trans (A_v1 m ρ c)
theorem e5_v3 : W5 (F := Ideal) m ρ c (Proc.devRef .tc main_v3) = Cert.Spec.dst (F := Ideal) (m ((c : Thread nD τ).loc main_arg1)) :=
  (carry5 m ρ c main_v3 (by decide)).trans (A_v3 m ρ c)
theorem e5_v12 : W5 (F := Ideal) m ρ c (Proc.devRef .tc main_v12)
    = Cert.Spec.dinv (F := Ideal) (Cert.Spec.dst (m ((c : Thread nD τ).loc main_arg1))) (m ((c : Thread nD τ).loc main_arg2)) :=
  (carry5 m ρ c main_v12 (by decide)).trans (A_v12 m ρ c)
theorem e5_v28 : W5 (F := Ideal) m ρ c (Proc.devRef .tc main_v28)
    = Cert.Spec.norm (F := Ideal) (Cert.Spec.src (m ((c : Thread nD τ).loc main_arg1))) (Cert.Spec.dst (m ((c : Thread nD τ).loc main_arg1))) (m ((c : Thread nD τ).loc main_arg2)) :=
  (carry5 m ρ c main_v28 (by decide)).trans (A_v28 m ρ c)
theorem e5_arg4 : W5 (F := Ideal) m ρ c (Proc.devRef .tc main_arg4) = (m ((c : Thread nD τ).loc main_arg4)) :=
  (carry5 m ρ c main_arg4 (by decide)).trans (argAt4 m ρ c main_arg4 (by decide))

/-- Region 0 leaves x · W0. -/
theorem r0 : W5 (F := Ideal) m ρ c (Proc.devRef .tc main_v30) = xw0 m c :=
  (W5_arr m ρ c 2).trans ((mat0 (V4 m ρ) c).trans
    (congr (congrArg (Cert.Spec.dot0 (F := Ideal)) (A_v29 m ρ c)) (argAt4 m ρ c main_arg3 (by decide))))

/-- Region 1 leaves the first layer's output. -/
theorem r1 : W13 (F := Ideal) m ρ c (Proc.devRef .tc main_v49) = hid1 m c := by
  refine (W13_arr m ρ c 4).trans ((epi1 (V12 m ρ) c).trans ?_)
  rw [show V12 m ρ c main_v44 = _ from stageB_v44 m ρ c _ _ _ _ (e5_v1 m ρ c) (e5_v3 m ρ c) (e5_v28 m ρ c) (r0 m ρ c),
    show V12 m ρ c main_v45 = _ from stageB_v45 m ρ c _ (r0 m ρ c),
    show V12 m ρ c main_v47 = _ from stageB_v47 m ρ c _ (e5_v12 m ρ c),
    show V12 m ρ c main_v48 = _ from stageB_v48 m ρ c _ (e5_arg4 m ρ c)]
  unfold hid1 Cert.Spec.layer16
  rw [join16]

/-! ## Layer 2 -/

theorem e15_arg5 : W15 (F := Ideal) m ρ c (Proc.devRef .tc main_arg5) = (m ((c : Thread nD τ).loc main_arg5)) :=
  (carry15 m ρ c main_arg5 (by decide) (by decide) (by decide) (by decide)).trans (argAt4 m ρ c main_arg5 (by decide))

/-- Region 2 leaves h1 · W1. -/
theorem r2 : W16 (F := Ideal) m ρ c (Proc.devRef .tc main_v51) = xw1 m c :=
  (W16_arr m ρ c 2).trans ((mat2 (V15 m ρ) c).trans
    (congr (congrArg (Cert.Spec.dot1 (F := Ideal)) (stageC_v50 m ρ c _ (r1 m ρ c))) (e15_arg5 m ρ c)))

theorem e16_v1 : W16 (F := Ideal) m ρ c (Proc.devRef .tc main_v1) = Cert.Spec.src (F := Ideal) (m ((c : Thread nD τ).loc main_arg1)) :=
  (carry16 m ρ c main_v1 (by decide) (by decide) (by decide) (by decide) (by decide)).trans (A_v1 m ρ c)
theorem e16_v3 : W16 (F := Ideal) m ρ c (Proc.devRef .tc main_v3) = Cert.Spec.dst (F := Ideal) (m ((c : Thread nD τ).loc main_arg1)) :=
  (carry16 m ρ c main_v3 (by decide) (by decide) (by decide) (by decide) (by decide)).trans (A_v3 m ρ c)
theorem e16_v12 : W16 (F := Ideal) m ρ c (Proc.devRef .tc main_v12)
    = Cert.Spec.dinv (F := Ideal) (Cert.Spec.dst (m ((c : Thread nD τ).loc main_arg1))) (m ((c : Thread nD τ).loc main_arg2)) :=
  (carry16 m ρ c main_v12 (by decide) (by decide) (by decide) (by decide) (by decide)).trans (A_v12 m ρ c)
theorem e16_v28 : W16 (F := Ideal) m ρ c (Proc.devRef .tc main_v28)
    = Cert.Spec.norm (F := Ideal) (Cert.Spec.src (m ((c : Thread nD τ).loc main_arg1))) (Cert.Spec.dst (m ((c : Thread nD τ).loc main_arg1))) (m ((c : Thread nD τ).loc main_arg2)) :=
  (carry16 m ρ c main_v28 (by decide) (by decide) (by decide) (by decide) (by decide)).trans (A_v28 m ρ c)
/-- A later argument at region 2's exit is as launched. -/
theorem e16_arg (r : Ref sig .tc) (h0 : ∀ w, Pipeline.arrRef spec0 w ≠ r) (hB : r ∉ wrB)
    (h1 : ∀ w, Pipeline.arrRef spec1 w ≠ r) (hC : r ∉ wrC) (h2 : ∀ w, Pipeline.arrRef spec2 w ≠ r) (hA : r ∉ wrA) :
    W16 (F := Ideal) m ρ c (Proc.devRef .tc r) = m ((c : Thread nD τ).loc r) :=
  (carry16 m ρ c r h0 hB h1 hC h2).trans (argAt4 m ρ c r hA)

/-- Region 3 leaves the second layer's output. -/
theorem r3 : W24 (F := Ideal) m ρ c (Proc.devRef .tc main_v70) = hid2 m c := by
  refine (W24_arr m ρ c 4).trans ((epi3 (V23 m ρ) c).trans ?_)
  rw [show V23 m ρ c main_v65 = _ from stageD_v65 m ρ c _ _ _ _ (e16_v1 m ρ c) (e16_v3 m ρ c) (e16_v28 m ρ c) (r2 m ρ c),
    show V23 m ρ c main_v66 = _ from stageD_v66 m ρ c _ (r2 m ρ c),
    show V23 m ρ c main_v68 = _ from stageD_v68 m ρ c _ (e16_v12 m ρ c),
    show V23 m ρ c main_v69 = _ from stageD_v69 m ρ c _ (e16_arg m ρ c main_arg6 (by decide) (by decide) (by decide) (by decide) (by decide) (by decide))]
  unfold hid2 Cert.Spec.layer32
  rw [join32]

/-! ## Layer 3 -/

theorem e26_arg7 : W26 (F := Ideal) m ρ c (Proc.devRef .tc main_arg7) = (m ((c : Thread nD τ).loc main_arg7)) :=
  (carry26 m ρ c main_arg7 (by decide) (by decide) (by decide)).trans (e16_arg m ρ c main_arg7 (by decide) (by decide) (by decide) (by decide) (by decide) (by decide))

/-- Region 4 leaves h2 · W2. -/
theorem r4 : W27 (F := Ideal) m ρ c (Proc.devRef .tc main_v72) = xw2 m c :=
  (W27_arr m ρ c 2).trans ((mat4 (V26 m ρ) c).trans
    (congr (congrArg (Cert.Spec.dot2 (F := Ideal)) (stageE_v71 m ρ c _ (r3 m ρ c))) (e26_arg7 m ρ c)))

theorem e27_v1 : W27 (F := Ideal) m ρ c (Proc.devRef .tc main_v1) = Cert.Spec.src (F := Ideal) (m ((c : Thread nD τ).loc main_arg1)) :=
  (carry27 m ρ c main_v1 (by decide) (by decide) (by decide) (by decide)).trans (e16_v1 m ρ c)
theorem e27_v3 : W27 (F := Ideal) m ρ c (Proc.devRef .tc main_v3) = Cert.Spec.dst (F := Ideal) (m ((c : Thread nD τ).loc main_arg1)) :=
  (carry27 m ρ c main_v3 (by decide) (by decide) (by decide) (by decide)).trans (e16_v3 m ρ c)
theorem e27_v12 : W27 (F := Ideal) m ρ c (Proc.devRef .tc main_v12)
    = Cert.Spec.dinv (F := Ideal) (Cert.Spec.dst (m ((c : Thread nD τ).loc main_arg1))) (m ((c : Thread nD τ).loc main_arg2)) :=
  (carry27 m ρ c main_v12 (by decide) (by decide) (by decide) (by decide)).trans (e16_v12 m ρ c)
theorem e27_v28 : W27 (F := Ideal) m ρ c (Proc.devRef .tc main_v28)
    = Cert.Spec.norm (F := Ideal) (Cert.Spec.src (m ((c : Thread nD τ).loc main_arg1))) (Cert.Spec.dst (m ((c : Thread nD τ).loc main_arg1))) (m ((c : Thread nD τ).loc main_arg2)) :=
  (carry27 m ρ c main_v28 (by decide) (by decide) (by decide) (by decide)).trans (e16_v28 m ρ c)
/-- A later argument at region 4's exit is as launched. -/
theorem e27_arg (r : Ref sig .tc) (hD : r ∉ wrD) (h3 : ∀ w, Pipeline.arrRef spec3 w ≠ r) (hE : r ∉ wrE)
    (h4 : ∀ w, Pipeline.arrRef spec4 w ≠ r)
    (h0 : ∀ w, Pipeline.arrRef spec0 w ≠ r) (hB : r ∉ wrB)
    (h1 : ∀ w, Pipeline.arrRef spec1 w ≠ r) (hC : r ∉ wrC) (h2 : ∀ w, Pipeline.arrRef spec2 w ≠ r) (hA : r ∉ wrA) :
    W27 (F := Ideal) m ρ c (Proc.devRef .tc r) = m ((c : Thread nD τ).loc r) :=
  (carry27 m ρ c r hD h3 hE h4).trans (e16_arg m ρ c r h0 hB h1 hC h2 hA)

/-- Region 5 leaves the third layer's output. -/
theorem r5 : W35 (F := Ideal) m ρ c (Proc.devRef .tc main_v91) = hid3 m c := by
  refine (W35_arr m ρ c 4).trans ((epi5 (V34 m ρ) c).trans ?_)
  rw [show V34 m ρ c main_v86 = _ from stageF_v86 m ρ c _ _ _ _ (e27_v1 m ρ c) (e27_v3 m ρ c) (e27_v28 m ρ c) (r4 m ρ c),
    show V34 m ρ c main_v87 = _ from stageF_v87 m ρ c _ (r4 m ρ c),
    show V34 m ρ c main_v89 = _ from stageF_v89 m ρ c _ (e27_v12 m ρ c),
    show V34 m ρ c main_v90 = _ from stageF_v90 m ρ c _ (e27_arg m ρ c main_arg8 (by decide) (by decide) (by decide) (by decide) (by decide) (by decide) (by decide) (by decide) (by decide) (by decide))]
  unfold hid3 Cert.Spec.layer32
  rw [join32]

/-! ## The last product and the bias -/

theorem e37_arg9 : W37 (F := Ideal) m ρ c (Proc.devRef .tc main_arg9) = (m ((c : Thread nD τ).loc main_arg9)) :=
  (carry37 m ρ c main_arg9 (by decide) (by decide) (by decide)).trans (e27_arg m ρ c main_arg9 (by decide) (by decide) (by decide) (by decide) (by decide) (by decide) (by decide) (by decide) (by decide) (by decide))

/-- Region 6 leaves h3 · Wm. -/
theorem r6 : W38 (F := Ideal) m ρ c (Proc.devRef .tc main_v93) = Cert.Spec.dot3 (F := Ideal) (hid3 m c) (m ((c : Thread nD τ).loc main_arg9)) :=
  (W38_arr m ρ c 2).trans ((mat6 (V37 m ρ) c).trans
    (congr (congrArg (Cert.Spec.dot3 (F := Ideal)) (stageG_v92 m ρ c _ (r5 m ρ c))) (e37_arg9 m ρ c)))

theorem e38_arg10 : W38 (F := Ideal) m ρ c (Proc.devRef .tc main_arg10) = (m ((c : Thread nD τ).loc main_arg10)) :=
  (carry38 m ρ c main_arg10 (by decide) (by decide) (by decide) (by decide)).trans (e27_arg m ρ c main_arg10 (by decide) (by decide) (by decide) (by decide) (by decide) (by decide) (by decide) (by decide) (by decide) (by decide))

/-- THE RESULT: at the return the result buffer holds the specification's function of the launch arguments. -/
theorem value : W39 (F := Ideal) m ρ c (Proc.devRef .tc main_v96)
    = Cert.Spec.G (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (stageH_v96 m ρ c _ _ _ (r6 m ρ c) (e38_arg10 m ρ c)).trans rfl

end Cert.KernelSide

end
-- ==== Proof.RefOps.lean ====
/-
  The reference's @main as lists of its host operations, cut where the mathematics cuts: the edge table's rows,
  the three graph convolution layers, the last product. A call of an outlined function (jnp.where's, elu)
  is the callee's operations listed in place over the call's own buffers, which is what a call means.
  Besides the lists: every operation touches TensorCore buffers only and determines its result, and the fold of a
  concatenation is the folds in turn.
-/
import proofs.«142261_j89635967467582_2_alg».proof.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The edge table's two rows as vectors: the source and the destination node of every edge (%0 … %3). -/
abbrev pro : List (HloOp τ sig (Elt F)) :=
  [ StableHlo.unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v0 main_v1 rfl shapeCasts_S1x6400000_S6400000,
    StableHlo.unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v2 main_v3 rfl shapeCasts_S1x6400000_S6400000 ]

theorem pro_sub : (pro : List (HloOp τ sig (Elt F))).Forall fun op => op.bufs ⊆ tcRefs τ sig :=
  ⟨unary_bufs_sub .., reshape_bufs_sub .., unary_bufs_sub .., reshape_bufs_sub ..⟩

theorem pro_fresh : (pro : List (HloOp τ sig (Elt F))).Forall fun op => op.fresh = ∅ :=
  ⟨rfl, rfl, rfl, rfl⟩

/-- The first layer (%4 … %51): the product with the first weight matrix, the degrees, their inverse square roots, the edge normalization, the gathered and scaled messages summed into their destinations, the self term, the bias, and elu with the calls it makes listed in place. -/
abbrev lay1 : List (HloOp τ sig (Elt F)) :=
  [ StableHlo.binary main_arg0 main_arg3 main_v4 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    StableHlo.nullary main_cst (constant S_ .f32 0x00000000#32),
    StableHlo.unary main_cst main_v5 (broadcastInDim S100000 ![] bcast_S_S100000 : (⟨S_, .f32⟩ : BufTy).Contents (Elt F) → (⟨S100000, .f32⟩ : BufTy).Contents (Elt F)),
    StableHlo.unary main_v3 main_v6 (broadcastInDim S6400000x1 ![0] bcast_S6400000_S6400000x1_0 : (⟨S6400000, .i32⟩ : BufTy).Contents (Elt F) → (⟨S6400000x1, .i32⟩ : BufTy).Contents (Elt F)),
    StableHlo.ternary main_v5 main_v6 main_arg2 main_v7 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    StableHlo.nullary main_cst_0 (constant S_ .f32 0x3F800000#32),
    StableHlo.unary main_cst_0 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.nullary main_cst_1 (constant S_ .f32 0x00000000#32),
    StableHlo.unary main_cst_1 main_v10 (broadcastInDim S100000 ![] bcast_S_S100000 : (⟨S_, .f32⟩ : BufTy).Contents (Elt F) → (⟨S100000, .f32⟩ : BufTy).Contents (Elt F)),
    StableHlo.binary main_v9 main_v10 main_v11 (cmpf .ogt : (⟨S100000, .f32⟩ : BufTy).Contents (Elt F) → (⟨S100000, .f32⟩ : BufTy).Contents (Elt F) → (⟨S100000, .i1⟩ : BufTy).Contents (Elt F)),
    StableHlo.unary main_v9 main_v12 (Host.rsqrt : (⟨S100000, .f32⟩ : BufTy).Contents (Elt F) → (⟨S100000, .f32⟩ : BufTy).Contents (Elt F)),
    StableHlo.nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v11 : TRef sig ⟨S100000, .i1⟩) (.of main_v12 : TRef sig ⟨S100000, .f32⟩) main_call0.v1 main_call0.v2 select,
    StableHlo.nullary main_c (constantI S_ 32 0#32),
    StableHlo.unary main_c main_v14 (broadcastInDim S6400000 ![] bcast_S_S6400000 : (⟨S_, .i32⟩ : BufTy).Contents (Elt F) → (⟨S6400000, .i32⟩ : BufTy).Contents (Elt F)),
    StableHlo.binary main_v1 main_v14 main_v15 (cmpi .slt : (⟨S6400000, .i32⟩ : BufTy).Contents (Elt F) → (⟨S6400000, .i32⟩ : BufTy).Contents (Elt F) → (⟨S6400000, .i1⟩ : BufTy).Contents (Elt F)),
    StableHlo.nullary main_c_3 (constantI S_ 32 100000#32),
    StableHlo.unary main_c_3 main_v16 (broadcastInDim S6400000 ![] bcast_S_S6400000 : (⟨S_, .i32⟩ : BufTy).Contents (Elt F) → (⟨S6400000, .i32⟩ : BufTy).Contents (Elt F)),
    StableHlo.binary main_v1 main_v16 main_v17 (addi : (⟨S6400000, .i32⟩ : BufTy).Contents (Elt F) → (⟨S6400000, .i32⟩ : BufTy).Contents (Elt F) → (⟨S6400000, .i32⟩ : BufTy).Contents (Elt F)),
    StableHlo.ternary main_v15 main_v17 main_v1 main_v18 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v18 main_v19 (broadcastInDim S6400000x1 ![0] bcast_S6400000_S6400000x1_0 : (⟨S6400000, .i32⟩ : BufTy).Contents (Elt F) → (⟨S6400000x1, .i32⟩ : BufTy).Contents (Elt F)),
    StableHlo.binary main_v13 main_v19 main_v20 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v20 main_arg2 main_v21 (mulf : (⟨S6400000, .f32⟩ : BufTy).Contents (Elt F) → (⟨S6400000, .f32⟩ : BufTy).Contents (Elt F) → (⟨S6400000, .f32⟩ : BufTy).Contents (Elt F)),
    StableHlo.nullary main_c_4 (constantI S_ 32 0#32),
    StableHlo.unary main_c_4 main_v22 (broadcastInDim S6400000 ![] bcast_S_S6400000 : (⟨S_, .i32⟩ : BufTy).Contents (Elt F) → (⟨S6400000, .i32⟩ : BufTy).Contents (Elt F)),
    StableHlo.binary main_v3 main_v22 main_v23 (cmpi .slt : (⟨S6400000, .i32⟩ : BufTy).Contents (Elt F) → (⟨S6400000, .i32⟩ : BufTy).Contents (Elt F) → (⟨S6400000, .i1⟩ : BufTy).Contents (Elt F)),
    StableHlo.nullary main_c_5 (constantI S_ 32 100000#32),
    StableHlo.unary main_c_5 main_v24 (broadcastInDim S6400000 ![] bcast_S_S6400000 : (⟨S_, .i32⟩ : BufTy).Contents (Elt F) → (⟨S6400000, .i32⟩ : BufTy).Contents (Elt F)),
    StableHlo.binary main_v3 main_v24 main_v25 (addi : (⟨S6400000, .i32⟩ : BufTy).Contents (Elt F) → (⟨S6400000, .i32⟩ : BufTy).Contents (Elt F) → (⟨S6400000, .i32⟩ : BufTy).Contents (Elt F)),
    StableHlo.ternary main_v23 main_v25 main_v3 main_v26 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v26 main_v27 (broadcastInDim S6400000x1 ![0] bcast_S6400000_S6400000x1_0 : (⟨S6400000, .i32⟩ : BufTy).Contents (Elt F) → (⟨S6400000x1, .i32⟩ : BufTy).Contents (Elt F)),
    StableHlo.binary main_v13 main_v27 main_v28 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v21 main_v28 main_v29 (mulf : (⟨S6400000, .f32⟩ : BufTy).Contents (Elt F) → (⟨S6400000, .f32⟩ : BufTy).Contents (Elt F) → (⟨S6400000, .f32⟩ : BufTy).Contents (Elt F)),
    StableHlo.unary main_v29 main_v30 (broadcastInDim S6400000x1 ![0] bcast_S6400000_S6400000x1_0 : (⟨S6400000, .f32⟩ : BufTy).Contents (Elt F) → (⟨S6400000x1, .f32⟩ : BufTy).Contents (Elt F)),
    StableHlo.nullary main_c_6 (constantI S_ 32 0#32),
    StableHlo.unary main_c_6 main_v31 (broadcastInDim S6400000 ![] bcast_S_S6400000 : (⟨S_, .i32⟩ : BufTy).Contents (Elt F) → (⟨S6400000, .i32⟩ : BufTy).Contents (Elt F)),
    StableHlo.binary main_v1 main_v31 main_v32 (cmpi .slt : (⟨S6400000, .i32⟩ : BufTy).Contents (Elt F) → (⟨S6400000, .i32⟩ : BufTy).Contents (Elt F) → (⟨S6400000, .i1⟩ : BufTy).Contents (Elt F)),
    StableHlo.nullary main_c_7 (constantI S_ 32 100000#32),
    StableHlo.unary main_c_7 main_v33 (broadcastInDim S6400000 ![] bcast_S_S6400000 : (⟨S_, .i32⟩ : BufTy).Contents (Elt F) → (⟨S6400000, .i32⟩ : BufTy).Contents (Elt F)),
    StableHlo.binary main_v1 main_v33 main_v34 (addi : (⟨S6400000, .i32⟩ : BufTy).Contents (Elt F) → (⟨S6400000, .i32⟩ : BufTy).Contents (Elt F) → (⟨S6400000, .i32⟩ : BufTy).Contents (Elt F)),
    StableHlo.ternary main_v32 main_v34 main_v1 main_v35 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v35 main_v36 (broadcastInDim S6400000x1 ![0] bcast_S6400000_S6400000x1_0 : (⟨S6400000, .i32⟩ : BufTy).Contents (Elt F) → (⟨S6400000x1, .i32⟩ : BufTy).Contents (Elt F)),
    StableHlo.binary main_v4 main_v36 main_v37 ((fun x i => Host.gather gather_S100000x16_S6400000x1_S6400000x16_1_0_n_n_0_1_116 x i) : (⟨S100000x16, .f32⟩ : BufTy).Contents (Elt F) → (⟨S6400000x1, .i32⟩ : BufTy).Contents (Elt F) → (⟨S6400000x16, .f32⟩ : BufTy).Contents (Elt F)),
    StableHlo.unary main_v30 main_v38 (broadcastInDim S6400000x16 ![0, 1] bcast_S6400000x1_S6400000x16_0_1 : (⟨S6400000x1, .f32⟩ : BufTy).Contents (Elt F) → (⟨S6400000x16, .f32⟩ : BufTy).Contents (Elt F)),
    StableHlo.binary main_v38 main_v37 main_v39 (mulf : (⟨S6400000x16, .f32⟩ : BufTy).Contents (Elt F) → (⟨S6400000x16, .f32⟩ : BufTy).Contents (Elt F) → (⟨S6400000x16, .f32⟩ : BufTy).Contents (Elt F)),
    StableHlo.nullary main_cst_8 (constant S_ .f32 0x00000000#32),
    StableHlo.unary main_cst_8 main_v40 (broadcastInDim S100000x16 ![] bcast_S_S100000x16 : (⟨S_, .f32⟩ : BufTy).Contents (Elt F) → (⟨S100000x16, .f32⟩ : BufTy).Contents (Elt F)),
    StableHlo.unary main_v3 main_v41 (broadcastInDim S6400000x1 ![0] bcast_S6400000_S6400000x1_0 : (⟨S6400000, .i32⟩ : BufTy).Contents (Elt F) → (⟨S6400000x1, .i32⟩ : BufTy).Contents (Elt F)),
    StableHlo.ternary main_v40 main_v41 main_v39 main_v42 ((fun x i u => Host.scatterAdd scatter_S100000x16_S6400000x1_S6400000x16_1_0_0_1 x i u) : (⟨S100000x16, .f32⟩ : BufTy).Contents (Elt F) → (⟨S6400000x1, .i32⟩ : BufTy).Contents (Elt F) → (⟨S6400000x16, .f32⟩ : BufTy).Contents (Elt F) → (⟨S100000x16, .f32⟩ : BufTy).Contents (Elt F)),
    StableHlo.binary main_v13 main_v13 main_v43 (mulf : (⟨S100000, .f32⟩ : BufTy).Contents (Elt F) → (⟨S100000, .f32⟩ : BufTy).Contents (Elt F) → (⟨S100000, .f32⟩ : BufTy).Contents (Elt F)),
    StableHlo.unary main_v43 main_v44 (broadcastInDim S100000x1 ![0] bcast_S100000_S100000x1_0 : (⟨S100000, .f32⟩ : BufTy).Contents (Elt F) → (⟨S100000x1, .f32⟩ : BufTy).Contents (Elt F)),
    StableHlo.unary main_v44 main_v45 (broadcastInDim S100000x16 ![0, 1] bcast_S100000x1_S100000x16_0_1 : (⟨S100000x1, .f32⟩ : BufTy).Contents (Elt F) → (⟨S100000x16, .f32⟩ : BufTy).Contents (Elt F)),
    StableHlo.binary main_v45 main_v4 main_v46 (mulf : (⟨S100000x16, .f32⟩ : BufTy).Contents (Elt F) → (⟨S100000x16, .f32⟩ : BufTy).Contents (Elt F) → (⟨S100000x16, .f32⟩ : BufTy).Contents (Elt F)),
    StableHlo.binary main_v42 main_v46 main_v47 (addf : (⟨S100000x16, .f32⟩ : BufTy).Contents (Elt F) → (⟨S100000x16, .f32⟩ : BufTy).Contents (Elt F) → (⟨S100000x16, .f32⟩ : BufTy).Contents (Elt F)),
    StableHlo.unary main_arg4 main_v48 (broadcastInDim S1x16 ![1] bcast_S16_S1x16_1 : (⟨S16, .f32⟩ : BufTy).Contents (Elt F) → (⟨S1x16, .f32⟩ : BufTy).Contents (Elt F)),
    StableHlo.unary main_v48 main_v49 (broadcastInDim S100000x16 ![0, 1] bcast_S1x16_S100000x16_0_1 : (⟨S1x16, .f32⟩ : BufTy).Contents (Elt F) → (⟨S100000x16, .f32⟩ : BufTy).Contents (Elt F)),
    StableHlo.binary main_v47 main_v49 main_v50 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x00000000#32),
    TRef.unary main_call1.cst main_call1.v0 (broadcastInDim S100000x16 ![] bcast_S_S100000x16),
    TRef.binary (.of main_v50 : TRef sig ⟨S100000x16, .f32⟩) main_call1.v0 main_call1.v1 (cmpf .ogt),
    TRef.nullary main_call1.cst_0 (constant S_ .f32 0x00000000#32),
    TRef.unary main_call1.cst_0 main_call1.v2 (broadcastInDim S100000x16 ![] bcast_S_S100000x16),
    TRef.binary (.of main_v50 : TRef sig ⟨S100000x16, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x16 ![] bcast_S_S100000x16),
    TRef.ternary main_call1.v3 main_call1.call0.v1 (.of main_v50 : TRef sig ⟨S100000x16, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x16 ![] bcast_S_S100000x16),
    TRef.binary main_call1.v6 main_call1.v5 main_call1.v7 mulf,
    TRef.ternary main_call1.v1 (.of main_v50 : TRef sig ⟨S100000x16, .f32⟩) main_call1.v7 main_call1.call1.v0 select ]

theorem lay1_sub : (lay1 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem lay1_fresh : (lay1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The second layer (%52 … %99), the same operations at thirty-two features. -/
abbrev lay2 : List (HloOp τ sig (Elt F)) :=
  [ StableHlo.binary main_v51 main_arg5 main_v52 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.nullary main_cst_9 (constant S_ .f32 0x00000000#32),
    StableHlo.unary main_cst_9 main_v53 (broadcastInDim S100000 ![] bcast_S_S100000 : (⟨S_, .f32⟩ : BufTy).Contents (Elt F) → (⟨S100000, .f32⟩ : BufTy).Contents (Elt F)),
    StableHlo.unary main_v3 main_v54 (broadcastInDim S6400000x1 ![0] bcast_S6400000_S6400000x1_0 : (⟨S6400000, .i32⟩ : BufTy).Contents (Elt F) → (⟨S6400000x1, .i32⟩ : BufTy).Contents (Elt F)),
    StableHlo.ternary main_v53 main_v54 main_arg2 main_v55 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    StableHlo.nullary main_cst_10 (constant S_ .f32 0x3F800000#32),
    StableHlo.unary main_cst_10 main_v56 (broadcastInDim S100000 ![] bcast_S_S100000 : (⟨S_, .f32⟩ : BufTy).Contents (Elt F) → (⟨S100000, .f32⟩ : BufTy).Contents (Elt F)),
    StableHlo.binary main_v55 main_v56 main_v57 (addf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x00000000#32),
    StableHlo.unary main_cst_11 main_v58 (broadcastInDim S100000 ![] bcast_S_S100000 : (⟨S_, .f32⟩ : BufTy).Contents (Elt F) → (⟨S100000, .f32⟩ : BufTy).Contents (Elt F)),
    StableHlo.binary main_v57 main_v58 main_v59 (cmpf .ogt : (⟨S100000, .f32⟩ : BufTy).Contents (Elt F) → (⟨S100000, .f32⟩ : BufTy).Contents (Elt F) → (⟨S100000, .i1⟩ : BufTy).Contents (Elt F)),
    StableHlo.unary main_v57 main_v60 (Host.rsqrt : (⟨S100000, .f32⟩ : BufTy).Contents (Elt F) → (⟨S100000, .f32⟩ : BufTy).Contents (Elt F)),
    StableHlo.nullary main_cst_12 (constant S_ .f32 0x00000000#32),
    TRef.unary (.of main_cst_12 : TRef sig ⟨S_, .f32⟩) main_call2.v0 id,
    TRef.unary main_call2.v0 main_call2.v1 (broadcastInDim S100000 ![] bcast_S_S100000),
    TRef.ternary (.of main_v59 : TRef sig ⟨S100000, .i1⟩) (.of main_v60 : TRef sig ⟨S100000, .f32⟩) main_call2.v1 main_call2.v2 select,
    StableHlo.nullary main_c_13 (constantI S_ 32 0#32),
    StableHlo.unary main_c_13 main_v62 (broadcastInDim S6400000 ![] bcast_S_S6400000 : (⟨S_, .i32⟩ : BufTy).Contents (Elt F) → (⟨S6400000, .i32⟩ : BufTy).Contents (Elt F)),
    StableHlo.binary main_v1 main_v62 main_v63 (cmpi .slt : (⟨S6400000, .i32⟩ : BufTy).Contents (Elt F) → (⟨S6400000, .i32⟩ : BufTy).Contents (Elt F) → (⟨S6400000, .i1⟩ : BufTy).Contents (Elt F)),
    StableHlo.nullary main_c_14 (constantI S_ 32 100000#32),
    StableHlo.unary main_c_14 main_v64 (broadcastInDim S6400000 ![] bcast_S_S6400000 : (⟨S_, .i32⟩ : BufTy).Contents (Elt F) → (⟨S6400000, .i32⟩ : BufTy).Contents (Elt F)),
    StableHlo.binary main_v1 main_v64 main_v65 (addi : (⟨S6400000, .i32⟩ : BufTy).Contents (Elt F) → (⟨S6400000, .i32⟩ : BufTy).Contents (Elt F) → (⟨S6400000, .i32⟩ : BufTy).Contents (Elt F)),
    StableHlo.ternary main_v63 main_v65 main_v1 main_v66 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v66 main_v67 (broadcastInDim S6400000x1 ![0] bcast_S6400000_S6400000x1_0 : (⟨S6400000, .i32⟩ : BufTy).Contents (Elt F) → (⟨S6400000x1, .i32⟩ : BufTy).Contents (Elt F)),
    StableHlo.binary main_v61 main_v67 main_v68 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v68 main_arg2 main_v69 (mulf : (⟨S6400000, .f32⟩ : BufTy).Contents (Elt F) → (⟨S6400000, .f32⟩ : BufTy).Contents (Elt F) → (⟨S6400000, .f32⟩ : BufTy).Contents (Elt F)),
    StableHlo.nullary main_c_15 (constantI S_ 32 0#32),
    StableHlo.unary main_c_15 main_v70 (broadcastInDim S6400000 ![] bcast_S_S6400000 : (⟨S_, .i32⟩ : BufTy).Contents (Elt F) → (⟨S6400000, .i32⟩ : BufTy).Contents (Elt F)),
    StableHlo.binary main_v3 main_v70 main_v71 (cmpi .slt : (⟨S6400000, .i32⟩ : BufTy).Contents (Elt F) → (⟨S6400000, .i32⟩ : BufTy).Contents (Elt F) → (⟨S6400000, .i1⟩ : BufTy).Contents (Elt F)),
    StableHlo.nullary main_c_16 (constantI S_ 32 100000#32),
    StableHlo.unary main_c_16 main_v72 (broadcastInDim S6400000 ![] bcast_S_S6400000 : (⟨S_, .i32⟩ : BufTy).Contents (Elt F) → (⟨S6400000, .i32⟩ : BufTy).Contents (Elt F)),
    StableHlo.binary main_v3 main_v72 main_v73 (addi : (⟨S6400000, .i32⟩ : BufTy).Contents (Elt F) → (⟨S6400000, .i32⟩ : BufTy).Contents (Elt F) → (⟨S6400000, .i32⟩ : BufTy).Contents (Elt F)),
    StableHlo.ternary main_v71 main_v73 main_v3 main_v74 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v74 main_v75 (broadcastInDim S6400000x1 ![0] bcast_S6400000_S6400000x1_0 : (⟨S6400000, .i32⟩ : BufTy).Contents (Elt F) → (⟨S6400000x1, .i32⟩ : BufTy).Contents (Elt F)),
    StableHlo.binary main_v61 main_v75 main_v76 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v69 main_v76 main_v77 (mulf : (⟨S6400000, .f32⟩ : BufTy).Contents (Elt F) → (⟨S6400000, .f32⟩ : BufTy).Contents (Elt F) → (⟨S6400000, .f32⟩ : BufTy).Contents (Elt F)),
    StableHlo.unary main_v77 main_v78 (broadcastInDim S6400000x1 ![0] bcast_S6400000_S6400000x1_0 : (⟨S6400000, .f32⟩ : BufTy).Contents (Elt F) → (⟨S6400000x1, .f32⟩ : BufTy).Contents (Elt F)),
    StableHlo.nullary main_c_17 (constantI S_ 32 0#32),
    StableHlo.unary main_c_17 main_v79 (broadcastInDim S6400000 ![] bcast_S_S6400000 : (⟨S_, .i32⟩ : BufTy).Contents (Elt F) → (⟨S6400000, .i32⟩ : BufTy).Contents (Elt F)),
    StableHlo.binary main_v1 main_v79 main_v80 (cmpi .slt : (⟨S6400000, .i32⟩ : BufTy).Contents (Elt F) → (⟨S6400000, .i32⟩ : BufTy).Contents (Elt F) → (⟨S6400000, .i1⟩ : BufTy).Contents (Elt F)),
    StableHlo.nullary main_c_18 (constantI S_ 32 100000#32),
    StableHlo.unary main_c_18 main_v81 (broadcastInDim S6400000 ![] bcast_S_S6400000 : (⟨S_, .i32⟩ : BufTy).Contents (Elt F) → (⟨S6400000, .i32⟩ : BufTy).Contents (Elt F)),
    StableHlo.binary main_v1 main_v81 main_v82 (addi : (⟨S6400000, .i32⟩ : BufTy).Contents (Elt F) → (⟨S6400000, .i32⟩ : BufTy).Contents (Elt F) → (⟨S6400000, .i32⟩ : BufTy).Contents (Elt F)),
    StableHlo.ternary main_v80 main_v82 main_v1 main_v83 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v83 main_v84 (broadcastInDim S6400000x1 ![0] bcast_S6400000_S6400000x1_0 : (⟨S6400000, .i32⟩ : BufTy).Contents (Elt F) → (⟨S6400000x1, .i32⟩ : BufTy).Contents (Elt F)),
    StableHlo.binary main_v52 main_v84 main_v85 ((fun x i => Host.gather gather_S100000x32_S6400000x1_S6400000x32_1_0_n_n_0_1_132 x i) : (⟨S100000x32, .f32⟩ : BufTy).Contents (Elt F) → (⟨S6400000x1, .i32⟩ : BufTy).Contents (Elt F) → (⟨S6400000x32, .f32⟩ : BufTy).Contents (Elt F)),
    StableHlo.unary main_v78 main_v86 (broadcastInDim S6400000x32 ![0, 1] bcast_S6400000x1_S6400000x32_0_1 : (⟨S6400000x1, .f32⟩ : BufTy).Contents (Elt F) → (⟨S6400000x32, .f32⟩ : BufTy).Contents (Elt F)),
    StableHlo.binary main_v86 main_v85 main_v87 (mulf : (⟨S6400000x32, .f32⟩ : BufTy).Contents (Elt F) → (⟨S6400000x32, .f32⟩ : BufTy).Contents (Elt F) → (⟨S6400000x32, .f32⟩ : BufTy).Contents (Elt F)),
    StableHlo.nullary main_cst_19 (constant S_ .f32 0x00000000#32),
    StableHlo.unary main_cst_19 main_v88 (broadcastInDim S100000x32 ![] bcast_S_S100000x32 : (⟨S_, .f32⟩ : BufTy).Contents (Elt F) → (⟨S100000x32, .f32⟩ : BufTy).Contents (Elt F)),
    StableHlo.unary main_v3 main_v89 (broadcastInDim S6400000x1 ![0] bcast_S6400000_S6400000x1_0 : (⟨S6400000, .i32⟩ : BufTy).Contents (Elt F) → (⟨S6400000x1, .i32⟩ : BufTy).Contents (Elt F)),
    StableHlo.ternary main_v88 main_v89 main_v87 main_v90 ((fun x i u => Host.scatterAdd scatter_S100000x32_S6400000x1_S6400000x32_1_0_0_1 x i u) : (⟨S100000x32, .f32⟩ : BufTy).Contents (Elt F) → (⟨S6400000x1, .i32⟩ : BufTy).Contents (Elt F) → (⟨S6400000x32, .f32⟩ : BufTy).Contents (Elt F) → (⟨S100000x32, .f32⟩ : BufTy).Contents (Elt F)),
    StableHlo.binary main_v61 main_v61 main_v91 (mulf : (⟨S100000, .f32⟩ : BufTy).Contents (Elt F) → (⟨S100000, .f32⟩ : BufTy).Contents (Elt F) → (⟨S100000, .f32⟩ : BufTy).Contents (Elt F)),
    StableHlo.unary main_v91 main_v92 (broadcastInDim S100000x1 ![0] bcast_S100000_S100000x1_0 : (⟨S100000, .f32⟩ : BufTy).Contents (Elt F) → (⟨S100000x1, .f32⟩ : BufTy).Contents (Elt F)),
    StableHlo.unary main_v92 main_v93 (broadcastInDim S100000x32 ![0, 1] bcast_S100000x1_S100000x32_0_1 : (⟨S100000x1, .f32⟩ : BufTy).Contents (Elt F) → (⟨S100000x32, .f32⟩ : BufTy).Contents (Elt F)),
    StableHlo.binary main_v93 main_v52 main_v94 (mulf : (⟨S100000x32, .f32⟩ : BufTy).Contents (Elt F) → (⟨S100000x32, .f32⟩ : BufTy).Contents (Elt F) → (⟨S100000x32, .f32⟩ : BufTy).Contents (Elt F)),
    StableHlo.binary main_v90 main_v94 main_v95 (addf : (⟨S100000x32, .f32⟩ : BufTy).Contents (Elt F) → (⟨S100000x32, .f32⟩ : BufTy).Contents (Elt F) → (⟨S100000x32, .f32⟩ : BufTy).Contents (Elt F)),
    StableHlo.unary main_arg6 main_v96 (broadcastInDim S1x32 ![1] bcast_S32_S1x32_1 : (⟨S32, .f32⟩ : BufTy).Contents (Elt F) → (⟨S1x32, .f32⟩ : BufTy).Contents (Elt F)),
    StableHlo.unary main_v96 main_v97 (broadcastInDim S100000x32 ![0, 1] bcast_S1x32_S100000x32_0_1 : (⟨S1x32, .f32⟩ : BufTy).Contents (Elt F) → (⟨S100000x32, .f32⟩ : BufTy).Contents (Elt F)),
    StableHlo.binary main_v95 main_v97 main_v98 (addf : (⟨S100000x32, .f32⟩ : BufTy).Contents (Elt F) → (⟨S100000x32, .f32⟩ : BufTy).Contents (Elt F) → (⟨S100000x32, .f32⟩ : BufTy).Contents (Elt F)),
    TRef.nullary main_call3.cst (constant S_ .f32 0x00000000#32),
    TRef.unary main_call3.cst main_call3.v0 (broadcastInDim S100000x32 ![] bcast_S_S100000x32),
    TRef.binary (.of main_v98 : TRef sig ⟨S100000x32, .f32⟩) main_call3.v0 main_call3.v1 (cmpf .ogt),
    TRef.nullary main_call3.cst_0 (constant S_ .f32 0x00000000#32),
    TRef.unary main_call3.cst_0 main_call3.v2 (broadcastInDim S100000x32 ![] bcast_S_S100000x32),
    TRef.binary (.of main_v98 : TRef sig ⟨S100000x32, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x32 ![] bcast_S_S100000x32),
    TRef.ternary main_call3.v3 main_call3.call0.v1 (.of main_v98 : TRef sig ⟨S100000x32, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S100000x32 ![] bcast_S_S100000x32),
    TRef.binary main_call3.v6 main_call3.v5 main_call3.v7 mulf,
    TRef.ternary main_call3.v1 (.of main_v98 : TRef sig ⟨S100000x32, .f32⟩) main_call3.v7 main_call3.call1.v0 select ]

theorem lay2_sub : (lay2 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem lay2_fresh : (lay2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The third layer (%100 … %147), the same operations at thirty-two features. -/
abbrev lay3 : List (HloOp τ sig (Elt F)) :=
  [ StableHlo.binary main_v99 main_arg7 main_v100 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_cst_20 (constant S_ .f32 0x00000000#32),
    StableHlo.unary main_cst_20 main_v101 (broadcastInDim S100000 ![] bcast_S_S100000 : (⟨S_, .f32⟩ : BufTy).Contents (Elt F) → (⟨S100000, .f32⟩ : BufTy).Contents (Elt F)),
    StableHlo.unary main_v3 main_v102 (broadcastInDim S6400000x1 ![0] bcast_S6400000_S6400000x1_0 : (⟨S6400000, .i32⟩ : BufTy).Contents (Elt F) → (⟨S6400000x1, .i32⟩ : BufTy).Contents (Elt F)),
    StableHlo.ternary main_v101 main_v102 main_arg2 main_v103 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    StableHlo.nullary main_cst_21 (constant S_ .f32 0x3F800000#32),
    StableHlo.unary main_cst_21 main_v104 (broadcastInDim S100000 ![] bcast_S_S100000 : (⟨S_, .f32⟩ : BufTy).Contents (Elt F) → (⟨S100000, .f32⟩ : BufTy).Contents (Elt F)),
    StableHlo.binary main_v103 main_v104 main_v105 (addf : (⟨S100000, .f32⟩ : BufTy).Contents (Elt F) → (⟨S100000, .f32⟩ : BufTy).Contents (Elt F) → (⟨S100000, .f32⟩ : BufTy).Contents (Elt F)),
    StableHlo.nullary main_cst_22 (constant S_ .f32 0x00000000#32),
    StableHlo.unary main_cst_22 main_v106 (broadcastInDim S100000 ![] bcast_S_S100000 : (⟨S_, .f32⟩ : BufTy).Contents (Elt F) → (⟨S100000, .f32⟩ : BufTy).Contents (Elt F)),
    StableHlo.binary main_v105 main_v106 main_v107 (cmpf .ogt : (⟨S100000, .f32⟩ : BufTy).Contents (Elt F) → (⟨S100000, .f32⟩ : BufTy).Contents (Elt F) → (⟨S100000, .i1⟩ : BufTy).Contents (Elt F)),
    StableHlo.unary main_v105 main_v108 (Host.rsqrt : (⟨S100000, .f32⟩ : BufTy).Contents (Elt F) → (⟨S100000, .f32⟩ : BufTy).Contents (Elt F)),
    StableHlo.nullary main_cst_23 (constant S_ .f32 0x00000000#32),
    TRef.unary (.of main_cst_23 : TRef sig ⟨S_, .f32⟩) main_call4.v0 id,
    TRef.unary main_call4.v0 main_call4.v1 (broadcastInDim S100000 ![] bcast_S_S100000),
    TRef.ternary (.of main_v107 : TRef sig ⟨S100000, .i1⟩) (.of main_v108 : TRef sig ⟨S100000, .f32⟩) main_call4.v1 main_call4.v2 select,
    StableHlo.nullary main_c_24 (constantI S_ 32 0#32),
    StableHlo.unary main_c_24 main_v110 (broadcastInDim S6400000 ![] bcast_S_S6400000 : (⟨S_, .i32⟩ : BufTy).Contents (Elt F) → (⟨S6400000, .i32⟩ : BufTy).Contents (Elt F)),
    StableHlo.binary main_v1 main_v110 main_v111 (cmpi .slt : (⟨S6400000, .i32⟩ : BufTy).Contents (Elt F) → (⟨S6400000, .i32⟩ : BufTy).Contents (Elt F) → (⟨S6400000, .i1⟩ : BufTy).Contents (Elt F)),
    StableHlo.nullary main_c_25 (constantI S_ 32 100000#32),
    StableHlo.unary main_c_25 main_v112 (broadcastInDim S6400000 ![] bcast_S_S6400000 : (⟨S_, .i32⟩ : BufTy).Contents (Elt F) → (⟨S6400000, .i32⟩ : BufTy).Contents (Elt F)),
    StableHlo.binary main_v1 main_v112 main_v113 (addi : (⟨S6400000, .i32⟩ : BufTy).Contents (Elt F) → (⟨S6400000, .i32⟩ : BufTy).Contents (Elt F) → (⟨S6400000, .i32⟩ : BufTy).Contents (Elt F)),
    StableHlo.ternary main_v111 main_v113 main_v1 main_v114 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v114 main_v115 (broadcastInDim S6400000x1 ![0] bcast_S6400000_S6400000x1_0 : (⟨S6400000, .i32⟩ : BufTy).Contents (Elt F) → (⟨S6400000x1, .i32⟩ : BufTy).Contents (Elt F)),
    StableHlo.binary main_v109 main_v115 main_v116 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v116 main_arg2 main_v117 (mulf : (⟨S6400000, .f32⟩ : BufTy).Contents (Elt F) → (⟨S6400000, .f32⟩ : BufTy).Contents (Elt F) → (⟨S6400000, .f32⟩ : BufTy).Contents (Elt F)),
    StableHlo.nullary main_c_26 (constantI S_ 32 0#32),
    StableHlo.unary main_c_26 main_v118 (broadcastInDim S6400000 ![] bcast_S_S6400000 : (⟨S_, .i32⟩ : BufTy).Contents (Elt F) → (⟨S6400000, .i32⟩ : BufTy).Contents (Elt F)),
    StableHlo.binary main_v3 main_v118 main_v119 (cmpi .slt : (⟨S6400000, .i32⟩ : BufTy).Contents (Elt F) → (⟨S6400000, .i32⟩ : BufTy).Contents (Elt F) → (⟨S6400000, .i1⟩ : BufTy).Contents (Elt F)),
    StableHlo.nullary main_c_27 (constantI S_ 32 100000#32),
    StableHlo.unary main_c_27 main_v120 (broadcastInDim S6400000 ![] bcast_S_S6400000 : (⟨S_, .i32⟩ : BufTy).Contents (Elt F) → (⟨S6400000, .i32⟩ : BufTy).Contents (Elt F)),
    StableHlo.binary main_v3 main_v120 main_v121 (addi : (⟨S6400000, .i32⟩ : BufTy).Contents (Elt F) → (⟨S6400000, .i32⟩ : BufTy).Contents (Elt F) → (⟨S6400000, .i32⟩ : BufTy).Contents (Elt F)),
    StableHlo.ternary main_v119 main_v121 main_v3 main_v122 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v122 main_v123 (broadcastInDim S6400000x1 ![0] bcast_S6400000_S6400000x1_0 : (⟨S6400000, .i32⟩ : BufTy).Contents (Elt F) → (⟨S6400000x1, .i32⟩ : BufTy).Contents (Elt F)),
    StableHlo.binary main_v109 main_v123 main_v124 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v117 main_v124 main_v125 (mulf : (⟨S6400000, .f32⟩ : BufTy).Contents (Elt F) → (⟨S6400000, .f32⟩ : BufTy).Contents (Elt F) → (⟨S6400000, .f32⟩ : BufTy).Contents (Elt F)),
    StableHlo.unary main_v125 main_v126 (broadcastInDim S6400000x1 ![0] bcast_S6400000_S6400000x1_0 : (⟨S6400000, .f32⟩ : BufTy).Contents (Elt F) → (⟨S6400000x1, .f32⟩ : BufTy).Contents (Elt F)),
    StableHlo.nullary main_c_28 (constantI S_ 32 0#32),
    StableHlo.unary main_c_28 main_v127 (broadcastInDim S6400000 ![] bcast_S_S6400000 : (⟨S_, .i32⟩ : BufTy).Contents (Elt F) → (⟨S6400000, .i32⟩ : BufTy).Contents (Elt F)),
    StableHlo.binary main_v1 main_v127 main_v128 (cmpi .slt : (⟨S6400000, .i32⟩ : BufTy).Contents (Elt F) → (⟨S6400000, .i32⟩ : BufTy).Contents (Elt F) → (⟨S6400000, .i1⟩ : BufTy).Contents (Elt F)),
    StableHlo.nullary main_c_29 (constantI S_ 32 100000#32),
    StableHlo.unary main_c_29 main_v129 (broadcastInDim S6400000 ![] bcast_S_S6400000 : (⟨S_, .i32⟩ : BufTy).Contents (Elt F) → (⟨S6400000, .i32⟩ : BufTy).Contents (Elt F)),
    StableHlo.binary main_v1 main_v129 main_v130 (addi : (⟨S6400000, .i32⟩ : BufTy).Contents (Elt F) → (⟨S6400000, .i32⟩ : BufTy).Contents (Elt F) → (⟨S6400000, .i32⟩ : BufTy).Contents (Elt F)),
    StableHlo.ternary main_v128 main_v130 main_v1 main_v131 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v131 main_v132 (broadcastInDim S6400000x1 ![0] bcast_S6400000_S6400000x1_0 : (⟨S6400000, .i32⟩ : BufTy).Contents (Elt F) → (⟨S6400000x1, .i32⟩ : BufTy).Contents (Elt F)),
    StableHlo.binary main_v100 main_v132 main_v133 ((fun x i => Host.gather gather_S100000x32_S6400000x1_S6400000x32_1_0_n_n_0_1_132 x i) : (⟨S100000x32, .f32⟩ : BufTy).Contents (Elt F) → (⟨S6400000x1, .i32⟩ : BufTy).Contents (Elt F) → (⟨S6400000x32, .f32⟩ : BufTy).Contents (Elt F)),
    StableHlo.unary main_v126 main_v134 (broadcastInDim S6400000x32 ![0, 1] bcast_S6400000x1_S6400000x32_0_1 : (⟨S6400000x1, .f32⟩ : BufTy).Contents (Elt F) → (⟨S6400000x32, .f32⟩ : BufTy).Contents (Elt F)),
    StableHlo.binary main_v134 main_v133 main_v135 (mulf : (⟨S6400000x32, .f32⟩ : BufTy).Contents (Elt F) → (⟨S6400000x32, .f32⟩ : BufTy).Contents (Elt F) → (⟨S6400000x32, .f32⟩ : BufTy).Contents (Elt F)),
    StableHlo.nullary main_cst_30 (constant S_ .f32 0x00000000#32),
    StableHlo.unary main_cst_30 main_v136 (broadcastInDim S100000x32 ![] bcast_S_S100000x32 : (⟨S_, .f32⟩ : BufTy).Contents (Elt F) → (⟨S100000x32, .f32⟩ : BufTy).Contents (Elt F)),
    StableHlo.unary main_v3 main_v137 (broadcastInDim S6400000x1 ![0] bcast_S6400000_S6400000x1_0 : (⟨S6400000, .i32⟩ : BufTy).Contents (Elt F) → (⟨S6400000x1, .i32⟩ : BufTy).Contents (Elt F)),
    StableHlo.ternary main_v136 main_v137 main_v135 main_v138 ((fun x i u => Host.scatterAdd scatter_S100000x32_S6400000x1_S6400000x32_1_0_0_1 x i u) : (⟨S100000x32, .f32⟩ : BufTy).Contents (Elt F) → (⟨S6400000x1, .i32⟩ : BufTy).Contents (Elt F) → (⟨S6400000x32, .f32⟩ : BufTy).Contents (Elt F) → (⟨S100000x32, .f32⟩ : BufTy).Contents (Elt F)),
    StableHlo.binary main_v109 main_v109 main_v139 (mulf : (⟨S100000, .f32⟩ : BufTy).Contents (Elt F) → (⟨S100000, .f32⟩ : BufTy).Contents (Elt F) → (⟨S100000, .f32⟩ : BufTy).Contents (Elt F)),
    StableHlo.unary main_v139 main_v140 (broadcastInDim S100000x1 ![0] bcast_S100000_S100000x1_0 : (⟨S100000, .f32⟩ : BufTy).Contents (Elt F) → (⟨S100000x1, .f32⟩ : BufTy).Contents (Elt F)),
    StableHlo.unary main_v140 main_v141 (broadcastInDim S100000x32 ![0, 1] bcast_S100000x1_S100000x32_0_1 : (⟨S100000x1, .f32⟩ : BufTy).Contents (Elt F) → (⟨S100000x32, .f32⟩ : BufTy).Contents (Elt F)),
    StableHlo.binary main_v141 main_v100 main_v142 (mulf : (⟨S100000x32, .f32⟩ : BufTy).Contents (Elt F) → (⟨S100000x32, .f32⟩ : BufTy).Contents (Elt F) → (⟨S100000x32, .f32⟩ : BufTy).Contents (Elt F)),
    StableHlo.binary main_v138 main_v142 main_v143 (addf : (⟨S100000x32, .f32⟩ : BufTy).Contents (Elt F) → (⟨S100000x32, .f32⟩ : BufTy).Contents (Elt F) → (⟨S100000x32, .f32⟩ : BufTy).Contents (Elt F)),
    StableHlo.unary main_arg8 main_v144 (broadcastInDim S1x32 ![1] bcast_S32_S1x32_1 : (⟨S32, .f32⟩ : BufTy).Contents (Elt F) → (⟨S1x32, .f32⟩ : BufTy).Contents (Elt F)),
    StableHlo.unary main_v144 main_v145 (broadcastInDim S100000x32 ![0, 1] bcast_S1x32_S100000x32_0_1 : (⟨S1x32, .f32⟩ : BufTy).Contents (Elt F) → (⟨S100000x32, .f32⟩ : BufTy).Contents (Elt F)),
    StableHlo.binary main_v143 main_v145 main_v146 (addf : (⟨S100000x32, .f32⟩ : BufTy).Contents (Elt F) → (⟨S100000x32, .f32⟩ : BufTy).Contents (Elt F) → (⟨S100000x32, .f32⟩ : BufTy).Contents (Elt F)),
    TRef.nullary main_call5.cst (constant S_ .f32 0x00000000#32),
    TRef.unary main_call5.cst main_call5.v0 (broadcastInDim S100000x32 ![] bcast_S_S100000x32),
    TRef.binary (.of main_v146 : TRef sig ⟨S100000x32, .f32⟩) main_call5.v0 main_call5.v1 (cmpf .ogt),
    TRef.nullary main_call5.cst_0 (constant S_ .f32 0x00000000#32),
    TRef.unary main_call5.cst_0 main_call5.v2 (broadcastInDim S100000x32 ![] bcast_S_S100000x32),
    TRef.binary (.of main_v146 : TRef sig ⟨S100000x32, .f32⟩) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S100000x32 ![] bcast_S_S100000x32),
    TRef.ternary main_call5.v3 main_call5.call0.v1 (.of main_v146 : TRef sig ⟨S100000x32, .f32⟩) main_call5.call0.v2 select,
    TRef.unary main_call5.call0.v2 main_call5.v5 Host.expm1,
    TRef.nullary main_call5.cst_2 (constant S_ .f32 0x3F800000#32),
    TRef.unary main_call5.cst_2 main_call5.v6 (broadcastInDim S100000x32 ![] bcast_S_S100000x32),
    TRef.binary main_call5.v6 main_call5.v5 main_call5.v7 mulf,
    TRef.ternary main_call5.v1 (.of main_v146 : TRef sig ⟨S100000x32, .f32⟩) main_call5.v7 main_call5.call1.v0 select ]

theorem lay3_sub : (lay3 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem lay3_fresh : (lay3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The last product and its bias row (%148 … %151). -/
abbrev hd : List (HloOp τ sig (Elt F)) :=
  [ StableHlo.binary main_v147 main_arg9 main_v148 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg10 main_v149 (broadcastInDim S1x16 ![1] bcast_S16_S1x16_1 : (⟨S16, .f32⟩ : BufTy).Contents (Elt F) → (⟨S1x16, .f32⟩ : BufTy).Contents (Elt F)),
    StableHlo.unary main_v149 main_v150 (broadcastInDim S100000x16 ![0, 1] bcast_S1x16_S100000x16_0_1 : (⟨S1x16, .f32⟩ : BufTy).Contents (Elt F) → (⟨S100000x16, .f32⟩ : BufTy).Contents (Elt F)),
    StableHlo.binary main_v148 main_v150 main_v151 (addf : (⟨S100000x16, .f32⟩ : BufTy).Contents (Elt F) → (⟨S100000x16, .f32⟩ : BufTy).Contents (Elt F) → (⟨S100000x16, .f32⟩ : BufTy).Contents (Elt F)) ]

theorem hd_sub : (hd : List (HloOp τ sig (Elt F))).Forall fun op => op.bufs ⊆ tcRefs τ sig :=
  ⟨binary_bufs_sub .., unary_bufs_sub .., unary_bufs_sub .., binary_bufs_sub ..⟩

theorem hd_fresh : (hd : List (HloOp τ sig (Elt F))).Forall fun op => op.fresh = ∅ :=
  ⟨rfl, rfl, rfl, rfl⟩

/-- All of @main's operations, in order. -/
abbrev ops : List (HloOp τ sig (Elt F)) := pro ++ (lay1 ++ (lay2 ++ (lay3 ++ hd)))

/-- The contents after two lines run one after the other: the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.mpr fun a ha => by
    rcases List.mem_append.mp ha with h | h
    · exact List.forall_iff_forall_mem.mp h₁ a h
    · exact List.forall_iff_forall_mem.mp h₂ a h

theorem ops_sub : (ops : List (HloOp τ sig (Elt F))).Forall fun op => op.bufs ⊆ tcRefs τ sig :=
  forall_append pro_sub (forall_append lay1_sub (forall_append lay2_sub (forall_append lay3_sub hd_sub)))

theorem ops_fresh : ∀ op ∈ (ops : List (HloOp τ sig (Elt F))), op.fresh = ∅ :=
  List.forall_iff_forall_mem.mp
    (forall_append pro_fresh (forall_append lay1_fresh (forall_append lay2_fresh (forall_append lay3_fresh hd_fresh))))

end Cert.RefSide

end
-- ==== Proof.RefMain.lean ====
/-
  @main is the straight line of its operations. It is printed as four consecutive windows; each window is the line of
  its own operations once the outlined functions' bodies are put at their calls and sequencing is reassociated, the
  windows run in order are the concatenation run as one, and the concatenation is the list cut by layers.
-/
import proofs.«142261_j89635967467582_2_alg».proof.Proof.RefOps

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- @main's statements 1 … 60, the one call in them listed in place. -/
abbrev win0 : List (HloOp τ sig (Elt F)) :=
  [ StableHlo.unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v0 main_v1 rfl shapeCasts_S1x6400000_S6400000,
    StableHlo.unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v2 main_v3 rfl shapeCasts_S1x6400000_S6400000,
    StableHlo.binary main_arg0 main_arg3 main_v4 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    StableHlo.nullary main_cst (constant S_ .f32 0x00000000#32),
    StableHlo.unary main_cst main_v5 (broadcastInDim S100000 ![] bcast_S_S100000 : (⟨S_, .f32⟩ : BufTy).Contents (Elt F) → (⟨S100000, .f32⟩ : BufTy).Contents (Elt F)),
    StableHlo.unary main_v3 main_v6 (broadcastInDim S6400000x1 ![0] bcast_S6400000_S6400000x1_0 : (⟨S6400000, .i32⟩ : BufTy).Contents (Elt F) → (⟨S6400000x1, .i32⟩ : BufTy).Contents (Elt F)),
    StableHlo.ternary main_v5 main_v6 main_arg2 main_v7 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    StableHlo.nullary main_cst_0 (constant S_ .f32 0x3F800000#32),
    StableHlo.unary main_cst_0 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.nullary main_cst_1 (constant S_ .f32 0x00000000#32),
    StableHlo.unary main_cst_1 main_v10 (broadcastInDim S100000 ![] bcast_S_S100000 : (⟨S_, .f32⟩ : BufTy).Contents (Elt F) → (⟨S100000, .f32⟩ : BufTy).Contents (Elt F)),
    StableHlo.binary main_v9 main_v10 main_v11 (cmpf .ogt : (⟨S100000, .f32⟩ : BufTy).Contents (Elt F) → (⟨S100000, .f32⟩ : BufTy).Contents (Elt F) → (⟨S100000, .i1⟩ : BufTy).Contents (Elt F)),
    StableHlo.unary main_v9 main_v12 (Host.rsqrt : (⟨S100000, .f32⟩ : BufTy).Contents (Elt F) → (⟨S100000, .f32⟩ : BufTy).Contents (Elt F)),
    StableHlo.nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v11 : TRef sig ⟨S100000, .i1⟩) (.of main_v12 : TRef sig ⟨S100000, .f32⟩) main_call0.v1 main_call0.v2 select,
    StableHlo.nullary main_c (constantI S_ 32 0#32),
    StableHlo.unary main_c main_v14 (broadcastInDim S6400000 ![] bcast_S_S6400000 : (⟨S_, .i32⟩ : BufTy).Contents (Elt F) → (⟨S6400000, .i32⟩ : BufTy).Contents (Elt F)),
    StableHlo.binary main_v1 main_v14 main_v15 (cmpi .slt : (⟨S6400000, .i32⟩ : BufTy).Contents (Elt F) → (⟨S6400000, .i32⟩ : BufTy).Contents (Elt F) → (⟨S6400000, .i1⟩ : BufTy).Contents (Elt F)),
    StableHlo.nullary main_c_3 (constantI S_ 32 100000#32),
    StableHlo.unary main_c_3 main_v16 (broadcastInDim S6400000 ![] bcast_S_S6400000 : (⟨S_, .i32⟩ : BufTy).Contents (Elt F) → (⟨S6400000, .i32⟩ : BufTy).Contents (Elt F)),
    StableHlo.binary main_v1 main_v16 main_v17 (addi : (⟨S6400000, .i32⟩ : BufTy).Contents (Elt F) → (⟨S6400000, .i32⟩ : BufTy).Contents (Elt F) → (⟨S6400000, .i32⟩ : BufTy).Contents (Elt F)),
    StableHlo.ternary main_v15 main_v17 main_v1 main_v18 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v18 main_v19 (broadcastInDim S6400000x1 ![0] bcast_S6400000_S6400000x1_0 : (⟨S6400000, .i32⟩ : BufTy).Contents (Elt F) → (⟨S6400000x1, .i32⟩ : BufTy).Contents (Elt F)),
    StableHlo.binary main_v13 main_v19 main_v20 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v20 main_arg2 main_v21 (mulf : (⟨S6400000, .f32⟩ : BufTy).Contents (Elt F) → (⟨S6400000, .f32⟩ : BufTy).Contents (Elt F) → (⟨S6400000, .f32⟩ : BufTy).Contents (Elt F)),
    StableHlo.nullary main_c_4 (constantI S_ 32 0#32),
    StableHlo.unary main_c_4 main_v22 (broadcastInDim S6400000 ![] bcast_S_S6400000 : (⟨S_, .i32⟩ : BufTy).Contents (Elt F) → (⟨S6400000, .i32⟩ : BufTy).Contents (Elt F)),
    StableHlo.binary main_v3 main_v22 main_v23 (cmpi .slt : (⟨S6400000, .i32⟩ : BufTy).Contents (Elt F) → (⟨S6400000, .i32⟩ : BufTy).Contents (Elt F) → (⟨S6400000, .i1⟩ : BufTy).Contents (Elt F)),
    StableHlo.nullary main_c_5 (constantI S_ 32 100000#32),
    StableHlo.unary main_c_5 main_v24 (broadcastInDim S6400000 ![] bcast_S_S6400000 : (⟨S_, .i32⟩ : BufTy).Contents (Elt F) → (⟨S6400000, .i32⟩ : BufTy).Contents (Elt F)),
    StableHlo.binary main_v3 main_v24 main_v25 (addi : (⟨S6400000, .i32⟩ : BufTy).Contents (Elt F) → (⟨S6400000, .i32⟩ : BufTy).Contents (Elt F) → (⟨S6400000, .i32⟩ : BufTy).Contents (Elt F)),
    StableHlo.ternary main_v23 main_v25 main_v3 main_v26 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v26 main_v27 (broadcastInDim S6400000x1 ![0] bcast_S6400000_S6400000x1_0 : (⟨S6400000, .i32⟩ : BufTy).Contents (Elt F) → (⟨S6400000x1, .i32⟩ : BufTy).Contents (Elt F)),
    StableHlo.binary main_v13 main_v27 main_v28 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v21 main_v28 main_v29 (mulf : (⟨S6400000, .f32⟩ : BufTy).Contents (Elt F) → (⟨S6400000, .f32⟩ : BufTy).Contents (Elt F) → (⟨S6400000, .f32⟩ : BufTy).Contents (Elt F)),
    StableHlo.unary main_v29 main_v30 (broadcastInDim S6400000x1 ![0] bcast_S6400000_S6400000x1_0 : (⟨S6400000, .f32⟩ : BufTy).Contents (Elt F) → (⟨S6400000x1, .f32⟩ : BufTy).Contents (Elt F)),
    StableHlo.nullary main_c_6 (constantI S_ 32 0#32),
    StableHlo.unary main_c_6 main_v31 (broadcastInDim S6400000 ![] bcast_S_S6400000 : (⟨S_, .i32⟩ : BufTy).Contents (Elt F) → (⟨S6400000, .i32⟩ : BufTy).Contents (Elt F)),
    StableHlo.binary main_v1 main_v31 main_v32 (cmpi .slt : (⟨S6400000, .i32⟩ : BufTy).Contents (Elt F) → (⟨S6400000, .i32⟩ : BufTy).Contents (Elt F) → (⟨S6400000, .i1⟩ : BufTy).Contents (Elt F)),
    StableHlo.nullary main_c_7 (constantI S_ 32 100000#32),
    StableHlo.unary main_c_7 main_v33 (broadcastInDim S6400000 ![] bcast_S_S6400000 : (⟨S_, .i32⟩ : BufTy).Contents (Elt F) → (⟨S6400000, .i32⟩ : BufTy).Contents (Elt F)),
    StableHlo.binary main_v1 main_v33 main_v34 (addi : (⟨S6400000, .i32⟩ : BufTy).Contents (Elt F) → (⟨S6400000, .i32⟩ : BufTy).Contents (Elt F) → (⟨S6400000, .i32⟩ : BufTy).Contents (Elt F)),
    StableHlo.ternary main_v32 main_v34 main_v1 main_v35 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v35 main_v36 (broadcastInDim S6400000x1 ![0] bcast_S6400000_S6400000x1_0 : (⟨S6400000, .i32⟩ : BufTy).Contents (Elt F) → (⟨S6400000x1, .i32⟩ : BufTy).Contents (Elt F)),
    StableHlo.binary main_v4 main_v36 main_v37 ((fun x i => Host.gather gather_S100000x16_S6400000x1_S6400000x16_1_0_n_n_0_1_116 x i) : (⟨S100000x16, .f32⟩ : BufTy).Contents (Elt F) → (⟨S6400000x1, .i32⟩ : BufTy).Contents (Elt F) → (⟨S6400000x16, .f32⟩ : BufTy).Contents (Elt F)),
    StableHlo.unary main_v30 main_v38 (broadcastInDim S6400000x16 ![0, 1] bcast_S6400000x1_S6400000x16_0_1 : (⟨S6400000x1, .f32⟩ : BufTy).Contents (Elt F) → (⟨S6400000x16, .f32⟩ : BufTy).Contents (Elt F)),
    StableHlo.binary main_v38 main_v37 main_v39 (mulf : (⟨S6400000x16, .f32⟩ : BufTy).Contents (Elt F) → (⟨S6400000x16, .f32⟩ : BufTy).Contents (Elt F) → (⟨S6400000x16, .f32⟩ : BufTy).Contents (Elt F)),
    StableHlo.nullary main_cst_8 (constant S_ .f32 0x00000000#32),
    StableHlo.unary main_cst_8 main_v40 (broadcastInDim S100000x16 ![] bcast_S_S100000x16 : (⟨S_, .f32⟩ : BufTy).Contents (Elt F) → (⟨S100000x16, .f32⟩ : BufTy).Contents (Elt F)),
    StableHlo.unary main_v3 main_v41 (broadcastInDim S6400000x1 ![0] bcast_S6400000_S6400000x1_0 : (⟨S6400000, .i32⟩ : BufTy).Contents (Elt F) → (⟨S6400000x1, .i32⟩ : BufTy).Contents (Elt F)),
    StableHlo.ternary main_v40 main_v41 main_v39 main_v42 ((fun x i u => Host.scatterAdd scatter_S100000x16_S6400000x1_S6400000x16_1_0_0_1 x i u) : (⟨S100000x16, .f32⟩ : BufTy).Contents (Elt F) → (⟨S6400000x1, .i32⟩ : BufTy).Contents (Elt F) → (⟨S6400000x16, .f32⟩ : BufTy).Contents (Elt F) → (⟨S100000x16, .f32⟩ : BufTy).Contents (Elt F)),
    StableHlo.binary main_v13 main_v13 main_v43 (mulf : (⟨S100000, .f32⟩ : BufTy).Contents (Elt F) → (⟨S100000, .f32⟩ : BufTy).Contents (Elt F) → (⟨S100000, .f32⟩ : BufTy).Contents (Elt F)),
    StableHlo.unary main_v43 main_v44 (broadcastInDim S100000x1 ![0] bcast_S100000_S100000x1_0 : (⟨S100000, .f32⟩ : BufTy).Contents (Elt F) → (⟨S100000x1, .f32⟩ : BufTy).Contents (Elt F)),
    StableHlo.unary main_v44 main_v45 (broadcastInDim S100000x16 ![0, 1] bcast_S100000x1_S100000x16_0_1 : (⟨S100000x1, .f32⟩ : BufTy).Contents (Elt F) → (⟨S100000x16, .f32⟩ : BufTy).Contents (Elt F)),
    StableHlo.binary main_v45 main_v4 main_v46 (mulf : (⟨S100000x16, .f32⟩ : BufTy).Contents (Elt F) → (⟨S100000x16, .f32⟩ : BufTy).Contents (Elt F) → (⟨S100000x16, .f32⟩ : BufTy).Contents (Elt F)),
    StableHlo.binary main_v42 main_v46 main_v47 (addf : (⟨S100000x16, .f32⟩ : BufTy).Contents (Elt F) → (⟨S100000x16, .f32⟩ : BufTy).Contents (Elt F) → (⟨S100000x16, .f32⟩ : BufTy).Contents (Elt F)),
    StableHlo.unary main_arg4 main_v48 (broadcastInDim S1x16 ![1] bcast_S16_S1x16_1 : (⟨S16, .f32⟩ : BufTy).Contents (Elt F) → (⟨S1x16, .f32⟩ : BufTy).Contents (Elt F)) ]

/-- @main's statements 61 … 120, the two calls in them listed in place. -/
abbrev win1 : List (HloOp τ sig (Elt F)) :=
  [ StableHlo.unary main_v48 main_v49 (broadcastInDim S100000x16 ![0, 1] bcast_S1x16_S100000x16_0_1 : (⟨S1x16, .f32⟩ : BufTy).Contents (Elt F) → (⟨S100000x16, .f32⟩ : BufTy).Contents (Elt F)),
    StableHlo.binary main_v47 main_v49 main_v50 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x00000000#32),
    TRef.unary main_call1.cst main_call1.v0 (broadcastInDim S100000x16 ![] bcast_S_S100000x16),
    TRef.binary (.of main_v50 : TRef sig ⟨S100000x16, .f32⟩) main_call1.v0 main_call1.v1 (cmpf .ogt),
    TRef.nullary main_call1.cst_0 (constant S_ .f32 0x00000000#32),
    TRef.unary main_call1.cst_0 main_call1.v2 (broadcastInDim S100000x16 ![] bcast_S_S100000x16),
    TRef.binary (.of main_v50 : TRef sig ⟨S100000x16, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x16 ![] bcast_S_S100000x16),
    TRef.ternary main_call1.v3 main_call1.call0.v1 (.of main_v50 : TRef sig ⟨S100000x16, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x16 ![] bcast_S_S100000x16),
    TRef.binary main_call1.v6 main_call1.v5 main_call1.v7 mulf,
    TRef.ternary main_call1.v1 (.of main_v50 : TRef sig ⟨S100000x16, .f32⟩) main_call1.v7 main_call1.call1.v0 select,
    StableHlo.binary main_v51 main_arg5 main_v52 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.nullary main_cst_9 (constant S_ .f32 0x00000000#32),
    StableHlo.unary main_cst_9 main_v53 (broadcastInDim S100000 ![] bcast_S_S100000 : (⟨S_, .f32⟩ : BufTy).Contents (Elt F) → (⟨S100000, .f32⟩ : BufTy).Contents (Elt F)),
    StableHlo.unary main_v3 main_v54 (broadcastInDim S6400000x1 ![0] bcast_S6400000_S6400000x1_0 : (⟨S6400000, .i32⟩ : BufTy).Contents (Elt F) → (⟨S6400000x1, .i32⟩ : BufTy).Contents (Elt F)),
    StableHlo.ternary main_v53 main_v54 main_arg2 main_v55 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    StableHlo.nullary main_cst_10 (constant S_ .f32 0x3F800000#32),
    StableHlo.unary main_cst_10 main_v56 (broadcastInDim S100000 ![] bcast_S_S100000 : (⟨S_, .f32⟩ : BufTy).Contents (Elt F) → (⟨S100000, .f32⟩ : BufTy).Contents (Elt F)),
    StableHlo.binary main_v55 main_v56 main_v57 (addf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x00000000#32),
    StableHlo.unary main_cst_11 main_v58 (broadcastInDim S100000 ![] bcast_S_S100000 : (⟨S_, .f32⟩ : BufTy).Contents (Elt F) → (⟨S100000, .f32⟩ : BufTy).Contents (Elt F)),
    StableHlo.binary main_v57 main_v58 main_v59 (cmpf .ogt : (⟨S100000, .f32⟩ : BufTy).Contents (Elt F) → (⟨S100000, .f32⟩ : BufTy).Contents (Elt F) → (⟨S100000, .i1⟩ : BufTy).Contents (Elt F)),
    StableHlo.unary main_v57 main_v60 (Host.rsqrt : (⟨S100000, .f32⟩ : BufTy).Contents (Elt F) → (⟨S100000, .f32⟩ : BufTy).Contents (Elt F)),
    StableHlo.nullary main_cst_12 (constant S_ .f32 0x00000000#32),
    TRef.unary (.of main_cst_12 : TRef sig ⟨S_, .f32⟩) main_call2.v0 id,
    TRef.unary main_call2.v0 main_call2.v1 (broadcastInDim S100000 ![] bcast_S_S100000),
    TRef.ternary (.of main_v59 : TRef sig ⟨S100000, .i1⟩) (.of main_v60 : TRef sig ⟨S100000, .f32⟩) main_call2.v1 main_call2.v2 select,
    StableHlo.nullary main_c_13 (constantI S_ 32 0#32),
    StableHlo.unary main_c_13 main_v62 (broadcastInDim S6400000 ![] bcast_S_S6400000 : (⟨S_, .i32⟩ : BufTy).Contents (Elt F) → (⟨S6400000, .i32⟩ : BufTy).Contents (Elt F)),
    StableHlo.binary main_v1 main_v62 main_v63 (cmpi .slt : (⟨S6400000, .i32⟩ : BufTy).Contents (Elt F) → (⟨S6400000, .i32⟩ : BufTy).Contents (Elt F) → (⟨S6400000, .i1⟩ : BufTy).Contents (Elt F)),
    StableHlo.nullary main_c_14 (constantI S_ 32 100000#32),
    StableHlo.unary main_c_14 main_v64 (broadcastInDim S6400000 ![] bcast_S_S6400000 : (⟨S_, .i32⟩ : BufTy).Contents (Elt F) → (⟨S6400000, .i32⟩ : BufTy).Contents (Elt F)),
    StableHlo.binary main_v1 main_v64 main_v65 (addi : (⟨S6400000, .i32⟩ : BufTy).Contents (Elt F) → (⟨S6400000, .i32⟩ : BufTy).Contents (Elt F) → (⟨S6400000, .i32⟩ : BufTy).Contents (Elt F)),
    StableHlo.ternary main_v63 main_v65 main_v1 main_v66 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v66 main_v67 (broadcastInDim S6400000x1 ![0] bcast_S6400000_S6400000x1_0 : (⟨S6400000, .i32⟩ : BufTy).Contents (Elt F) → (⟨S6400000x1, .i32⟩ : BufTy).Contents (Elt F)),
    StableHlo.binary main_v61 main_v67 main_v68 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v68 main_arg2 main_v69 (mulf : (⟨S6400000, .f32⟩ : BufTy).Contents (Elt F) → (⟨S6400000, .f32⟩ : BufTy).Contents (Elt F) → (⟨S6400000, .f32⟩ : BufTy).Contents (Elt F)),
    StableHlo.nullary main_c_15 (constantI S_ 32 0#32),
    StableHlo.unary main_c_15 main_v70 (broadcastInDim S6400000 ![] bcast_S_S6400000 : (⟨S_, .i32⟩ : BufTy).Contents (Elt F) → (⟨S6400000, .i32⟩ : BufTy).Contents (Elt F)),
    StableHlo.binary main_v3 main_v70 main_v71 (cmpi .slt : (⟨S6400000, .i32⟩ : BufTy).Contents (Elt F) → (⟨S6400000, .i32⟩ : BufTy).Contents (Elt F) → (⟨S6400000, .i1⟩ : BufTy).Contents (Elt F)),
    StableHlo.nullary main_c_16 (constantI S_ 32 100000#32),
    StableHlo.unary main_c_16 main_v72 (broadcastInDim S6400000 ![] bcast_S_S6400000 : (⟨S_, .i32⟩ : BufTy).Contents (Elt F) → (⟨S6400000, .i32⟩ : BufTy).Contents (Elt F)),
    StableHlo.binary main_v3 main_v72 main_v73 (addi : (⟨S6400000, .i32⟩ : BufTy).Contents (Elt F) → (⟨S6400000, .i32⟩ : BufTy).Contents (Elt F) → (⟨S6400000, .i32⟩ : BufTy).Contents (Elt F)),
    StableHlo.ternary main_v71 main_v73 main_v3 main_v74 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v74 main_v75 (broadcastInDim S6400000x1 ![0] bcast_S6400000_S6400000x1_0 : (⟨S6400000, .i32⟩ : BufTy).Contents (Elt F) → (⟨S6400000x1, .i32⟩ : BufTy).Contents (Elt F)),
    StableHlo.binary main_v61 main_v75 main_v76 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v69 main_v76 main_v77 (mulf : (⟨S6400000, .f32⟩ : BufTy).Contents (Elt F) → (⟨S6400000, .f32⟩ : BufTy).Contents (Elt F) → (⟨S6400000, .f32⟩ : BufTy).Contents (Elt F)),
    StableHlo.unary main_v77 main_v78 (broadcastInDim S6400000x1 ![0] bcast_S6400000_S6400000x1_0 : (⟨S6400000, .f32⟩ : BufTy).Contents (Elt F) → (⟨S6400000x1, .f32⟩ : BufTy).Contents (Elt F)),
    StableHlo.nullary main_c_17 (constantI S_ 32 0#32),
    StableHlo.unary main_c_17 main_v79 (broadcastInDim S6400000 ![] bcast_S_S6400000 : (⟨S_, .i32⟩ : BufTy).Contents (Elt F) → (⟨S6400000, .i32⟩ : BufTy).Contents (Elt F)),
    StableHlo.binary main_v1 main_v79 main_v80 (cmpi .slt : (⟨S6400000, .i32⟩ : BufTy).Contents (Elt F) → (⟨S6400000, .i32⟩ : BufTy).Contents (Elt F) → (⟨S6400000, .i1⟩ : BufTy).Contents (Elt F)),
    StableHlo.nullary main_c_18 (constantI S_ 32 100000#32),
    StableHlo.unary main_c_18 main_v81 (broadcastInDim S6400000 ![] bcast_S_S6400000 : (⟨S_, .i32⟩ : BufTy).Contents (Elt F) → (⟨S6400000, .i32⟩ : BufTy).Contents (Elt F)),
    StableHlo.binary main_v1 main_v81 main_v82 (addi : (⟨S6400000, .i32⟩ : BufTy).Contents (Elt F) → (⟨S6400000, .i32⟩ : BufTy).Contents (Elt F) → (⟨S6400000, .i32⟩ : BufTy).Contents (Elt F)),
    StableHlo.ternary main_v80 main_v82 main_v1 main_v83 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v83 main_v84 (broadcastInDim S6400000x1 ![0] bcast_S6400000_S6400000x1_0 : (⟨S6400000, .i32⟩ : BufTy).Contents (Elt F) → (⟨S6400000x1, .i32⟩ : BufTy).Contents (Elt F)),
    StableHlo.binary main_v52 main_v84 main_v85 ((fun x i => Host.gather gather_S100000x32_S6400000x1_S6400000x32_1_0_n_n_0_1_132 x i) : (⟨S100000x32, .f32⟩ : BufTy).Contents (Elt F) → (⟨S6400000x1, .i32⟩ : BufTy).Contents (Elt F) → (⟨S6400000x32, .f32⟩ : BufTy).Contents (Elt F)),
    StableHlo.unary main_v78 main_v86 (broadcastInDim S6400000x32 ![0, 1] bcast_S6400000x1_S6400000x32_0_1 : (⟨S6400000x1, .f32⟩ : BufTy).Contents (Elt F) → (⟨S6400000x32, .f32⟩ : BufTy).Contents (Elt F)),
    StableHlo.binary main_v86 main_v85 main_v87 (mulf : (⟨S6400000x32, .f32⟩ : BufTy).Contents (Elt F) → (⟨S6400000x32, .f32⟩ : BufTy).Contents (Elt F) → (⟨S6400000x32, .f32⟩ : BufTy).Contents (Elt F)),
    StableHlo.nullary main_cst_19 (constant S_ .f32 0x00000000#32),
    StableHlo.unary main_cst_19 main_v88 (broadcastInDim S100000x32 ![] bcast_S_S100000x32 : (⟨S_, .f32⟩ : BufTy).Contents (Elt F) → (⟨S100000x32, .f32⟩ : BufTy).Contents (Elt F)),
    StableHlo.unary main_v3 main_v89 (broadcastInDim S6400000x1 ![0] bcast_S6400000_S6400000x1_0 : (⟨S6400000, .i32⟩ : BufTy).Contents (Elt F) → (⟨S6400000x1, .i32⟩ : BufTy).Contents (Elt F)),
    StableHlo.ternary main_v88 main_v89 main_v87 main_v90 ((fun x i u => Host.scatterAdd scatter_S100000x32_S6400000x1_S6400000x32_1_0_0_1 x i u) : (⟨S100000x32, .f32⟩ : BufTy).Contents (Elt F) → (⟨S6400000x1, .i32⟩ : BufTy).Contents (Elt F) → (⟨S6400000x32, .f32⟩ : BufTy).Contents (Elt F) → (⟨S100000x32, .f32⟩ : BufTy).Contents (Elt F)),
    StableHlo.binary main_v61 main_v61 main_v91 (mulf : (⟨S100000, .f32⟩ : BufTy).Contents (Elt F) → (⟨S100000, .f32⟩ : BufTy).Contents (Elt F) → (⟨S100000, .f32⟩ : BufTy).Contents (Elt F)),
    StableHlo.unary main_v91 main_v92 (broadcastInDim S100000x1 ![0] bcast_S100000_S100000x1_0 : (⟨S100000, .f32⟩ : BufTy).Contents (Elt F) → (⟨S100000x1, .f32⟩ : BufTy).Contents (Elt F)),
    StableHlo.unary main_v92 main_v93 (broadcastInDim S100000x32 ![0, 1] bcast_S100000x1_S100000x32_0_1 : (⟨S100000x1, .f32⟩ : BufTy).Contents (Elt F) → (⟨S100000x32, .f32⟩ : BufTy).Contents (Elt F)),
    StableHlo.binary main_v93 main_v52 main_v94 (mulf : (⟨S100000x32, .f32⟩ : BufTy).Contents (Elt F) → (⟨S100000x32, .f32⟩ : BufTy).Contents (Elt F) → (⟨S100000x32, .f32⟩ : BufTy).Contents (Elt F)),
    StableHlo.binary main_v90 main_v94 main_v95 (addf : (⟨S100000x32, .f32⟩ : BufTy).Contents (Elt F) → (⟨S100000x32, .f32⟩ : BufTy).Contents (Elt F) → (⟨S100000x32, .f32⟩ : BufTy).Contents (Elt F)),
    StableHlo.unary main_arg6 main_v96 (broadcastInDim S1x32 ![1] bcast_S32_S1x32_1 : (⟨S32, .f32⟩ : BufTy).Contents (Elt F) → (⟨S1x32, .f32⟩ : BufTy).Contents (Elt F)),
    StableHlo.unary main_v96 main_v97 (broadcastInDim S100000x32 ![0, 1] bcast_S1x32_S100000x32_0_1 : (⟨S1x32, .f32⟩ : BufTy).Contents (Elt F) → (⟨S100000x32, .f32⟩ : BufTy).Contents (Elt F)) ]

/-- @main's statements 121 … 180, the two calls in them listed in place. -/
abbrev win2 : List (HloOp τ sig (Elt F)) :=
  [ StableHlo.binary main_v95 main_v97 main_v98 (addf : (⟨S100000x32, .f32⟩ : BufTy).Contents (Elt F) → (⟨S100000x32, .f32⟩ : BufTy).Contents (Elt F) → (⟨S100000x32, .f32⟩ : BufTy).Contents (Elt F)),
    TRef.nullary main_call3.cst (constant S_ .f32 0x00000000#32),
    TRef.unary main_call3.cst main_call3.v0 (broadcastInDim S100000x32 ![] bcast_S_S100000x32),
    TRef.binary (.of main_v98 : TRef sig ⟨S100000x32, .f32⟩) main_call3.v0 main_call3.v1 (cmpf .ogt),
    TRef.nullary main_call3.cst_0 (constant S_ .f32 0x00000000#32),
    TRef.unary main_call3.cst_0 main_call3.v2 (broadcastInDim S100000x32 ![] bcast_S_S100000x32),
    TRef.binary (.of main_v98 : TRef sig ⟨S100000x32, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x32 ![] bcast_S_S100000x32),
    TRef.ternary main_call3.v3 main_call3.call0.v1 (.of main_v98 : TRef sig ⟨S100000x32, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S100000x32 ![] bcast_S_S100000x32),
    TRef.binary main_call3.v6 main_call3.v5 main_call3.v7 mulf,
    TRef.ternary main_call3.v1 (.of main_v98 : TRef sig ⟨S100000x32, .f32⟩) main_call3.v7 main_call3.call1.v0 select,
    StableHlo.binary main_v99 main_arg7 main_v100 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_cst_20 (constant S_ .f32 0x00000000#32),
    StableHlo.unary main_cst_20 main_v101 (broadcastInDim S100000 ![] bcast_S_S100000 : (⟨S_, .f32⟩ : BufTy).Contents (Elt F) → (⟨S100000, .f32⟩ : BufTy).Contents (Elt F)),
    StableHlo.unary main_v3 main_v102 (broadcastInDim S6400000x1 ![0] bcast_S6400000_S6400000x1_0 : (⟨S6400000, .i32⟩ : BufTy).Contents (Elt F) → (⟨S6400000x1, .i32⟩ : BufTy).Contents (Elt F)),
    StableHlo.ternary main_v101 main_v102 main_arg2 main_v103 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    StableHlo.nullary main_cst_21 (constant S_ .f32 0x3F800000#32),
    StableHlo.unary main_cst_21 main_v104 (broadcastInDim S100000 ![] bcast_S_S100000 : (⟨S_, .f32⟩ : BufTy).Contents (Elt F) → (⟨S100000, .f32⟩ : BufTy).Contents (Elt F)),
    StableHlo.binary main_v103 main_v104 main_v105 (addf : (⟨S100000, .f32⟩ : BufTy).Contents (Elt F) → (⟨S100000, .f32⟩ : BufTy).Contents (Elt F) → (⟨S100000, .f32⟩ : BufTy).Contents (Elt F)),
    StableHlo.nullary main_cst_22 (constant S_ .f32 0x00000000#32),
    StableHlo.unary main_cst_22 main_v106 (broadcastInDim S100000 ![] bcast_S_S100000 : (⟨S_, .f32⟩ : BufTy).Contents (Elt F) → (⟨S100000, .f32⟩ : BufTy).Contents (Elt F)),
    StableHlo.binary main_v105 main_v106 main_v107 (cmpf .ogt : (⟨S100000, .f32⟩ : BufTy).Contents (Elt F) → (⟨S100000, .f32⟩ : BufTy).Contents (Elt F) → (⟨S100000, .i1⟩ : BufTy).Contents (Elt F)),
    StableHlo.unary main_v105 main_v108 (Host.rsqrt : (⟨S100000, .f32⟩ : BufTy).Contents (Elt F) → (⟨S100000, .f32⟩ : BufTy).Contents (Elt F)),
    StableHlo.nullary main_cst_23 (constant S_ .f32 0x00000000#32),
    TRef.unary (.of main_cst_23 : TRef sig ⟨S_, .f32⟩) main_call4.v0 id,
    TRef.unary main_call4.v0 main_call4.v1 (broadcastInDim S100000 ![] bcast_S_S100000),
    TRef.ternary (.of main_v107 : TRef sig ⟨S100000, .i1⟩) (.of main_v108 : TRef sig ⟨S100000, .f32⟩) main_call4.v1 main_call4.v2 select,
    StableHlo.nullary main_c_24 (constantI S_ 32 0#32),
    StableHlo.unary main_c_24 main_v110 (broadcastInDim S6400000 ![] bcast_S_S6400000 : (⟨S_, .i32⟩ : BufTy).Contents (Elt F) → (⟨S6400000, .i32⟩ : BufTy).Contents (Elt F)),
    StableHlo.binary main_v1 main_v110 main_v111 (cmpi .slt : (⟨S6400000, .i32⟩ : BufTy).Contents (Elt F) → (⟨S6400000, .i32⟩ : BufTy).Contents (Elt F) → (⟨S6400000, .i1⟩ : BufTy).Contents (Elt F)),
    StableHlo.nullary main_c_25 (constantI S_ 32 100000#32),
    StableHlo.unary main_c_25 main_v112 (broadcastInDim S6400000 ![] bcast_S_S6400000 : (⟨S_, .i32⟩ : BufTy).Contents (Elt F) → (⟨S6400000, .i32⟩ : BufTy).Contents (Elt F)),
    StableHlo.binary main_v1 main_v112 main_v113 (addi : (⟨S6400000, .i32⟩ : BufTy).Contents (Elt F) → (⟨S6400000, .i32⟩ : BufTy).Contents (Elt F) → (⟨S6400000, .i32⟩ : BufTy).Contents (Elt F)),
    StableHlo.ternary main_v111 main_v113 main_v1 main_v114 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v114 main_v115 (broadcastInDim S6400000x1 ![0] bcast_S6400000_S6400000x1_0 : (⟨S6400000, .i32⟩ : BufTy).Contents (Elt F) → (⟨S6400000x1, .i32⟩ : BufTy).Contents (Elt F)),
    StableHlo.binary main_v109 main_v115 main_v116 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v116 main_arg2 main_v117 (mulf : (⟨S6400000, .f32⟩ : BufTy).Contents (Elt F) → (⟨S6400000, .f32⟩ : BufTy).Contents (Elt F) → (⟨S6400000, .f32⟩ : BufTy).Contents (Elt F)),
    StableHlo.nullary main_c_26 (constantI S_ 32 0#32),
    StableHlo.unary main_c_26 main_v118 (broadcastInDim S6400000 ![] bcast_S_S6400000 : (⟨S_, .i32⟩ : BufTy).Contents (Elt F) → (⟨S6400000, .i32⟩ : BufTy).Contents (Elt F)),
    StableHlo.binary main_v3 main_v118 main_v119 (cmpi .slt : (⟨S6400000, .i32⟩ : BufTy).Contents (Elt F) → (⟨S6400000, .i32⟩ : BufTy).Contents (Elt F) → (⟨S6400000, .i1⟩ : BufTy).Contents (Elt F)),
    StableHlo.nullary main_c_27 (constantI S_ 32 100000#32),
    StableHlo.unary main_c_27 main_v120 (broadcastInDim S6400000 ![] bcast_S_S6400000 : (⟨S_, .i32⟩ : BufTy).Contents (Elt F) → (⟨S6400000, .i32⟩ : BufTy).Contents (Elt F)),
    StableHlo.binary main_v3 main_v120 main_v121 (addi : (⟨S6400000, .i32⟩ : BufTy).Contents (Elt F) → (⟨S6400000, .i32⟩ : BufTy).Contents (Elt F) → (⟨S6400000, .i32⟩ : BufTy).Contents (Elt F)),
    StableHlo.ternary main_v119 main_v121 main_v3 main_v122 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v122 main_v123 (broadcastInDim S6400000x1 ![0] bcast_S6400000_S6400000x1_0 : (⟨S6400000, .i32⟩ : BufTy).Contents (Elt F) → (⟨S6400000x1, .i32⟩ : BufTy).Contents (Elt F)),
    StableHlo.binary main_v109 main_v123 main_v124 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v117 main_v124 main_v125 (mulf : (⟨S6400000, .f32⟩ : BufTy).Contents (Elt F) → (⟨S6400000, .f32⟩ : BufTy).Contents (Elt F) → (⟨S6400000, .f32⟩ : BufTy).Contents (Elt F)),
    StableHlo.unary main_v125 main_v126 (broadcastInDim S6400000x1 ![0] bcast_S6400000_S6400000x1_0 : (⟨S6400000, .f32⟩ : BufTy).Contents (Elt F) → (⟨S6400000x1, .f32⟩ : BufTy).Contents (Elt F)),
    StableHlo.nullary main_c_28 (constantI S_ 32 0#32),
    StableHlo.unary main_c_28 main_v127 (broadcastInDim S6400000 ![] bcast_S_S6400000 : (⟨S_, .i32⟩ : BufTy).Contents (Elt F) → (⟨S6400000, .i32⟩ : BufTy).Contents (Elt F)),
    StableHlo.binary main_v1 main_v127 main_v128 (cmpi .slt : (⟨S6400000, .i32⟩ : BufTy).Contents (Elt F) → (⟨S6400000, .i32⟩ : BufTy).Contents (Elt F) → (⟨S6400000, .i1⟩ : BufTy).Contents (Elt F)),
    StableHlo.nullary main_c_29 (constantI S_ 32 100000#32),
    StableHlo.unary main_c_29 main_v129 (broadcastInDim S6400000 ![] bcast_S_S6400000 : (⟨S_, .i32⟩ : BufTy).Contents (Elt F) → (⟨S6400000, .i32⟩ : BufTy).Contents (Elt F)),
    StableHlo.binary main_v1 main_v129 main_v130 (addi : (⟨S6400000, .i32⟩ : BufTy).Contents (Elt F) → (⟨S6400000, .i32⟩ : BufTy).Contents (Elt F) → (⟨S6400000, .i32⟩ : BufTy).Contents (Elt F)),
    StableHlo.ternary main_v128 main_v130 main_v1 main_v131 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v131 main_v132 (broadcastInDim S6400000x1 ![0] bcast_S6400000_S6400000x1_0 : (⟨S6400000, .i32⟩ : BufTy).Contents (Elt F) → (⟨S6400000x1, .i32⟩ : BufTy).Contents (Elt F)),
    StableHlo.binary main_v100 main_v132 main_v133 ((fun x i => Host.gather gather_S100000x32_S6400000x1_S6400000x32_1_0_n_n_0_1_132 x i) : (⟨S100000x32, .f32⟩ : BufTy).Contents (Elt F) → (⟨S6400000x1, .i32⟩ : BufTy).Contents (Elt F) → (⟨S6400000x32, .f32⟩ : BufTy).Contents (Elt F)),
    StableHlo.unary main_v126 main_v134 (broadcastInDim S6400000x32 ![0, 1] bcast_S6400000x1_S6400000x32_0_1 : (⟨S6400000x1, .f32⟩ : BufTy).Contents (Elt F) → (⟨S6400000x32, .f32⟩ : BufTy).Contents (Elt F)),
    StableHlo.binary main_v134 main_v133 main_v135 (mulf : (⟨S6400000x32, .f32⟩ : BufTy).Contents (Elt F) → (⟨S6400000x32, .f32⟩ : BufTy).Contents (Elt F) → (⟨S6400000x32, .f32⟩ : BufTy).Contents (Elt F)),
    StableHlo.nullary main_cst_30 (constant S_ .f32 0x00000000#32),
    StableHlo.unary main_cst_30 main_v136 (broadcastInDim S100000x32 ![] bcast_S_S100000x32 : (⟨S_, .f32⟩ : BufTy).Contents (Elt F) → (⟨S100000x32, .f32⟩ : BufTy).Contents (Elt F)),
    StableHlo.unary main_v3 main_v137 (broadcastInDim S6400000x1 ![0] bcast_S6400000_S6400000x1_0 : (⟨S6400000, .i32⟩ : BufTy).Contents (Elt F) → (⟨S6400000x1, .i32⟩ : BufTy).Contents (Elt F)),
    StableHlo.ternary main_v136 main_v137 main_v135 main_v138 ((fun x i u => Host.scatterAdd scatter_S100000x32_S6400000x1_S6400000x32_1_0_0_1 x i u) : (⟨S100000x32, .f32⟩ : BufTy).Contents (Elt F) → (⟨S6400000x1, .i32⟩ : BufTy).Contents (Elt F) → (⟨S6400000x32, .f32⟩ : BufTy).Contents (Elt F) → (⟨S100000x32, .f32⟩ : BufTy).Contents (Elt F)),
    StableHlo.binary main_v109 main_v109 main_v139 (mulf : (⟨S100000, .f32⟩ : BufTy).Contents (Elt F) → (⟨S100000, .f32⟩ : BufTy).Contents (Elt F) → (⟨S100000, .f32⟩ : BufTy).Contents (Elt F)),
    StableHlo.unary main_v139 main_v140 (broadcastInDim S100000x1 ![0] bcast_S100000_S100000x1_0 : (⟨S100000, .f32⟩ : BufTy).Contents (Elt F) → (⟨S100000x1, .f32⟩ : BufTy).Contents (Elt F)),
    StableHlo.unary main_v140 main_v141 (broadcastInDim S100000x32 ![0, 1] bcast_S100000x1_S100000x32_0_1 : (⟨S100000x1, .f32⟩ : BufTy).Contents (Elt F) → (⟨S100000x32, .f32⟩ : BufTy).Contents (Elt F)),
    StableHlo.binary main_v141 main_v100 main_v142 (mulf : (⟨S100000x32, .f32⟩ : BufTy).Contents (Elt F) → (⟨S100000x32, .f32⟩ : BufTy).Contents (Elt F) → (⟨S100000x32, .f32⟩ : BufTy).Contents (Elt F)),
    StableHlo.binary main_v138 main_v142 main_v143 (addf : (⟨S100000x32, .f32⟩ : BufTy).Contents (Elt F) → (⟨S100000x32, .f32⟩ : BufTy).Contents (Elt F) → (⟨S100000x32, .f32⟩ : BufTy).Contents (Elt F)),
    StableHlo.unary main_arg8 main_v144 (broadcastInDim S1x32 ![1] bcast_S32_S1x32_1 : (⟨S32, .f32⟩ : BufTy).Contents (Elt F) → (⟨S1x32, .f32⟩ : BufTy).Contents (Elt F)),
    StableHlo.unary main_v144 main_v145 (broadcastInDim S100000x32 ![0, 1] bcast_S1x32_S100000x32_0_1 : (⟨S1x32, .f32⟩ : BufTy).Contents (Elt F) → (⟨S100000x32, .f32⟩ : BufTy).Contents (Elt F)),
    StableHlo.binary main_v143 main_v145 main_v146 (addf : (⟨S100000x32, .f32⟩ : BufTy).Contents (Elt F) → (⟨S100000x32, .f32⟩ : BufTy).Contents (Elt F) → (⟨S100000x32, .f32⟩ : BufTy).Contents (Elt F)) ]

/-- @main's statements 181 … 186, the call in them listed in place. -/
abbrev win3 : List (HloOp τ sig (Elt F)) :=
  [ TRef.nullary main_call5.cst (constant S_ .f32 0x00000000#32),
    TRef.unary main_call5.cst main_call5.v0 (broadcastInDim S100000x32 ![] bcast_S_S100000x32),
    TRef.binary (.of main_v146 : TRef sig ⟨S100000x32, .f32⟩) main_call5.v0 main_call5.v1 (cmpf .ogt),
    TRef.nullary main_call5.cst_0 (constant S_ .f32 0x00000000#32),
    TRef.unary main_call5.cst_0 main_call5.v2 (broadcastInDim S100000x32 ![] bcast_S_S100000x32),
    TRef.binary (.of main_v146 : TRef sig ⟨S100000x32, .f32⟩) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S100000x32 ![] bcast_S_S100000x32),
    TRef.ternary main_call5.v3 main_call5.call0.v1 (.of main_v146 : TRef sig ⟨S100000x32, .f32⟩) main_call5.call0.v2 select,
    TRef.unary main_call5.call0.v2 main_call5.v5 Host.expm1,
    TRef.nullary main_call5.cst_2 (constant S_ .f32 0x3F800000#32),
    TRef.unary main_call5.cst_2 main_call5.v6 (broadcastInDim S100000x32 ![] bcast_S_S100000x32),
    TRef.binary main_call5.v6 main_call5.v5 main_call5.v7 mulf,
    TRef.ternary main_call5.v1 (.of main_v146 : TRef sig ⟨S100000x32, .f32⟩) main_call5.v7 main_call5.call1.v0 select,
    StableHlo.binary main_v147 main_arg9 main_v148 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg10 main_v149 (broadcastInDim S1x16 ![1] bcast_S16_S1x16_1 : (⟨S16, .f32⟩ : BufTy).Contents (Elt F) → (⟨S1x16, .f32⟩ : BufTy).Contents (Elt F)),
    StableHlo.unary main_v149 main_v150 (broadcastInDim S100000x16 ![0, 1] bcast_S1x16_S100000x16_0_1 : (⟨S1x16, .f32⟩ : BufTy).Contents (Elt F) → (⟨S100000x16, .f32⟩ : BufTy).Contents (Elt F)),
    StableHlo.binary main_v148 main_v150 main_v151 (addf : (⟨S100000x16, .f32⟩ : BufTy).Contents (Elt F) → (⟨S100000x16, .f32⟩ : BufTy).Contents (Elt F) → (⟨S100000x16, .f32⟩ : BufTy).Contents (Elt F)) ]

set_option maxRecDepth 4096 in
theorem part0_eq (c : Dev nD) : main_part0 (F := F) c = seq win0 := by
  simp only [main_part0, fn_where.body, fn_where_0.body, fn_where_1.body, fn_elu.body, fn_where_3.body, fn_where_4.body, fn_elu_2.body, seq, bind_assoc, pure_bind]
  rfl

set_option maxRecDepth 4096 in
theorem part1_eq (c : Dev nD) : main_part1 (F := F) c = seq win1 := by
  simp only [main_part1, fn_where.body, fn_where_0.body, fn_where_1.body, fn_elu.body, fn_where_3.body, fn_where_4.body, fn_elu_2.body, seq, bind_assoc, pure_bind]
  rfl

set_option maxRecDepth 4096 in
theorem part2_eq (c : Dev nD) : main_part2 (F := F) c = seq win2 := by
  simp only [main_part2, fn_where.body, fn_where_0.body, fn_where_1.body, fn_elu.body, fn_where_3.body, fn_where_4.body, fn_elu_2.body, seq, bind_assoc, pure_bind]
  rfl

set_option maxRecDepth 4096 in
theorem part3_eq (c : Dev nD) : main_part3 (F := F) c = seq win3 := by
  simp only [main_part3, fn_where.body, fn_where_0.body, fn_where_1.body, fn_elu.body, fn_where_3.body, fn_where_4.body, fn_elu_2.body, seq, bind_assoc, pure_bind]

/-- The windows' operations in order are the layers' in order: one list, cut two ways. -/
theorem wins_eq : (win0 ++ (win1 ++ (win2 ++ win3)) : List (HloOp τ sig (Elt F))) = ops := rfl

/-- @main is the straight line of its operations. -/
theorem main_eq (c : Dev nD) : main (F := F) c = seq ops := by
  rw [← wins_eq, seq_append, seq_append, seq_append, ← part0_eq c, ← part1_eq c, ← part2_eq c, ← part3_eq c]
  rfl

end Cert.RefSide

end
-- ==== Proof.RefValue.lean ====
/-
  What the reference's operations leave in the buffers, stretch by stretch.
  Each stretch writes its own values' buffers and no other: an argument, and a value of an earlier stretch that a later
  one reads, is still there after it. After the first four operations the edge table's rows are in %1 and %3; after a
  layer's operations its output buffer holds the layer function of the specification applied to the rows, the edge
  weights, the product of the layer's input with its weight matrix, and its bias; after the last four the result buffer
  holds the last product plus its bias row. Composed in order: the result buffer ends at the specification's function
  of the eleven arguments, and the arguments are unchanged.
-/
import proofs.«142261_j89635967467582_2_alg».proof.Proof.RefOps
import proofs.«142261_j89635967467582_2_alg».proof.Proof.Spec

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- An operation that writes one buffer, a reference in the list `W`, writes inside `W`. -/
theorem wsub {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The buffers the operations of `pro` write. -/
abbrev pro_W : List (Ref sig .tc) :=
  [ main_v0, main_v1, main_v2, main_v3 ]

theorem pro_wsub : (pro : List (HloOp τ sig (Elt F))).Forall fun op => op.writes ⊆ ((pro_W).map (Proc.devRef (τ := τ) .tc)).toFinset :=
  ⟨wsub main_v0 rfl (by decide),
    wsub main_v1 rfl (by decide),
    wsub main_v2 rfl (by decide),
    wsub main_v3 rfl (by decide)⟩

/-- A buffer `pro` does not write keeps its contents. -/
theorem pro_keep {r : Ref sig .tc} (hr : r ∉ pro_W) (V : Valuation τ sig (Elt F)) :
    after pro V (r : DevRef τ sig) = V (r : DevRef τ sig) :=
  after_of_writes_sub pro V pro_wsub hr

/-- The buffers the operations of `lay1` write. -/
abbrev lay1_W : List (Ref sig .tc) :=
  [ main_v4, main_cst, main_v5, main_v6, main_v7, main_cst_0, main_v8, main_v9, main_cst_1, main_v10, main_v11, main_v12, main_cst_2, main_call0.v0.ref, main_call0.v1.ref, main_call0.v2.ref, main_c, main_v14, main_v15, main_c_3, main_v16, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_cst_8, main_v40, main_v41, main_v42, main_v43, main_v44, main_v45, main_v46, main_v47, main_v48, main_v49, main_v50, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref ]

theorem lay1_wsub : (lay1 : List (HloOp τ sig (Elt F))).Forall fun op => op.writes ⊆ ((lay1_W).map (Proc.devRef (τ := τ) .tc)).toFinset :=
  ⟨wsub main_v4 rfl (by decide),
    wsub main_cst rfl (by decide),
    wsub main_v5 rfl (by decide),
    wsub main_v6 rfl (by decide),
    wsub main_v7 rfl (by decide),
    wsub main_cst_0 rfl (by decide),
    wsub main_v8 rfl (by decide),
    wsub main_v9 rfl (by decide),
    wsub main_cst_1 rfl (by decide),
    wsub main_v10 rfl (by decide),
    wsub main_v11 rfl (by decide),
    wsub main_v12 rfl (by decide),
    wsub main_cst_2 rfl (by decide),
    wsub main_call0.v0.ref rfl (by decide),
    wsub main_call0.v1.ref rfl (by decide),
    wsub main_call0.v2.ref rfl (by decide),
    wsub main_c rfl (by decide),
    wsub main_v14 rfl (by decide),
    wsub main_v15 rfl (by decide),
    wsub main_c_3 rfl (by decide),
    wsub main_v16 rfl (by decide),
    wsub main_v17 rfl (by decide),
    wsub main_v18 rfl (by decide),
    wsub main_v19 rfl (by decide),
    wsub main_v20 rfl (by decide),
    wsub main_v21 rfl (by decide),
    wsub main_c_4 rfl (by decide),
    wsub main_v22 rfl (by decide),
    wsub main_v23 rfl (by decide),
    wsub main_c_5 rfl (by decide),
    wsub main_v24 rfl (by decide),
    wsub main_v25 rfl (by decide),
    wsub main_v26 rfl (by decide),
    wsub main_v27 rfl (by decide),
    wsub main_v28 rfl (by decide),
    wsub main_v29 rfl (by decide),
    wsub main_v30 rfl (by decide),
    wsub main_c_6 rfl (by decide),
    wsub main_v31 rfl (by decide),
    wsub main_v32 rfl (by decide),
    wsub main_c_7 rfl (by decide),
    wsub main_v33 rfl (by decide),
    wsub main_v34 rfl (by decide),
    wsub main_v35 rfl (by decide),
    wsub main_v36 rfl (by decide),
    wsub main_v37 rfl (by decide),
    wsub main_v38 rfl (by decide),
    wsub main_v39 rfl (by decide),
    wsub main_cst_8 rfl (by decide),
    wsub main_v40 rfl (by decide),
    wsub main_v41 rfl (by decide),
    wsub main_v42 rfl (by decide),
    wsub main_v43 rfl (by decide),
    wsub main_v44 rfl (by decide),
    wsub main_v45 rfl (by decide),
    wsub main_v46 rfl (by decide),
    wsub main_v47 rfl (by decide),
    wsub main_v48 rfl (by decide),
    wsub main_v49 rfl (by decide),
    wsub main_v50 rfl (by decide),
    wsub main_call1.cst.ref rfl (by decide),
    wsub main_call1.v0.ref rfl (by decide),
    wsub main_call1.v1.ref rfl (by decide),
    wsub main_call1.cst_0.ref rfl (by decide),
    wsub main_call1.v2.ref rfl (by decide),
    wsub main_call1.v3.ref rfl (by decide),
    wsub main_call1.cst_1.ref rfl (by decide),
    wsub main_call1.call0.v0.ref rfl (by decide),
    wsub main_call1.call0.v1.ref rfl (by decide),
    wsub main_call1.call0.v2.ref rfl (by decide),
    wsub main_call1.v5.ref rfl (by decide),
    wsub main_call1.cst_2.ref rfl (by decide),
    wsub main_call1.v6.ref rfl (by decide),
    wsub main_call1.v7.ref rfl (by decide),
    wsub main_call1.call1.v0.ref rfl (by decide)⟩

/-- A buffer `lay1` does not write keeps its contents. -/
theorem lay1_keep {r : Ref sig .tc} (hr : r ∉ lay1_W) (V : Valuation τ sig (Elt F)) :
    after lay1 V (r : DevRef τ sig) = V (r : DevRef τ sig) :=
  after_of_writes_sub lay1 V lay1_wsub hr

/-- The buffers the operations of `lay2` write. -/
abbrev lay2_W : List (Ref sig .tc) :=
  [ main_v52, main_cst_9, main_v53, main_v54, main_v55, main_cst_10, main_v56, main_v57, main_cst_11, main_v58, main_v59, main_v60, main_cst_12, main_call2.v0.ref, main_call2.v1.ref, main_call2.v2.ref, main_c_13, main_v62, main_v63, main_c_14, main_v64, main_v65, main_v66, main_v67, main_v68, main_v69, main_c_15, main_v70, main_v71, main_c_16, main_v72, main_v73, main_v74, main_v75, main_v76, main_v77, main_v78, main_c_17, main_v79, main_v80, main_c_18, main_v81, main_v82, main_v83, main_v84, main_v85, main_v86, main_v87, main_cst_19, main_v88, main_v89, main_v90, main_v91, main_v92, main_v93, main_v94, main_v95, main_v96, main_v97, main_v98, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref ]

theorem lay2_wsub : (lay2 : List (HloOp τ sig (Elt F))).Forall fun op => op.writes ⊆ ((lay2_W).map (Proc.devRef (τ := τ) .tc)).toFinset :=
  ⟨wsub main_v52 rfl (by decide),
    wsub main_cst_9 rfl (by decide),
    wsub main_v53 rfl (by decide),
    wsub main_v54 rfl (by decide),
    wsub main_v55 rfl (by decide),
    wsub main_cst_10 rfl (by decide),
    wsub main_v56 rfl (by decide),
    wsub main_v57 rfl (by decide),
    wsub main_cst_11 rfl (by decide),
    wsub main_v58 rfl (by decide),
    wsub main_v59 rfl (by decide),
    wsub main_v60 rfl (by decide),
    wsub main_cst_12 rfl (by decide),
    wsub main_call2.v0.ref rfl (by decide),
    wsub main_call2.v1.ref rfl (by decide),
    wsub main_call2.v2.ref rfl (by decide),
    wsub main_c_13 rfl (by decide),
    wsub main_v62 rfl (by decide),
    wsub main_v63 rfl (by decide),
    wsub main_c_14 rfl (by decide),
    wsub main_v64 rfl (by decide),
    wsub main_v65 rfl (by decide),
    wsub main_v66 rfl (by decide),
    wsub main_v67 rfl (by decide),
    wsub main_v68 rfl (by decide),
    wsub main_v69 rfl (by decide),
    wsub main_c_15 rfl (by decide),
    wsub main_v70 rfl (by decide),
    wsub main_v71 rfl (by decide),
    wsub main_c_16 rfl (by decide),
    wsub main_v72 rfl (by decide),
    wsub main_v73 rfl (by decide),
    wsub main_v74 rfl (by decide),
    wsub main_v75 rfl (by decide),
    wsub main_v76 rfl (by decide),
    wsub main_v77 rfl (by decide),
    wsub main_v78 rfl (by decide),
    wsub main_c_17 rfl (by decide),
    wsub main_v79 rfl (by decide),
    wsub main_v80 rfl (by decide),
    wsub main_c_18 rfl (by decide),
    wsub main_v81 rfl (by decide),
    wsub main_v82 rfl (by decide),
    wsub main_v83 rfl (by decide),
    wsub main_v84 rfl (by decide),
    wsub main_v85 rfl (by decide),
    wsub main_v86 rfl (by decide),
    wsub main_v87 rfl (by decide),
    wsub main_cst_19 rfl (by decide),
    wsub main_v88 rfl (by decide),
    wsub main_v89 rfl (by decide),
    wsub main_v90 rfl (by decide),
    wsub main_v91 rfl (by decide),
    wsub main_v92 rfl (by decide),
    wsub main_v93 rfl (by decide),
    wsub main_v94 rfl (by decide),
    wsub main_v95 rfl (by decide),
    wsub main_v96 rfl (by decide),
    wsub main_v97 rfl (by decide),
    wsub main_v98 rfl (by decide),
    wsub main_call3.cst.ref rfl (by decide),
    wsub main_call3.v0.ref rfl (by decide),
    wsub main_call3.v1.ref rfl (by decide),
    wsub main_call3.cst_0.ref rfl (by decide),
    wsub main_call3.v2.ref rfl (by decide),
    wsub main_call3.v3.ref rfl (by decide),
    wsub main_call3.cst_1.ref rfl (by decide),
    wsub main_call3.call0.v0.ref rfl (by decide),
    wsub main_call3.call0.v1.ref rfl (by decide),
    wsub main_call3.call0.v2.ref rfl (by decide),
    wsub main_call3.v5.ref rfl (by decide),
    wsub main_call3.cst_2.ref rfl (by decide),
    wsub main_call3.v6.ref rfl (by decide),
    wsub main_call3.v7.ref rfl (by decide),
    wsub main_call3.call1.v0.ref rfl (by decide)⟩

/-- A buffer `lay2` does not write keeps its contents. -/
theorem lay2_keep {r : Ref sig .tc} (hr : r ∉ lay2_W) (V : Valuation τ sig (Elt F)) :
    after lay2 V (r : DevRef τ sig) = V (r : DevRef τ sig) :=
  after_of_writes_sub lay2 V lay2_wsub hr

/-- The buffers the operations of `lay3` write. -/
abbrev lay3_W : List (Ref sig .tc) :=
  [ main_v100, main_cst_20, main_v101, main_v102, main_v103, main_cst_21, main_v104, main_v105, main_cst_22, main_v106, main_v107, main_v108, main_cst_23, main_call4.v0.ref, main_call4.v1.ref, main_call4.v2.ref, main_c_24, main_v110, main_v111, main_c_25, main_v112, main_v113, main_v114, main_v115, main_v116, main_v117, main_c_26, main_v118, main_v119, main_c_27, main_v120, main_v121, main_v122, main_v123, main_v124, main_v125, main_v126, main_c_28, main_v127, main_v128, main_c_29, main_v129, main_v130, main_v131, main_v132, main_v133, main_v134, main_v135, main_cst_30, main_v136, main_v137, main_v138, main_v139, main_v140, main_v141, main_v142, main_v143, main_v144, main_v145, main_v146, main_call5.cst.ref, main_call5.v0.ref, main_call5.v1.ref, main_call5.cst_0.ref, main_call5.v2.ref, main_call5.v3.ref, main_call5.cst_1.ref, main_call5.call0.v0.ref, main_call5.call0.v1.ref, main_call5.call0.v2.ref, main_call5.v5.ref, main_call5.cst_2.ref, main_call5.v6.ref, main_call5.v7.ref, main_call5.call1.v0.ref ]

theorem lay3_wsub : (lay3 : List (HloOp τ sig (Elt F))).Forall fun op => op.writes ⊆ ((lay3_W).map (Proc.devRef (τ := τ) .tc)).toFinset :=
  ⟨wsub main_v100 rfl (by decide),
    wsub main_cst_20 rfl (by decide),
    wsub main_v101 rfl (by decide),
    wsub main_v102 rfl (by decide),
    wsub main_v103 rfl (by decide),
    wsub main_cst_21 rfl (by decide),
    wsub main_v104 rfl (by decide),
    wsub main_v105 rfl (by decide),
    wsub main_cst_22 rfl (by decide),
    wsub main_v106 rfl (by decide),
    wsub main_v107 rfl (by decide),
    wsub main_v108 rfl (by decide),
    wsub main_cst_23 rfl (by decide),
    wsub main_call4.v0.ref rfl (by decide),
    wsub main_call4.v1.ref rfl (by decide),
    wsub main_call4.v2.ref rfl (by decide),
    wsub main_c_24 rfl (by decide),
    wsub main_v110 rfl (by decide),
    wsub main_v111 rfl (by decide),
    wsub main_c_25 rfl (by decide),
    wsub main_v112 rfl (by decide),
    wsub main_v113 rfl (by decide),
    wsub main_v114 rfl (by decide),
    wsub main_v115 rfl (by decide),
    wsub main_v116 rfl (by decide),
    wsub main_v117 rfl (by decide),
    wsub main_c_26 rfl (by decide),
    wsub main_v118 rfl (by decide),
    wsub main_v119 rfl (by decide),
    wsub main_c_27 rfl (by decide),
    wsub main_v120 rfl (by decide),
    wsub main_v121 rfl (by decide),
    wsub main_v122 rfl (by decide),
    wsub main_v123 rfl (by decide),
    wsub main_v124 rfl (by decide),
    wsub main_v125 rfl (by decide),
    wsub main_v126 rfl (by decide),
    wsub main_c_28 rfl (by decide),
    wsub main_v127 rfl (by decide),
    wsub main_v128 rfl (by decide),
    wsub main_c_29 rfl (by decide),
    wsub main_v129 rfl (by decide),
    wsub main_v130 rfl (by decide),
    wsub main_v131 rfl (by decide),
    wsub main_v132 rfl (by decide),
    wsub main_v133 rfl (by decide),
    wsub main_v134 rfl (by decide),
    wsub main_v135 rfl (by decide),
    wsub main_cst_30 rfl (by decide),
    wsub main_v136 rfl (by decide),
    wsub main_v137 rfl (by decide),
    wsub main_v138 rfl (by decide),
    wsub main_v139 rfl (by decide),
    wsub main_v140 rfl (by decide),
    wsub main_v141 rfl (by decide),
    wsub main_v142 rfl (by decide),
    wsub main_v143 rfl (by decide),
    wsub main_v144 rfl (by decide),
    wsub main_v145 rfl (by decide),
    wsub main_v146 rfl (by decide),
    wsub main_call5.cst.ref rfl (by decide),
    wsub main_call5.v0.ref rfl (by decide),
    wsub main_call5.v1.ref rfl (by decide),
    wsub main_call5.cst_0.ref rfl (by decide),
    wsub main_call5.v2.ref rfl (by decide),
    wsub main_call5.v3.ref rfl (by decide),
    wsub main_call5.cst_1.ref rfl (by decide),
    wsub main_call5.call0.v0.ref rfl (by decide),
    wsub main_call5.call0.v1.ref rfl (by decide),
    wsub main_call5.call0.v2.ref rfl (by decide),
    wsub main_call5.v5.ref rfl (by decide),
    wsub main_call5.cst_2.ref rfl (by decide),
    wsub main_call5.v6.ref rfl (by decide),
    wsub main_call5.v7.ref rfl (by decide),
    wsub main_call5.call1.v0.ref rfl (by decide)⟩

/-- A buffer `lay3` does not write keeps its contents. -/
theorem lay3_keep {r : Ref sig .tc} (hr : r ∉ lay3_W) (V : Valuation τ sig (Elt F)) :
    after lay3 V (r : DevRef τ sig) = V (r : DevRef τ sig) :=
  after_of_writes_sub lay3 V lay3_wsub hr

/-- The buffers the operations of `hd` write. -/
abbrev hd_W : List (Ref sig .tc) :=
  [ main_v148, main_v149, main_v150, main_v151 ]

theorem hd_wsub : (hd : List (HloOp τ sig (Elt F))).Forall fun op => op.writes ⊆ ((hd_W).map (Proc.devRef (τ := τ) .tc)).toFinset :=
  ⟨wsub main_v148 rfl (by decide),
    wsub main_v149 rfl (by decide),
    wsub main_v150 rfl (by decide),
    wsub main_v151 rfl (by decide)⟩

/-- A buffer `hd` does not write keeps its contents. -/
theorem hd_keep {r : Ref sig .tc} (hr : r ∉ hd_W) (V : Valuation τ sig (Elt F)) :
    after hd V (r : DevRef τ sig) = V (r : DevRef τ sig) :=
  after_of_writes_sub hd V hd_wsub hr

/-! ## The values -/

theorem pro_v1 (V : Valuation τ sig (Elt F)) :
    after pro V (main_v1 : DevRef τ sig) = Spec.src (V (main_arg1 : DevRef τ sig)) := by
  conv_lhs => simp (disch := decide) only [after_cons, after_nil, nullary_result', unary_result', binary_result', ternary_result',
    reshape_result', nullary_result_ne', unary_result_ne', binary_result_ne', ternary_result_ne', reshape_result_ne']
  rfl

theorem pro_v3 (V : Valuation τ sig (Elt F)) :
    after pro V (main_v3 : DevRef τ sig) = Spec.dst (V (main_arg1 : DevRef τ sig)) := by
  conv_lhs => simp (disch := decide) only [after_cons, after_nil, nullary_result', unary_result', binary_result', ternary_result',
    reshape_result', nullary_result_ne', unary_result_ne', binary_result_ne', ternary_result_ne', reshape_result_ne']
  rfl

attribute [local irreducible] Host.gather Host.scatterAdd Host.rsqrt Host.expm1 in
set_option maxRecDepth 8192 in
/-- After the layer's operations its output buffer holds the layer function, over the rows as %1 and %3 hold them. -/
theorem lay1_val (V : Valuation τ sig (Elt F)) :
    after lay1 V (main_v51 : DevRef τ sig)
      = Spec.elu16 (Spec.pre16
          (Spec.agg16 (V (main_v1 : DevRef τ sig)) (V (main_v3 : DevRef τ sig)) (Spec.norm (V (main_v1 : DevRef τ sig)) (V (main_v3 : DevRef τ sig)) (V (main_arg2 : DevRef τ sig)))
            (Spec.dot0 (V (main_arg0 : DevRef τ sig)) (V (main_arg3 : DevRef τ sig))))
          (Spec.dot0 (V (main_arg0 : DevRef τ sig)) (V (main_arg3 : DevRef τ sig))) (Spec.dinv (V (main_v3 : DevRef τ sig)) (V (main_arg2 : DevRef τ sig))) (V (main_arg4 : DevRef τ sig))) := by
  conv_lhs => simp (disch := decide) only [after_cons, after_nil, nullary_result', unary_result', binary_result', ternary_result',
    reshape_result', nullary_result_ne', unary_result_ne', binary_result_ne', ternary_result_ne', reshape_result_ne']
  rfl

attribute [local irreducible] Host.gather Host.scatterAdd Host.rsqrt Host.expm1 in
set_option maxRecDepth 8192 in
/-- After the layer's operations its output buffer holds the layer function, over the rows as %1 and %3 hold them. -/
theorem lay2_val (V : Valuation τ sig (Elt F)) :
    after lay2 V (main_v99 : DevRef τ sig)
      = Spec.elu32 (Spec.pre32
          (Spec.agg32 (V (main_v1 : DevRef τ sig)) (V (main_v3 : DevRef τ sig)) (Spec.norm (V (main_v1 : DevRef τ sig)) (V (main_v3 : DevRef τ sig)) (V (main_arg2 : DevRef τ sig)))
            (Spec.dot1 (V (main_v51 : DevRef τ sig)) (V (main_arg5 : DevRef τ sig))))
          (Spec.dot1 (V (main_v51 : DevRef τ sig)) (V (main_arg5 : DevRef τ sig))) (Spec.dinv (V (main_v3 : DevRef τ sig)) (V (main_arg2 : DevRef τ sig))) (V (main_arg6 : DevRef τ sig))) := by
  conv_lhs => simp (disch := decide) only [after_cons, after_nil, nullary_result', unary_result', binary_result', ternary_result',
    reshape_result', nullary_result_ne', unary_result_ne', binary_result_ne', ternary_result_ne', reshape_result_ne']
  rfl

attribute [local irreducible] Host.gather Host.scatterAdd Host.rsqrt Host.expm1 in
set_option maxRecDepth 8192 in
/-- After the layer's operations its output buffer holds the layer function, over the rows as %1 and %3 hold them. -/
theorem lay3_val (V : Valuation τ sig (Elt F)) :
    after lay3 V (main_v147 : DevRef τ sig)
      = Spec.elu32 (Spec.pre32
          (Spec.agg32 (V (main_v1 : DevRef τ sig)) (V (main_v3 : DevRef τ sig)) (Spec.norm (V (main_v1 : DevRef τ sig)) (V (main_v3 : DevRef τ sig)) (V (main_arg2 : DevRef τ sig)))
            (Spec.dot2 (V (main_v99 : DevRef τ sig)) (V (main_arg7 : DevRef τ sig))))
          (Spec.dot2 (V (main_v99 : DevRef τ sig)) (V (main_arg7 : DevRef τ sig))) (Spec.dinv (V (main_v3 : DevRef τ sig)) (V (main_arg2 : DevRef τ sig))) (V (main_arg8 : DevRef τ sig))) := by
  conv_lhs => simp (disch := decide) only [after_cons, after_nil, nullary_result', unary_result', binary_result', ternary_result',
    reshape_result', nullary_result_ne', unary_result_ne', binary_result_ne', ternary_result_ne', reshape_result_ne']
  rfl

theorem hd_val (V : Valuation τ sig (Elt F)) :
    after hd V (main_v151 : DevRef τ sig) = Spec.head (V (main_v147 : DevRef τ sig)) (V (main_arg9 : DevRef τ sig)) (V (main_arg10 : DevRef τ sig)) := by
  conv_lhs => simp (disch := decide) only [after_cons, after_nil, nullary_result', unary_result', binary_result', ternary_result',
    reshape_result', nullary_result_ne', unary_result_ne', binary_result_ne', ternary_result_ne', reshape_result_ne']
  rfl

/-- The same from what the buffers the layer reads hold: the edge table `e` and its rows, the weights `w`, the
    layer's input `x`, its weight matrix `W` and its bias `b`. -/
theorem lay1_out (V : Valuation τ sig (Elt F)) {e : Spec.Arr F S2x6400000 .i32} {w : Spec.Arr F S6400000 .f32}
    {x : Spec.Arr F S100000x256 .f32} {W : Spec.Arr F S256x16 .f32} {b : Spec.Arr F S16 .f32}
    (he : V (main_arg1 : DevRef τ sig) = e) (hw : V (main_arg2 : DevRef τ sig) = w) (hx : V (main_arg0 : DevRef τ sig) = x)
    (hW : V (main_arg3 : DevRef τ sig) = W) (hb : V (main_arg4 : DevRef τ sig) = b)
    (hs : V (main_v1 : DevRef τ sig) = Spec.src e) (hd : V (main_v3 : DevRef τ sig) = Spec.dst e) :
    after lay1 V (main_v51 : DevRef τ sig) = Spec.layer16 e w (Spec.dot0 x W) b := by
  subst he hw hx hW hb
  rw [lay1_val, hs, hd]
  rfl

/-- The same from what the buffers the layer reads hold: the edge table `e` and its rows, the weights `w`, the
    layer's input `x`, its weight matrix `W` and its bias `b`. -/
theorem lay2_out (V : Valuation τ sig (Elt F)) {e : Spec.Arr F S2x6400000 .i32} {w : Spec.Arr F S6400000 .f32}
    {x : Spec.Arr F S100000x16 .f32} {W : Spec.Arr F S16x32 .f32} {b : Spec.Arr F S32 .f32}
    (he : V (main_arg1 : DevRef τ sig) = e) (hw : V (main_arg2 : DevRef τ sig) = w) (hx : V (main_v51 : DevRef τ sig) = x)
    (hW : V (main_arg5 : DevRef τ sig) = W) (hb : V (main_arg6 : DevRef τ sig) = b)
    (hs : V (main_v1 : DevRef τ sig) = Spec.src e) (hd : V (main_v3 : DevRef τ sig) = Spec.dst e) :
    after lay2 V (main_v99 : DevRef τ sig) = Spec.layer32 e w (Spec.dot1 x W) b := by
  subst he hw hx hW hb
  rw [lay2_val, hs, hd]
  rfl

/-- The same from what the buffers the layer reads hold: the edge table `e` and its rows, the weights `w`, the
    layer's input `x`, its weight matrix `W` and its bias `b`. -/
theorem lay3_out (V : Valuation τ sig (Elt F)) {e : Spec.Arr F S2x6400000 .i32} {w : Spec.Arr F S6400000 .f32}
    {x : Spec.Arr F S100000x32 .f32} {W : Spec.Arr F S32x32 .f32} {b : Spec.Arr F S32 .f32}
    (he : V (main_arg1 : DevRef τ sig) = e) (hw : V (main_arg2 : DevRef τ sig) = w) (hx : V (main_v99 : DevRef τ sig) = x)
    (hW : V (main_arg7 : DevRef τ sig) = W) (hb : V (main_arg8 : DevRef τ sig) = b)
    (hs : V (main_v1 : DevRef τ sig) = Spec.src e) (hd : V (main_v3 : DevRef τ sig) = Spec.dst e) :
    after lay3 V (main_v147 : DevRef τ sig) = Spec.layer32 e w (Spec.dot2 x W) b := by
  subst he hw hx hW hb
  rw [lay3_val, hs, hd]
  rfl

theorem hd_out (V : Valuation τ sig (Elt F)) {h : Spec.Arr F S100000x32 .f32} {Wm : Spec.Arr F S32x16 .f32} {bm : Spec.Arr F S16 .f32}
    (hh : V (main_v147 : DevRef τ sig) = h) (hW : V (main_arg9 : DevRef τ sig) = Wm) (hb : V (main_arg10 : DevRef τ sig) = bm) :
    after hd V (main_v151 : DevRef τ sig) = Spec.head h Wm bm := by
  subst hh hW hb
  exact hd_val V

end Cert.RefSide

end
-- ==== Proof.RefRun.lean ====
/-
  The reference's run: from any memory with zero counters every weakly fair execution of @main terminates, the result
  buffer ends at the specification's function of the eleven argument arrays as the launch holds them, and the
  arguments end unchanged. The run of a straight line of host operations leaves every buffer at the fold of the
  operations over the launch contents; the fold is taken stretch by stretch — rows, three layers, last product — each
  stretch's value lemma fed with what the earlier stretches left.
-/
import proofs.«142261_j89635967467582_2_alg».proof.Proof.RefMain
import proofs.«142261_j89635967467582_2_alg».proof.Proof.RefValue

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

theorem scopedRefs_eq : (Finset.univ.filter fun b : Ref sig .tc => b.isScoped) = ∅ := by decide
theorem scopedSems_eq : (Finset.univ.filter fun sm : SemLoc sig => sm.isScoped .tc) = ∅ := by decide

/-- The fold of all the operations is the stretches' folds in turn. -/
theorem after_ops (V : Valuation τ sig (Elt F)) :
    after ops V = after hd (after lay3 (after lay2 (after lay1 (after pro V)))) := by
  simp only [ops, after_append]

/-- A buffer no stretch writes ends as it began. -/
theorem ops_keep {r : Ref sig .tc} (h0 : r ∉ pro_W) (h1 : r ∉ lay1_W) (h2 : r ∉ lay2_W) (h3 : r ∉ lay3_W) (h4 : r ∉ hd_W)
    (V : Valuation τ sig (Elt F)) : after ops V (r : DevRef τ sig) = V (r : DevRef τ sig) := by
  rw [after_ops, hd_keep h4, lay3_keep h3, lay2_keep h2, lay1_keep h1, pro_keep h0]

/-- The result buffer ends at the specification's function of the arguments. -/
theorem ops_out (V : Valuation τ sig (Elt F)) :
    after ops V (main_v151 : DevRef τ sig)
      = Spec.G (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops]
  have k1 : ∀ {r : Ref sig .tc}, r ∉ pro_W → after pro V (r : DevRef τ sig) = V (r : DevRef τ sig) := fun h0 => pro_keep h0 V
  have k2 : ∀ {r : Ref sig .tc}, r ∉ pro_W → r ∉ lay1_W → after lay1 (after pro V) (r : DevRef τ sig) = V (r : DevRef τ sig) :=
    fun h0 h1 => (lay1_keep h1 _).trans (k1 h0)
  have k3 : ∀ {r : Ref sig .tc}, r ∉ pro_W → r ∉ lay1_W → r ∉ lay2_W →
      after lay2 (after lay1 (after pro V)) (r : DevRef τ sig) = V (r : DevRef τ sig) :=
    fun h0 h1 h2 => (lay2_keep h2 _).trans (k2 h0 h1)
  have k4 : ∀ {r : Ref sig .tc}, r ∉ pro_W → r ∉ lay1_W → r ∉ lay2_W → r ∉ lay3_W →
      after lay3 (after lay2 (after lay1 (after pro V))) (r : DevRef τ sig) = V (r : DevRef τ sig) :=
    fun h0 h1 h2 h3 => (lay3_keep h3 _).trans (k3 h0 h1 h2)
  have s1 := pro_v1 V
  have d1 := pro_v3 V
  have s2 := (lay1_keep (by decide : main_v1 ∉ lay1_W) (after pro V)).trans s1
  have d2 := (lay1_keep (by decide : main_v3 ∉ lay1_W) (after pro V)).trans d1
  have s3 := (lay2_keep (by decide : main_v1 ∉ lay2_W) (after lay1 (after pro V))).trans s2
  have d3 := (lay2_keep (by decide : main_v3 ∉ lay2_W) (after lay1 (after pro V))).trans d2
  have o2 := lay1_out (after pro V) (k1 (by decide : main_arg1 ∉ pro_W)) (k1 (by decide : main_arg2 ∉ pro_W)) (k1 (by decide : main_arg0 ∉ pro_W))
    (k1 (by decide : main_arg3 ∉ pro_W)) (k1 (by decide : main_arg4 ∉ pro_W)) s1 d1
  have o3 := lay2_out (after lay1 (after pro V)) (k2 (by decide : main_arg1 ∉ pro_W) (by decide : main_arg1 ∉ lay1_W)) (k2 (by decide : main_arg2 ∉ pro_W) (by decide : main_arg2 ∉ lay1_W)) o2
    (k2 (by decide : main_arg5 ∉ pro_W) (by decide : main_arg5 ∉ lay1_W)) (k2 (by decide : main_arg6 ∉ pro_W) (by decide : main_arg6 ∉ lay1_W)) s2 d2
  have o4 := lay3_out (after lay2 (after lay1 (after pro V))) (k3 (by decide : main_arg1 ∉ pro_W) (by decide : main_arg1 ∉ lay1_W) (by decide : main_arg1 ∉ lay2_W))
    (k3 (by decide : main_arg2 ∉ pro_W) (by decide : main_arg2 ∉ lay1_W) (by decide : main_arg2 ∉ lay2_W)) o3
    (k3 (by decide : main_arg7 ∉ pro_W) (by decide : main_arg7 ∉ lay1_W) (by decide : main_arg7 ∉ lay2_W)) (k3 (by decide : main_arg8 ∉ pro_W) (by decide : main_arg8 ∉ lay1_W) (by decide : main_arg8 ∉ lay2_W)) s3 d3
  exact hd_out _ o4 (k4 (by decide : main_arg9 ∉ pro_W) (by decide : main_arg9 ∉ lay1_W) (by decide : main_arg9 ∉ lay2_W) (by decide : main_arg9 ∉ lay3_W)) (k4 (by decide : main_arg10 ∉ pro_W) (by decide : main_arg10 ∉ lay1_W) (by decide : main_arg10 ∉ lay2_W) (by decide : main_arg10 ∉ lay3_W))

/-- On every device, for any float values, from any memory with zero counters: every weakly fair execution of @main
    terminates with the result buffer at the specification's function of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v151)
        = Spec.G (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v151).trans (ops_out _),
      (h c main_arg0).trans (ops_keep (by decide) (by decide) (by decide) (by decide) (by decide) _),
      (h c main_arg1).trans (ops_keep (by decide) (by decide) (by decide) (by decide) (by decide) _),
      (h c main_arg2).trans (ops_keep (by decide) (by decide) (by decide) (by decide) (by decide) _),
      (h c main_arg3).trans (ops_keep (by decide) (by decide) (by decide) (by decide) (by decide) _),
      (h c main_arg4).trans (ops_keep (by decide) (by decide) (by decide) (by decide) (by decide) _),
      (h c main_arg5).trans (ops_keep (by decide) (by decide) (by decide) (by decide) (by decide) _),
      (h c main_arg6).trans (ops_keep (by decide) (by decide) (by decide) (by decide) (by decide) _),
      (h c main_arg7).trans (ops_keep (by decide) (by decide) (by decide) (by decide) (by decide) _),
      (h c main_arg8).trans (ops_keep (by decide) (by decide) (by decide) (by decide) (by decide) _),
      (h c main_arg9).trans (ops_keep (by decide) (by decide) (by decide) (by decide) (by decide) _),
      (h c main_arg10).trans (ops_keep (by decide) (by decide) (by decide) (by decide) (by decide) _)⟩)
    (run_seq scopedRefs_eq scopedSems_eq defs main (fun _ => ops) main_eq (fun _ => ops_sub) m ρ (fun _ => ops_fresh))

end Cert.RefSide

end
-- ==== Proof.lean ====
/-
  Three graph-convolution layers and a linear head, as a Pallas program and as plain jnp: the certificate.

  Both programs compute, over N = 100000 nodes and E = 6400000 weighted edges, per layer
      xw = h · W,   agg = segment_sum(norm · xw[src], dst),   out = elu(agg + dinv² · xw + b),
  with deg = segment_sum(w, dst) + 1, dinv = where(deg > 0, rsqrt(deg), 0), norm = dinv[src] · w · dinv[dst],
  and then h · Wm + bm. The Pallas program does the four products and the three fused epilogues in kernels, row tile
  by row tile, and computes dinv and norm once; the reference does everything on the host and recomputes them per layer.
  At the ideal instance (floats are extended reals, every operation exact, a change of format the identity):
    · a row tile's matmul into a zero accumulator is that tile's rows of the whole product (the same sum over k);
    · the kernel's where(y > 0, y, exp y − 1) is the reference's where(y > 0, y, 1 · expm1(where(y > 0, 0, y))),
      since expm1 z = exp z − 1, 1 · z = z, and the inner choice is y exactly where the outer one takes that branch;
    · a vector reshaped to a column, or to a row, and the same vector broadcast along that axis agree entry by entry;
    · a pad by nothing is its operand.
  No law used needs finiteness, so the precondition is never opened. Both runs end at one function G of the arguments
  (Spec.lean): the reference's by reading its host operations in order (RefRun.lean), the kernel's by walking the
  contents of its buffers from segment to segment (KRun.lean, KValue.lean). The idealization rewrote nothing.
-/
import proofs.«142261_j89635967467582_2_alg».proof.Defs
import proofs.«142261_j89635967467582_2_alg».proof.Proof.Gen.Kernel
import proofs.«142261_j89635967467582_2_alg».proof.Proof.Gen.Kernel.Skeleton
import proofs.«142261_j89635967467582_2_alg».proof.Proof.Gen.Kernel.Launch
import proofs.«142261_j89635967467582_2_alg».proof.Proof.Gen.Kernel.Points
import proofs.«142261_j89635967467582_2_alg».proof.Proof.Gen.Kernel.Frame
import proofs.«142261_j89635967467582_2_alg».proof.Proof.Gen.KernelIdeal
import proofs.«142261_j89635967467582_2_alg».proof.Proof.Gen.KernelIdeal.Skeleton
import proofs.«142261_j89635967467582_2_alg».proof.Proof.Gen.KernelIdeal.Launch
import proofs.«142261_j89635967467582_2_alg».proof.Proof.Gen.KernelIdeal.Points
import proofs.«142261_j89635967467582_2_alg».proof.Proof.Gen.KernelIdeal.Frame
import proofs.«142261_j89635967467582_2_alg».proof.Proof.Gen.ReferenceIdeal
import proofs.«142261_j89635967467582_2_alg».proof.Proof.Gen.Pre_finite_inputs
import proofs.«142261_j89635967467582_2_alg».proof.Proof.KRun
import proofs.«142261_j89635967467582_2_alg».proof.Proof.KValue
import proofs.«142261_j89635967467582_2_alg».proof.Proof.RefRun
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.RefSide.run (F := Ideal) m ρ)

/-- The idealization rewrote no operation. -/
theorem preserves : Cert.preserves_Kernel_KernelIdeal := trivial

/-- The idealized kernel's run ends with its result array at G of the launch arguments, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v96)
        = Cert.Spec.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono (fun _ h c => ⟨(h c).1.trans (Cert.KernelSide.value m ρ c), (h c).2⟩)
    (Cert.KernelIdeal.Gen.run_named (F := Ideal) m ρ)

/-- From memories agreeing on the arguments both idealized programs end at G of those arguments. -/
theorem algebraic : Cert.algebraic_KernelIdeal_ReferenceIdeal := by
  intro m ρ m' ρ' _ hagree
  refine ⟨_, kernel_run m ρ, ?_⟩
  refine (θ_run (Cert.ReferenceIdeal.defs (F := Ideal)) _ _).mono (fun _ h c => ⟨(h c).1.trans ?_, (h c).2⟩)
    (Cert.RefSide.run (F := Ideal) m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
